-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x196x384 : Shape := ⟨3, ![256, 196, 384]⟩
abbrev S1536x384 : Shape := ⟨2, ![1536, 384]⟩
abbrev S1536 : Shape := ⟨1, ![1536]⟩
abbrev S384x1536 : Shape := ⟨2, ![384, 1536]⟩
abbrev S384 : Shape := ⟨1, ![384]⟩
abbrev S1 : Shape := ⟨1, ![1]⟩
abbrev S_ : Shape := ⟨0, ![]⟩

class Facts : Prop where
  bcast_S_S256x196x384 : S_.BroadcastsInDim S256x196x384 (![] : Fin 0 → Fin S256x196x384.rank)
  reducesTo_S256x196x384_S_d0_1_2 : S256x196x384.ReducesTo [0, 1, 2] S_
  h_S_ : 0 < S_.numel
  bcast_S_S1536x384 : S_.BroadcastsInDim S1536x384 (![] : Fin 0 → Fin S1536x384.rank)
  reducesTo_S1536x384_S_d0_1 : S1536x384.ReducesTo [0, 1] S_
  bcast_S_S1536 : S_.BroadcastsInDim S1536 (![] : Fin 0 → Fin S1536.rank)
  reducesTo_S1536_S_d0 : S1536.ReducesTo [0] S_
  bcast_S_S384x1536 : S_.BroadcastsInDim S384x1536 (![] : Fin 0 → Fin S384x1536.rank)
  reducesTo_S384x1536_S_d0_1 : S384x1536.ReducesTo [0, 1] S_
  bcast_S_S384 : S_.BroadcastsInDim S384 (![] : Fin 0 → Fin S384.rank)
  reducesTo_S384_S_d0 : S384.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S384 .f32) (main_arg5 : FVec F S1 .f32) (main_v13 : IVec S_ 1) (main_v16 : IVec S384x1536 1) : IVec S_ 1 :=
  let main_c_5 : IVec S_ 1 := constantI S_ 1 1#1
  let main_v17 : IVec S_ 1 := (fun x v => Host.reduce IntOp.andi x v reducesTo_S384x1536_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S256x196x384 .f32) (main_arg1 : FVec F S1536x384 .f32) (main_arg2 : FVec F S1536 .f32) (main_arg3 : FVec F S384x1536 .f32) (main_arg4 : FVec F S384 .f32) (main_arg5 : FVec F S1 .f32) : IVec S_ 1 :=
  let main_v0 : FVec F S256x196x384 .f32 := Host.absf main_arg0
  let main_cst : FVec F S_ .f32 := constant S_ .f32 0x7F800000#32
  let main_v1 : FVec F S256x196x384 .f32 := broadcastInDim S256x196x384 ![] bcast_S_S256x196x384 main_cst
  let main_v2 : IVec S256x196x384 1 := cmpf .olt main_v0 main_v1
  let main_c : IVec S_ 1 := constantI S_ 1 1#1
  let main_v3 : IVec S_ 1 := (fun x v => Host.reduce IntOp.andi x v reducesTo_S256x196x384_S_d0_1_2 h_S_) main_v2 main_c
  let main_v4 : FVec F S1536x384 .f32 := Host.absf main_arg1
  let main_cst_0 : FVec F S_ .f32 := constant S_ .f32 0x7F800000#32
  let main_v5 : FVec F S1536x384 .f32 := broadcastInDim S1536x384 ![] bcast_S_S1536x384 main_cst_0
  let main_v6 : IVec S1536x384 1 := cmpf .olt main_v4 main_v5
  let main_c_1 : IVec S_ 1 := constantI S_ 1 1#1
  let main_v7 : IVec S_ 1 := (fun x v => Host.reduce IntOp.andi x v reducesTo_S1536x384_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S384x1536 .f32 := Host.absf main_arg3
  let main_cst_4 : FVec F S_ .f32 := constant S_ .f32 0x7F800000#32
  let main_v15 : FVec F S384x1536 .f32 := broadcastInDim S384x1536 ![] bcast_S_S384x1536 main_cst_4
  let main_v16 : IVec S384x1536 1 := cmpf .olt main_v14 main_v15
  fn_part1 (F := F) main_arg4 main_arg5 main_v13 main_v16
-- ==== Kernel.lean ====
abbrev S256x196x384 : Shape := ⟨3, ![256, 196, 384]⟩
abbrev S1536x384 : Shape := ⟨2, ![1536, 384]⟩
abbrev S1536 : Shape := ⟨1, ![1536]⟩
abbrev S384x1536 : Shape := ⟨2, ![384, 1536]⟩
abbrev S384 : Shape := ⟨1, ![384]⟩
abbrev S1 : Shape := ⟨1, ![1]⟩
abbrev S50176x384 : Shape := ⟨2, ![50176, 384]⟩
abbrev S1x1 : Shape := ⟨2, ![1, 1]⟩
abbrev S_ : Shape := ⟨0, ![]⟩
abbrev S1536x1 : Shape := ⟨2, ![1536, 1]⟩
abbrev S1x1536 : Shape := ⟨2, ![1, 1536]⟩
abbrev S50176x1536 : Shape := ⟨2, ![50176, 1536]⟩
abbrev S392x128 : Shape := ⟨2, ![392, 128]⟩
abbrev S1024x384 : Shape := ⟨2, ![1024, 384]⟩
abbrev S1024x1536 : Shape := ⟨2, ![1024, 1536]⟩
abbrev S8x128 : Shape := ⟨2, ![8, 128]⟩
abbrev S1024 : Shape := ⟨1, ![1024]⟩
abbrev S1024x1 : Shape := ⟨2, ![1024, 1]⟩
abbrev S384x1 : Shape := ⟨2, ![384, 1]⟩
abbrev S1x384 : Shape := ⟨2, ![1, 384]⟩

abbrev nBuf : Space → Nat
  | .hbm => 81
  | .vmem => 25
  | .smem => 0
  | _ => 0

abbrev bufTy : (tb : Table) → Fin (tcTables nBuf tb) → BufTy
  | .hbm, ⟨0, _⟩ => ⟨S256x196x384, .f32⟩
  | .hbm, ⟨1, _⟩ => ⟨S1536x384, .f32⟩
  | .hbm, ⟨2, _⟩ => ⟨S1536, .f32⟩
  | .hbm, ⟨3, _⟩ => ⟨S384x1536, .f32⟩
  | .hbm, ⟨4, _⟩ => ⟨S384, .f32⟩
  | .hbm, ⟨5, _⟩ => ⟨S1, .f32⟩
  | .hbm, ⟨6, _⟩ => ⟨S50176x384, .f32⟩
  | .hbm, ⟨7, _⟩ => ⟨S1x1, .f32⟩
  | .hbm, ⟨8, _⟩ => ⟨S_, .f32⟩
  | .hbm, ⟨9, _⟩ => ⟨S1536x384, .f32⟩
  | .hbm, ⟨10, _⟩ => ⟨S_, .f32⟩
  | .hbm, ⟨11, _⟩ => ⟨S1536, .f32⟩
  | .hbm, ⟨12, _⟩ => ⟨S_, .f32⟩
  | .hbm, ⟨13, _⟩ => ⟨S1536, .f32⟩
  | .hbm, ⟨14, _⟩ => ⟨S1536, .f32⟩
  | .hbm, ⟨15, _⟩ => ⟨S1536x1, .f32⟩
  | .hbm, ⟨16, _⟩ => ⟨S1536x384, .f32⟩
  | .hbm, ⟨17, _⟩ => ⟨S1536x384, .f32⟩
  | .hbm, ⟨18, _⟩ => ⟨S1536x384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1536x384, .f32⟩
  | .hbm, ⟨23, _⟩ => ⟨S1536x384, .f32⟩
  | .hbm, ⟨24, _⟩ => ⟨S_, .f32⟩
  | .hbm, ⟨25, _⟩ => ⟨S1536x384, .f32⟩
  | .hbm, ⟨26, _⟩ => ⟨S1536x384, .f32⟩
  | .hbm, ⟨27, _⟩ => ⟨S1536x384, .bf16⟩
  | .hbm, ⟨28, _⟩ => ⟨S1536, .f32⟩
  | .hbm, ⟨29, _⟩ => ⟨S1536, .f32⟩
  | .hbm, ⟨30, _⟩ => ⟨S1x1536, .f32⟩
  | .hbm, ⟨31, _⟩ => ⟨S1536, .f32⟩
  | .hbm, ⟨32, _⟩ => ⟨S1536, .f32⟩
  | .hbm, ⟨33, _⟩ => ⟨S1536, .f32⟩
  | .hbm, ⟨34, _⟩ => ⟨S1536, .f32⟩
  | .hbm, ⟨35, _⟩ => ⟨S1x1536, .f32⟩
  | .hbm, ⟨36, _⟩ => ⟨S50176x1536, .f32⟩
  | .hbm, ⟨37, _⟩ => ⟨S392x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x1, .f32⟩
  | .hbm, ⟨43, _⟩ => ⟨S_, .f32⟩
  | .hbm, ⟨44, _⟩ => ⟨S384x1536, .f32⟩
  | .hbm, ⟨45, _⟩ => ⟨S_, .f32⟩
  | .hbm, ⟨46, _⟩ => ⟨S384, .f32⟩
  | .hbm, ⟨47, _⟩ => ⟨S_, .f32⟩
  | .hbm, ⟨48, _⟩ => ⟨S384, .f32⟩
  | .hbm, ⟨49, _⟩ => ⟨S384, .f32⟩
  | .hbm, ⟨50, _⟩ => ⟨S384x1, .f32⟩
  | .hbm, ⟨51, _⟩ => ⟨S384x1536, .f32⟩
  | .hbm, ⟨52, _⟩ => ⟨S384x1536, .f32⟩
  | .hbm, ⟨53, _⟩ => ⟨S384x1536, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S384x1536, .f32⟩
  | .hbm, ⟨58, _⟩ => ⟨S384x1536, .f32⟩
  | .hbm, ⟨59, _⟩ => ⟨S_, .f32⟩
  | .hbm, ⟨60, _⟩ => ⟨S384x1536, .f32⟩
  | .hbm, ⟨61, _⟩ => ⟨S384x1536, .f32⟩
  | .hbm, ⟨62, _⟩ => ⟨S384x1536, .bf16⟩
  | .hbm, ⟨63, _⟩ => ⟨S384, .f32⟩
  | .hbm, ⟨64, _⟩ => ⟨S384, .f32⟩
  | .hbm, ⟨65, _⟩ => ⟨S1x384, .f32⟩
  | .hbm, ⟨66, _⟩ => ⟨S384, .f32⟩
  | .hbm, ⟨67, _⟩ => ⟨S384, .f32⟩
  | .hbm, ⟨68, _⟩ => ⟨S384, .f32⟩
  | .hbm, ⟨69, _⟩ => ⟨S384, .f32⟩
  | .hbm, ⟨70, _⟩ => ⟨S1x384, .f32⟩
  | .hbm, ⟨71, _⟩ => ⟨S50176x384, .f32⟩
  | .hbm, ⟨72, _⟩ => ⟨S392x128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1x1, .f32⟩
  | .hbm, ⟨78, _⟩ => ⟨S50176x384, .f32⟩
  | .hbm, ⟨79, _⟩ => ⟨S256x196x384, .f32⟩
  | .hbm, ⟨80, _⟩ => ⟨S_, .f32⟩
  | .local _ .vmem, ⟨0, _⟩ => ⟨S1024x384, .f32⟩
  | .local _ .vmem, ⟨1, _⟩ => ⟨S1024x384, .f32⟩
  | .local _ .vmem, ⟨2, _⟩ => ⟨S1x1, .f32⟩
  | .local _ .vmem, ⟨3, _⟩ => ⟨S1536x384, .bf16⟩
  | .local _ .vmem, ⟨4, _⟩ => ⟨S1x1536, .f32⟩
  | .local _ .vmem, ⟨5, _⟩ => ⟨S1x1536, .f32⟩
  | .local _ .vmem, ⟨6, _⟩ => ⟨S1024x1536, .f32⟩
  | .local _ .vmem, ⟨7, _⟩ => ⟨S1024x1536, .f32⟩
  | .local _ .vmem, ⟨8, _⟩ => ⟨S8x128, .f32⟩
  | .local _ .vmem, ⟨9, _⟩ => ⟨S8x128, .f32⟩
  | .local _ .vmem, ⟨10, _⟩ => ⟨S1024x1536, .f32⟩
  | .local _ .vmem, ⟨11, _⟩ => ⟨S1024x1536, .f32⟩
  | .local _ .vmem, ⟨12, _⟩ => ⟨S1x1, .f32⟩
  | .local _ .vmem, ⟨13, _⟩ => ⟨S384x1536, .bf16⟩
  | .local _ .vmem, ⟨14, _⟩ => ⟨S1x384, .f32⟩
  | .local _ .vmem, ⟨15, _⟩ => ⟨S1x384, .f32⟩
  | .local _ .vmem, ⟨16, _⟩ => ⟨S1024x384, .f32⟩
  | .local _ .vmem, ⟨17, _⟩ => ⟨S1024x384, .f32⟩
  | .local _ .vmem, ⟨18, _⟩ => ⟨S8x128, .f32⟩
  | .local _ .vmem, ⟨19, _⟩ => ⟨S8x128, .f32⟩
  | .local _ .vmem, ⟨20, _⟩ => ⟨S1024x384, .f32⟩
  | .local _ .vmem, ⟨21, _⟩ => ⟨S1024x384, .f32⟩
  | .local _ .vmem, ⟨22, _⟩ => ⟨S1x1, .f32⟩
  | .local _ .vmem, ⟨23, _⟩ => ⟨S1024x384, .f32⟩
  | .local _ .vmem, ⟨24, _⟩ => ⟨S1024x384, .f32⟩
  | _, _ => ⟨S256x196x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_cst_3 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_cst_8 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44_0 : Ref sig .tc := ⟨.hbm, 71, rfl⟩
abbrev main_v44_1 : Ref sig .tc := ⟨.hbm, 72, rfl⟩
abbrev main_cst_9 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S256x196x384_S50176x384 : S256x196x384.ShapeCasts S50176x384
  shapeCasts_S1_S1x1 : S1.ShapeCasts S1x1
  shapeCasts_S1_S_ : S1.ShapeCasts S_
  reducesTo_S1536x384_S1536_d1 : S1536x384.ReducesTo [1] S1536
  h_S_ : 0 < S_.numel
  bcast_S_S1536 : S_.BroadcastsInDim S1536 (![] : Fin 0 → Fin S1536.rank)
  bcast_S1536_S1536x1_0 : S1536.BroadcastsInDim S1536x1 (![0] : Fin 1 → Fin S1536x1.rank)
  bcast_S1536x1_S1536x384_0_1 : S1536x1.BroadcastsInDim S1536x384 (![0, 1] : Fin 2 → Fin S1536x384.rank)
  bcast_S_S1536x384 : S_.BroadcastsInDim S1536x384 (![] : Fin 0 → Fin S1536x384.rank)
  bitsLt_bf16_f32 : FTy.bits .bf16 < FTy.bits .f32
  shapeCasts_S1536_S1x1536 : S1536.ShapeCasts S1x1536
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x384 : S1x1.Broadcasts S1024x384
  inb_S1536x384_S1536x384_0_0 : ∀ a, (![0, 0] : Fin 2 → Nat) a + S1536x384.size a ≤ S1536x384.size a
  h_S1536x384 : 0 < S1536x384.numel
  shapeCasts_S1536x384_S1536x384 : S1536x384.ShapeCasts S1536x384
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  reduces_S1024x1536_S1024 : S1024x1536.Reduces [1] S1024
  shapeCasts_S1024_S1024x1 : S1024.ShapeCasts S1024x1
  reduces_S1024x1_S1 : S1024x1.Reduces [0] S1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S392x128_S_d0_1 : S392x128.ReducesTo [0, 1] S_
  shapeCasts_S_S1x1 : S_.ShapeCasts S1x1
  shapeCasts_S1x1_S_ : S1x1.ShapeCasts S_
  reducesTo_S384x1536_S384_d1 : S384x1536.ReducesTo [1] S384
  bcast_S_S384 : S_.BroadcastsInDim S384 (![] : Fin 0 → Fin S384.rank)
  bcast_S384_S384x1_0 : S384.BroadcastsInDim S384x1 (![0] : Fin 1 → Fin S384x1.rank)
  bcast_S384x1_S384x1536_0_1 : S384x1.BroadcastsInDim S384x1536 (![0, 1] : Fin 2 → Fin S384x1536.rank)
  bcast_S_S384x1536 : S_.BroadcastsInDim S384x1536 (![] : Fin 0 → Fin S384x1536.rank)
  shapeCasts_S384_S1x384 : S384.ShapeCasts S1x384
  shapeCasts_S1024x1536_S1024x1536 : S1024x1536.ShapeCasts S1024x1536
  broadcasts_S1x1_S1024x1536 : S1x1.Broadcasts S1024x1536
  inb_S384x1536_S384x1536_0_0 : ∀ a, (![0, 0] : Fin 2 → Nat) a + S384x1536.size a ≤ S384x1536.size a
  h_S384x1536 : 0 < S384x1536.numel
  shapeCasts_S384x1536_S384x1536 : S384x1536.ShapeCasts S384x1536
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  reduces_S1024x384_S1024 : S1024x384.Reduces [1] S1024
  shapeCasts_S50176x384_S256x196x384 : S50176x384.ShapeCasts S256x196x384
  dot_S1024x384_S1536x384_S1024x1536_1_1_0_0_n_n_wf : DotDims.WF S1024x384 S1536x384 S1024x1536 [1] [1] [0] [0] [] []
  dot_S1024x1536_S384x1536_S1024x384_1_1_0_0_n_n_wf : DotDims.WF S1024x1536 S384x1536 S1024x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x384.size a ≤ S50176x384.size a
  hwx0_0 : ∀ i : grid0.Coords, EltTy.bits .f32 = 32 ∨ (Rect.block (s := S50176x384) S1024x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x384.size a ≤ S1536x384.size a
  hwx0_2 : ∀ i : grid0.Coords, EltTy.bits .bf16 = 32 ∨ (Rect.block (s := S1536x384) S1536x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1536.size a ≤ S50176x1536.size a
  hwx0_5 : ∀ i : grid0.Coords, EltTy.bits .f32 = 32 ∨ (Rect.block (s := S50176x1536) S1024x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S392x128.size a
  hwx0_6 : ∀ i : grid0.Coords, EltTy.bits .f32 = 32 ∨ (Rect.block (s := S392x128) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1536.size a ≤ S50176x1536.size a
  hwx1_0 : ∀ i : grid1.Coords, EltTy.bits .f32 = 32 ∨ (Rect.block (s := S50176x1536) S1024x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x1536.size a ≤ S384x1536.size a
  hwx1_2 : ∀ i : grid1.Coords, EltTy.bits .bf16 = 32 ∨ (Rect.block (s := S384x1536) S384x1536.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x384.size a ≤ S50176x384.size a
  hwx1_5 : ∀ i : grid1.Coords, EltTy.bits .f32 = 32 ∨ (Rect.block (s := S50176x384) S1024x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S392x128.size a
  hwx1_6 : ∀ i : grid1.Coords, EltTy.bits .f32 = 32 ∨ (Rect.block (s := S392x128) S8x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x384.size a ≤ S50176x384.size a
  hwx2_0 : ∀ i : grid2.Coords, EltTy.bits .f32 = 32 ∨ (Rect.block (s := S50176x384) S1024x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x384.size a ≤ S50176x384.size a
  hwx2_2 : ∀ i : grid2.Coords, EltTy.bits .f32 = 32 ∨ (Rect.block (s := S50176x384) S1024x384.size (cc2_transform_2 i) (hinb2_2 i)).WholeWords (EltTy.packing .f32)

variable [Facts₀]

def dot_S1024x384_S1536x384_S1024x1536_1_1_0_0_n_n : DotDims S1024x384 S1536x384 S1024x1536 where
  lhsContracting := [1]
  rhsContracting := [1]
  lhsNonContracting := [0]
  rhsNonContracting := [0]
  lhsBatch := []
  rhsBatch := []
  wf := dot_S1024x384_S1536x384_S1024x1536_1_1_0_0_n_n_wf
def dot_S1024x1536_S384x1536_S1024x384_1_1_0_0_n_n : DotDims S1024x1536 S384x1536 S1024x384 where
  lhsContracting := [1]
  rhsContracting := [1]
  lhsNonContracting := [0]
  rhsNonContracting := [0]
  lhsBatch := []
  rhsBatch := []
  wf := dot_S1024x1536_S384x1536_S1024x384_1_1_0_0_n_n_wf

abbrev win0_0 : Pipeline.Window sig grid0 :=
  Pipeline.Window.ofSpec (Memref.whole main_v0) S1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1536x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S1024x1536.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21_0) S1024x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S384x1536.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44_0) S1024x384.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v44_1) S8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44_0) S1024x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1024x384.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S256x196x384 : Shape := ⟨3, ![256, 196, 384]⟩
abbrev S1536x384 : Shape := ⟨2, ![1536, 384]⟩
abbrev S1536 : Shape := ⟨1, ![1536]⟩
abbrev S384x1536 : Shape := ⟨2, ![384, 1536]⟩
abbrev S384 : Shape := ⟨1, ![384]⟩
abbrev S1 : Shape := ⟨1, ![1]⟩
abbrev S_ : Shape := ⟨0, ![]⟩
abbrev S1536x1 : Shape := ⟨2, ![1536, 1]⟩
abbrev S1x1x1 : Shape := ⟨3, ![1, 1, 1]⟩
abbrev S256x196x1536 : Shape := ⟨3, ![256, 196, 1536]⟩
abbrev S1x1x1536 : Shape := ⟨3, ![1, 1, 1536]⟩
abbrev S384x1 : Shape := ⟨2, ![384, 1]⟩
abbrev S1x1x384 : Shape := ⟨3, ![1, 1, 384]⟩

abbrev nBuf : Space → Nat
  | .hbm => 112
  | .vmem => 0
  | .smem => 0
  | _ => 0

abbrev bufTy : (tb : Table) → Fin (tcTables nBuf tb) → BufTy
  | .hbm, ⟨0, _⟩ => ⟨S256x196x384, .f32⟩
  | .hbm, ⟨1, _⟩ => ⟨S1536x384, .f32⟩
  | .hbm, ⟨2, _⟩ => ⟨S1536, .f32⟩
  | .hbm, ⟨3, _⟩ => ⟨S384x1536, .f32⟩
  | .hbm, ⟨4, _⟩ => ⟨S384, .f32⟩
  | .hbm, ⟨5, _⟩ => ⟨S1, .f32⟩
  | .hbm, ⟨6, _⟩ => ⟨S1536x384, .f32⟩
  | .hbm, ⟨7, _⟩ => ⟨S_, .f32⟩
  | .hbm, ⟨8, _⟩ => ⟨S1536, .f32⟩
  | .hbm, ⟨9, _⟩ => ⟨S_, .f32⟩
  | .hbm, ⟨10, _⟩ => ⟨S1536, .f32⟩
  | .hbm, ⟨11, _⟩ => ⟨S1536, .f32⟩
  | .hbm, ⟨12, _⟩ => ⟨S1536x1, .f32⟩
  | .hbm, ⟨13, _⟩ => ⟨S1536x384, .f32⟩
  | .hbm, ⟨14, _⟩ => ⟨S1536x384, .f32⟩
  | .hbm, ⟨15, _⟩ => ⟨S1536x384, .f32⟩
  | .hbm, ⟨16, _⟩ => ⟨S_, .i32⟩
  | .hbm, ⟨17, _⟩ => ⟨S_, .i32⟩
  | .hbm, ⟨18, _⟩ => ⟨S_, .f32⟩
  | .hbm, ⟨19, _⟩ => ⟨S1536x384, .f32⟩
  | .hbm, ⟨20, _⟩ => ⟨S1536x384, .f32⟩
  | .hbm, ⟨21, _⟩ => ⟨S_, .f32⟩
  | .hbm, ⟨22, _⟩ => ⟨S1536x384, .f32⟩
  | .hbm, ⟨23, _⟩ => ⟨S1536x384, .f32⟩
  | .hbm, ⟨24, _⟩ => ⟨S1x1x1, .f32⟩
  | .hbm, ⟨25, _⟩ => ⟨S256x196x384, .f32⟩
  | .hbm, ⟨26, _⟩ => ⟨S256x196x384, .f32⟩
  | .hbm, ⟨27, _⟩ => ⟨S1536, .f32⟩
  | .hbm, ⟨28, _⟩ => ⟨S1536, .f32⟩
  | .hbm, ⟨29, _⟩ => ⟨S1536, .f32⟩
  | .hbm, ⟨30, _⟩ => ⟨S1536, .f32⟩
  | .hbm, ⟨31, _⟩ => ⟨S256x196x1536, .f32⟩
  | .hbm, ⟨32, _⟩ => ⟨S1x1x1536, .f32⟩
  | .hbm, ⟨33, _⟩ => ⟨S256x196x1536, .f32⟩
  | .hbm, ⟨34, _⟩ => ⟨S256x196x1536, .f32⟩
  | .hbm, ⟨35, _⟩ => ⟨S1536, .f32⟩
  | .hbm, ⟨36, _⟩ => ⟨S1536, .f32⟩
  | .hbm, ⟨37, _⟩ => ⟨S1x1x1536, .f32⟩
  | .hbm, ⟨38, _⟩ => ⟨S256x196x1536, .f32⟩
  | .hbm, ⟨39, _⟩ => ⟨S256x196x1536, .f32⟩
  | .hbm, ⟨40, _⟩ => ⟨S_, .f32⟩
  | .hbm, ⟨41, _⟩ => ⟨S256x196x1536, .f32⟩
  | .hbm, ⟨42, _⟩ => ⟨S256x196x1536, .f32⟩
  | .hbm, ⟨43, _⟩ => ⟨S256x196x1536, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S256x196x1536, .f32⟩
  | .hbm, ⟨49, _⟩ => ⟨S256x196x1536, .f32⟩
  | .hbm, ⟨50, _⟩ => ⟨S256x196x1536, .f32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S256x196x1536, .f32⟩
  | .hbm, ⟨55, _⟩ => ⟨S256x196x1536, .f32⟩
  | .hbm, ⟨56, _⟩ => ⟨S_, .f32⟩
  | .hbm, ⟨57, _⟩ => ⟨S256x196x1536, .f32⟩
  | .hbm, ⟨58, _⟩ => ⟨S256x196x1536, .f32⟩
  | .hbm, ⟨59, _⟩ => ⟨S256x196x1536, .f32⟩
  | .hbm, ⟨60, _⟩ => ⟨S256x196x1536, .f32⟩
  | .hbm, ⟨61, _⟩ => ⟨S384x1536, .f32⟩
  | .hbm, ⟨62, _⟩ => ⟨S_, .f32⟩
  | .hbm, ⟨63, _⟩ => ⟨S384, .f32⟩
  | .hbm, ⟨64, _⟩ => ⟨S_, .f32⟩
  | .hbm, ⟨65, _⟩ => ⟨S384, .f32⟩
  | .hbm, ⟨66, _⟩ => ⟨S384, .f32⟩
  | .hbm, ⟨67, _⟩ => ⟨S384x1, .f32⟩
  | .hbm, ⟨68, _⟩ => ⟨S384x1536, .f32⟩
  | .hbm, ⟨69, _⟩ => ⟨S384x1536, .f32⟩
  | .hbm, ⟨70, _⟩ => ⟨S384x1536, .f32⟩
  | .hbm, ⟨71, _⟩ => ⟨S_, .i32⟩
  | .hbm, ⟨72, _⟩ => ⟨S_, .i32⟩
  | .hbm, ⟨73, _⟩ => ⟨S_, .f32⟩
  | .hbm, ⟨74, _⟩ => ⟨S384x1536, .f32⟩
  | .hbm, ⟨75, _⟩ => ⟨S384x1536, .f32⟩
  | .hbm, ⟨76, _⟩ => ⟨S_, .f32⟩
  | .hbm, ⟨77, _⟩ => ⟨S384x1536, .f32⟩
  | .hbm, ⟨78, _⟩ => ⟨S384x1536, .f32⟩
  | .hbm, ⟨79, _⟩ => ⟨S256x196x1536, .f32⟩
  | .hbm, ⟨80, _⟩ => ⟨S256x196x1536, .f32⟩
  | .hbm, ⟨81, _⟩ => ⟨S384, .f32⟩
  | .hbm, ⟨82, _⟩ => ⟨S384, .f32⟩
  | .hbm, ⟨83, _⟩ => ⟨S384, .f32⟩
  | .hbm, ⟨84, _⟩ => ⟨S384, .f32⟩
  | .hbm, ⟨85, _⟩ => ⟨S256x196x384, .f32⟩
  | .hbm, ⟨86, _⟩ => ⟨S1x1x384, .f32⟩
  | .hbm, ⟨87, _⟩ => ⟨S256x196x384, .f32⟩
  | .hbm, ⟨88, _⟩ => ⟨S256x196x384, .f32⟩
  | .hbm, ⟨89, _⟩ => ⟨S384, .f32⟩
  | .hbm, ⟨90, _⟩ => ⟨S384, .f32⟩
  | .hbm, ⟨91, _⟩ => ⟨S1x1x384, .f32⟩
  | .hbm, ⟨92, _⟩ => ⟨S256x196x384, .f32⟩
  | .hbm, ⟨93, _⟩ => ⟨S256x196x384, .f32⟩
  | .hbm, ⟨94, _⟩ => ⟨S256x196x384, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S256x196x384, .f32⟩
  | .hbm, ⟨100, _⟩ => ⟨S256x196x384, .f32⟩
  | .hbm, ⟨101, _⟩ => ⟨S256x196x384, .f32⟩
  | .hbm, ⟨102, _⟩ => ⟨S_, .i32⟩
  | .hbm, ⟨103, _⟩ => ⟨S_, .i32⟩
  | .hbm, ⟨104, _⟩ => ⟨S_, .f32⟩
  | .hbm, ⟨105, _⟩ => ⟨S256x196x384, .f32⟩
  | .hbm, ⟨106, _⟩ => ⟨S256x196x384, .f32⟩
  | .hbm, ⟨107, _⟩ => ⟨S_, .f32⟩
  | .hbm, ⟨108, _⟩ => ⟨S256x196x384, .f32⟩
  | .hbm, ⟨109, _⟩ => ⟨S256x196x384, .f32⟩
  | .hbm, ⟨110, _⟩ => ⟨S256x196x384, .f32⟩
  | .hbm, ⟨111, _⟩ => ⟨S256x196x384, .f32⟩
  | _, _ => ⟨S256x196x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call3_cst : Ref sig .tc := ⟨.hbm, 40, rfl⟩
abbrev main_call3_v0 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_c_5 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_8 : Ref sig .tc := ⟨.hbm, 71, rfl⟩
abbrev main_c_9 : Ref sig .tc := ⟨.hbm, 72, rfl⟩
abbrev main_call7_v0 : Ref sig .tc := ⟨.hbm, 73, rfl⟩
abbrev main_call7_v1 : Ref sig .tc := ⟨.hbm, 74, rfl⟩
abbrev main_call7_v2 : Ref sig .tc := ⟨.hbm, 75, rfl⟩
abbrev main_call7_v3 : Ref sig .tc := ⟨.hbm, 76, rfl⟩
abbrev main_call7_v4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_cst_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_12 : Ref sig .tc := ⟨.hbm, 102, rfl⟩
abbrev main_c_13 : Ref sig .tc := ⟨.hbm, 103, rfl⟩
abbrev main_call10_v0 : Ref sig .tc := ⟨.hbm, 104, rfl⟩
abbrev main_call10_v1 : Ref sig .tc := ⟨.hbm, 105, rfl⟩
abbrev main_call10_v2 : Ref sig .tc := ⟨.hbm, 106, rfl⟩
abbrev main_call10_v3 : Ref sig .tc := ⟨.hbm, 107, rfl⟩
abbrev main_call10_v4 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩

abbrev nD : Nat := 1
abbrev τ : Topo := Topo.v7x

variable {F : FTy → Type} [FloatOps F]

class Facts₀ : Prop where
  reducesTo_S1536x384_S1536_d1 : S1536x384.ReducesTo [1] S1536
  h_S_ : 0 < S_.numel
  bcast_S_S1536 : S_.BroadcastsInDim S1536 (![] : Fin 0 → Fin S1536.rank)
  bcast_S1536_S1536x1_0 : S1536.BroadcastsInDim S1536x1 (![0] : Fin 1 → Fin S1536x1.rank)
  bcast_S1536x1_S1536x384_0_1 : S1536x1.BroadcastsInDim S1536x384 (![0, 1] : Fin 2 → Fin S1536x384.rank)
  bcast_S_S1536x384 : S_.BroadcastsInDim S1536x384 (![] : Fin 0 → Fin S1536x384.rank)
  bcast_S1_S1x1x1_2 : S1.BroadcastsInDim S1x1x1 (![2] : Fin 1 → Fin S1x1x1.rank)
  bcast_S1x1x1_S256x196x384_0_1_2 : S1x1x1.BroadcastsInDim S256x196x384 (![0, 1, 2] : Fin 3 → Fin S256x196x384.rank)
  bcast_S1_S1536_0 : S1.BroadcastsInDim S1536 (![0] : Fin 1 → Fin S1536.rank)
  bcast_S1536_S1x1x1536_2 : S1536.BroadcastsInDim S1x1x1536 (![2] : Fin 1 → Fin S1x1x1536.rank)
  bcast_S1x1x1536_S256x196x1536_0_1_2 : S1x1x1536.BroadcastsInDim S256x196x1536 (![0, 1, 2] : Fin 3 → Fin S256x196x1536.rank)
  bcast_S_S256x196x1536 : S_.BroadcastsInDim S256x196x1536 (![] : Fin 0 → Fin S256x196x1536.rank)
  reducesTo_S256x196x1536_S_d0_1_2 : S256x196x1536.ReducesTo [0, 1, 2] S_
  reducesTo_S384x1536_S384_d1 : S384x1536.ReducesTo [1] S384
  bcast_S_S384 : S_.BroadcastsInDim S384 (![] : Fin 0 → Fin S384.rank)
  bcast_S384_S384x1_0 : S384.BroadcastsInDim S384x1 (![0] : Fin 1 → Fin S384x1.rank)
  bcast_S384x1_S384x1536_0_1 : S384x1.BroadcastsInDim S384x1536 (![0, 1] : Fin 2 → Fin S384x1536.rank)
  bcast_S_S384x1536 : S_.BroadcastsInDim S384x1536 (![] : Fin 0 → Fin S384x1536.rank)
  bcast_S384_S1x1x384_2 : S384.BroadcastsInDim S1x1x384 (![2] : Fin 1 → Fin S1x1x384.rank)
  bcast_S1x1x384_S256x196x384_0_1_2 : S1x1x384.BroadcastsInDim S256x196x384 (![0, 1, 2] : Fin 3 → Fin S256x196x384.rank)
  reducesTo_S256x196x384_S_d0_1_2 : S256x196x384.ReducesTo [0, 1, 2] S_
  bcast_S_S256x196x384 : S_.BroadcastsInDim S256x196x384 (![] : Fin 0 → Fin S256x196x384.rank)
  dot_S256x196x384_S1536x384_S256x196x1536_2_1_01_0_n_n_wf : DotDims.WF S256x196x384 S1536x384 S256x196x1536 [2] [1] [0, 1] [0] [] []
  dot_S256x196x1536_S384x1536_S256x196x384_2_1_01_0_n_n_wf : DotDims.WF S256x196x1536 S384x1536 S256x196x384 [2] [1] [0, 1] [0] [] []

variable [Facts₀]

def dot_S256x196x384_S1536x384_S256x196x1536_2_1_01_0_n_n : DotDims S256x196x384 S1536x384 S256x196x1536 where
  lhsContracting := [2]
  rhsContracting := [1]
  lhsNonContracting := [0, 1]
  rhsNonContracting := [0]
  lhsBatch := []
  rhsBatch := []
  wf := dot_S256x196x384_S1536x384_S256x196x1536_2_1_01_0_n_n_wf
def dot_S256x196x1536_S384x1536_S256x196x384_2_1_01_0_n_n : DotDims S256x196x1536 S384x1536 S256x196x384 where
  lhsContracting := [2]
  rhsContracting := [1]
  lhsNonContracting := [0, 1]
  rhsNonContracting := [0]
  lhsBatch := []
  rhsBatch := []
  wf := dot_S256x196x1536_S384x1536_S256x196x384_2_1_01_0_n_n_wf

class Facts : Prop extends Facts₀ where

variable [Facts]
-- ==== Proof.RunValues.lean ====
/-
  The idealized kernel program's run with its two results named: every weakly fair execution of @main terminates,
  nothing faults, the argument arrays end as launched, and the two result buffers end at what the last stretch of
  host operations leaves in them (`W19`, the fold of the program's host stretches and regions from the launch memory).
-/
import proofs.«131268_j17901423689856_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the results read off the last thread state beside the arguments. -/
theorem run_values : θ_run defs (onTc (τ := τ) (main (F := F))) ⟨m, fun _ => 0, ρ⟩ (fun r => ∀ c : Dev nD,
      r.2.mem ((c.tc : Thread nD τ).loc main_v49) = W19 m ρ c (Proc.devRef .tc main_v49)
      ∧ r.2.mem ((c.tc : Thread nD τ).loc main_v50) = W19 m ρ c (Proc.devRef .tc main_v50)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v49 (by decide)),
       h c _ (mem_uc main_v50 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c)⟩)

end Cert.KernelIdeal.RunValues

end
-- ==== Proof.Spec.lean ====
/-
  The computation both programs perform, as pure functions on the extended reals.

  A quantized two-layer perceptron: every weight row is scaled to the 8-bit grid by its largest magnitude,
  the activations are divided by their scale, the integer product is taken, a rounded bias is added and the
  result is scaled back; the hidden layer is rectified and re-quantized by ITS largest magnitude, and so is
  the output.  Rows of the activation matrix are numbered 0 … M-1 (row-major over the batch and sequence
  axes); `k` is a layer's input width and `n` its output width.

  The two programs differ in one place: after re-quantizing the hidden layer to integers `c` the reference
  multiplies by the scale `a` and its second layer divides by `a` again, where the kernel feeds `c` itself.
  `secondLayer_eq` is the law that joins them: `(c · a) / a = c` when `a` is a nonzero real, both are `0` when
  `a` is infinite (then `c = 0`), and when `a = 0` the second layer's own scale `wScale · a` is `0`, so both
  outputs are `0` whatever was fed in.  No finiteness of the data is used.
-/
import Idealize.ShloMosaic.PureOps.Ideal
import Idealize.ShloMosaic.Lib.ValueIdx
import Mathlib.Data.EReal.Basic
import Mathlib.Algebra.BigOperators.Group.Finset.Basic

noncomputable section

namespace Cert.QMlp

open Idealize.ShloMosaic

/-- Round to the nearest integer, ties to even; the infinities are fixed. -/
def rne (v : EReal) : EReal := Ideal.liftRound Ideal.roundHalfEven v

/-- Round, then clip into the signed 8-bit range `[-128, 127]`. -/
def quant (v : EReal) : EReal := min ((127 : ℝ) : EReal) (max ((-128 : ℝ) : EReal) (rne v))

/-- The magnitude `max v (-v)`. -/
def absE (v : EReal) : EReal := max v (-v)

/-- The largest magnitude in a row (from `-∞`). -/
def rowAbsMax {k : ℕ} (w : Fin k → EReal) : EReal := Finset.univ.sup fun d => absE (w d)

/-- A weight row's scale: its largest magnitude over 127. -/
def wScale {k : ℕ} (w : Fin k → EReal) : EReal := Ideal.div (rowAbsMax w) ((127 : ℝ) : EReal)

/-- The integer weights: each entry over its row's scale, rounded and clipped. -/
def wInt {n k : ℕ} (W : Fin n → Fin k → EReal) (j : Fin n) (d : Fin k) : EReal :=
  quant (Ideal.div (W j d) (wScale (W j)))

/-- The scale of output channel `j`: its weight scale times the activations' scale `a`. -/
def chScale {n k : ℕ} (W : Fin n → Fin k → EReal) (a : EReal) (j : Fin n) : EReal := wScale (W j) * a

/-- The integer bias of output channel `j`. -/
def bInt {n k : ℕ} (W : Fin n → Fin k → EReal) (b : Fin n → EReal) (a : EReal) (j : Fin n) : EReal :=
  rne (Ideal.div (b j) (wScale (W j) * a))

/-- A linear layer on prepared parameters: `(Σ_d u r d · wq j d + bq j) · sc j`. -/
def lin {M n k : ℕ} (u : Fin M → Fin k → EReal) (wq : Fin n → Fin k → EReal) (bq : Fin n → EReal) (sc : Fin n → EReal)
    (r : Fin M) (j : Fin n) : EReal :=
  ((∑ d : Fin k, u r d * wq j d) + bq j) * sc j

/-- One quantized linear layer on integer activations `u`: `lin` on the integer weights, integer bias and channel scales. -/
def qlin {M n k : ℕ} (u : Fin M → Fin k → EReal) (W : Fin n → Fin k → EReal) (b : Fin n → EReal) (a : EReal) :
    Fin M → Fin n → EReal :=
  lin u (wInt W) (bInt W b a) (chScale W a)

/-- The largest magnitude of a matrix (from `-∞`). -/
def absMax {M n : ℕ} (f : Fin M → Fin n → EReal) : EReal :=
  Finset.univ.sup fun p : Fin M × Fin n => absE (f p.1 p.2)

/-- An activation matrix's scale: its largest magnitude over 127. -/
def actScale {M n : ℕ} (f : Fin M → Fin n → EReal) : EReal := Ideal.div (absMax f) ((127 : ℝ) : EReal)

/-- The hidden layer: the first linear layer on `x / s`, rectified. -/
def hidden {M n k : ℕ} (x : Fin M → Fin k → EReal) (W : Fin n → Fin k → EReal) (b : Fin n → EReal) (s : EReal)
    (r : Fin M) (j : Fin n) : EReal :=
  max (qlin (fun r d => Ideal.div (x r d) s) W b s r j) 0

/-- The hidden layer on the integer grid of scale `a` — what the kernel feeds its second layer. -/
def toGrid {M n : ℕ} (h : Fin M → Fin n → EReal) (a : EReal) (r : Fin M) (j : Fin n) : EReal :=
  quant (Ideal.div (h r j) a)

/-- What the reference feeds its second layer: the grid value times `a`, over `a` again. -/
def toGridRef {M n : ℕ} (h : Fin M → Fin n → EReal) (a : EReal) (r : Fin M) (j : Fin n) : EReal :=
  Ideal.div (toGrid h a r j * a) a

/-- Re-quantization of a matrix at scale `a`: the grid value times `a`. -/
def requant {M n : ℕ} (y : Fin M → Fin n → EReal) (a : EReal) (r : Fin M) (j : Fin n) : EReal :=
  quant (Ideal.div (y r j) a) * a

/-! ## The clipped value is a real number -/

theorem quant_real (v : EReal) : ∃ c : ℝ, quant v = (c : EReal) := by
  have hle : quant v ≤ ((127 : ℝ) : EReal) := min_le_left _ _
  have hge : ((-128 : ℝ) : EReal) ≤ quant v := le_min (by exact_mod_cast (by norm_num : (-128 : ℝ) ≤ 127)) (le_max_left _ _)
  induction h : quant v using EReal.rec with
  | bot => rw [h] at hge; exact absurd hge (by simp)
  | top => rw [h] at hle; exact absurd hle (by simp)
  | coe c => exact ⟨c, rfl⟩

theorem quant_zero : quant 0 = 0 := by
  have h0 : rne 0 = 0 := by
    show Ideal.liftRound Ideal.roundHalfEven ((0 : ℝ) : EReal) = 0
    rw [Ideal.liftRound_coe]
    simp [Ideal.roundHalfEven]
  unfold quant
  rw [h0]
  have h1 : max ((-128 : ℝ) : EReal) 0 = 0 := max_eq_right (by exact_mod_cast (by norm_num : (-128 : ℝ) ≤ 0))
  rw [h1]
  exact min_eq_right (by exact_mod_cast (by norm_num : (0 : ℝ) ≤ 127))

/-! ## The law -/

/-- What the reference feeds is what the kernel feeds, unless the scale is zero. -/
theorem toGridRef_eq {M n : ℕ} (h : Fin M → Fin n → EReal) (a : EReal) (ha : a ≠ 0) (r : Fin M) (j : Fin n) :
    toGridRef h a r j = toGrid h a r j := by
  unfold toGridRef
  obtain ⟨c, hc⟩ := quant_real (Ideal.div (h r j) a)
  induction a using EReal.rec with
  | bot =>
    have hz : toGrid h ⊥ r j = 0 := by
      unfold toGrid Ideal.div
      rw [if_neg (by simp), EReal.inv_bot, mul_zero, quant_zero]
    rw [hz, zero_mul]
    unfold Ideal.div
    rw [if_neg (by simp), zero_mul]
  | top =>
    have hz : toGrid h ⊤ r j = 0 := by
      unfold toGrid Ideal.div
      rw [if_neg (by simp), EReal.inv_top, mul_zero, quant_zero]
    rw [hz, zero_mul]
    unfold Ideal.div
    rw [if_neg (by simp), zero_mul]
  | coe a =>
    have ha' : a ≠ 0 := by intro e; exact ha (by rw [e]; rfl)
    have hg : toGrid h (a : EReal) r j = (c : EReal) := hc
    rw [hg]
    unfold Ideal.div
    rw [if_neg ha, ← EReal.coe_mul, ← EReal.coe_inv, ← EReal.coe_mul]
    congr 1
    field_simp

/-- The second layer's results agree, whatever the scale. -/
theorem secondLayer_eq {M n k : ℕ} (h : Fin M → Fin k → EReal) (a : EReal) (W : Fin n → Fin k → EReal) (b : Fin n → EReal) :
    qlin (toGridRef h a) W b a = qlin (toGrid h a) W b a := by
  funext r j
  by_cases ha : a = 0
  · unfold qlin lin chScale
    rw [ha, mul_zero, mul_zero, mul_zero]
  · unfold qlin lin
    have : (fun d => toGridRef h a r d * wInt W j d) = fun d => toGrid h a r d * wInt W j d :=
      funext fun d => by rw [toGridRef_eq h a ha]
    rw [this]

/-! ## The whole network, and arrays read as matrices -/

/-- The second layer's output as the kernel computes it. -/
def netY {M n k : ℕ} (x : Fin M → Fin k → EReal) (W1 : Fin n → Fin k → EReal) (b1 : Fin n → EReal)
    (W2 : Fin k → Fin n → EReal) (b2 : Fin k → EReal) (s : EReal) : Fin M → Fin k → EReal :=
  qlin (toGrid (hidden x W1 b1 s) (actScale (hidden x W1 b1 s))) W2 b2 (actScale (hidden x W1 b1 s))

/-- The second layer's output as the reference computes it. -/
def netYref {M n k : ℕ} (x : Fin M → Fin k → EReal) (W1 : Fin n → Fin k → EReal) (b1 : Fin n → EReal)
    (W2 : Fin k → Fin n → EReal) (b2 : Fin k → EReal) (s : EReal) : Fin M → Fin k → EReal :=
  qlin (toGridRef (hidden x W1 b1 s) (actScale (hidden x W1 b1 s))) W2 b2 (actScale (hidden x W1 b1 s))

theorem netYref_eq {M n k : ℕ} (x : Fin M → Fin k → EReal) (W1 : Fin n → Fin k → EReal) (b1 : Fin n → EReal)
    (W2 : Fin k → Fin n → EReal) (b2 : Fin k → EReal) (s : EReal) :
    netYref x W1 b1 W2 b2 s = netY x W1 b1 W2 b2 s :=
  secondLayer_eq _ _ _ _

/-- A rank-2 array read as a matrix. -/
abbrev mat {a b : ℕ} (A : (⟨2, ![a, b]⟩ : Shape).Idx → EReal) : Fin a → Fin b → EReal :=
  fun r d => A (ValueIdx.ix2 r d)

/-- A rank-1 array read as a vector. -/
abbrev vec {a : ℕ} (A : (⟨1, ![a]⟩ : Shape).Idx → EReal) : Fin a → EReal := fun j => A (ValueIdx.ix1 j)

/-- The batch-by-sequence-by-feature input read row-major as 50176 rows: row `r` is batch `r / 196`, position `r % 196`. -/
def rows3 (x : (⟨3, ![256, 196, 384]⟩ : Shape).Idx → EReal) : Fin 50176 → Fin 384 → EReal :=
  fun r d => x (ValueIdx.ix3 (⟨r.val / 196, by have := r.isLt; omega⟩ : Fin 256) (⟨r.val % 196, Nat.mod_lt _ (by norm_num)⟩ : Fin 196) d)

/-- The row of a batch-by-sequence-by-feature index (any number of features). -/
def rowOf {n : ℕ} (i : (⟨3, ![256, 196, n]⟩ : Shape).Idx) : Fin 50176 :=
  ⟨(i 0).val * 196 + (i 1).val, by
    have h0 : (i 0).val < 256 := (i 0).isLt
    have h1 : (i 1).val < 196 := (i 1).isLt
    omega⟩

end Cert.QMlp

end
-- ==== Proof.Consts.lean ====
/-
  The float words the two programs print, as extended reals: 127, -128, -∞ and 0, and the two 32-bit integers the
  reference converts to floats for its clipping bounds.
-/
import Idealize.ShloMosaic.PureOps.Ideal
import Idealize.ShloMosaic.PureOps.Ideal.Laws

noncomputable section

namespace Cert.QMlp

open Idealize.ShloMosaic

/-- The f32 word of 127.0 denotes 127. -/
theorem word_127 : Ideal.ofBits .f32 0x42FE0000#32 = ((127 : ℝ) : EReal) := by
  simp [Ideal.ofBits, Ideal.ieee]
  exact_mod_cast (by norm_num : (16646144 : ℝ) * (2 ^ 17)⁻¹ = 127)

/-- The f32 word of -128.0 denotes -128. -/
theorem word_neg128 : Ideal.ofBits .f32 0xC3000000#32 = ((-128 : ℝ) : EReal) := by
  simp [Ideal.ofBits, Ideal.ieee]
  exact_mod_cast (by norm_num : (8388608 : ℝ) * (2 ^ 16)⁻¹ = 128)

/-- The f32 word of negative infinity denotes the least extended real. -/
theorem word_neginf : Ideal.ofBits .f32 0xFF800000#32 = (⊥ : EReal) := by
  simp [Ideal.ofBits, Ideal.ieee]

/-- The f32 word of zero denotes 0. -/
theorem word_zero : Ideal.ofBits .f32 0x00000000#32 = (0 : EReal) := Ideal.ofBits_zero_f32

/-- The 32-bit integer 127 converted to a float is 127. -/
theorem int_127 : FloatOps.sitofp (F := Ideal) .f32 (127#32 : BitVec 32) = ((127 : ℝ) : EReal) := by
  show (((127#32 : BitVec 32).toInt : ℝ) : EReal) = _
  have h : (127#32 : BitVec 32).toInt = 127 := by decide
  rw [h]; norm_num

/-- The 32-bit two's-complement word of -128 converted to a float is -128. -/
theorem int_neg128 : FloatOps.sitofp (F := Ideal) .f32 (4294967168#32 : BitVec 32) = ((-128 : ℝ) : EReal) := by
  show (((4294967168#32 : BitVec 32).toInt : ℝ) : EReal) = _
  have h : (4294967168#32 : BitVec 32).toInt = -128 := by decide
  rw [h]; norm_num

end Cert.QMlp

end
-- ==== Proof.MaxLemmas.lean ====
/-
  Largest elements on the extended reals: a fold of `max` from `-∞` is the supremum of the set; a reduction of a whole
  array to one number is the supremum over its index set, which for a matrix is the supremum over pairs of coordinates
  and for a batch-by-sequence-by-feature array the supremum over (row, feature) pairs; and the supremum of a matrix
  whose rows come in equal tiles is the supremum of the tiles' suprema.
-/
import Idealize.ShloMosaic.PureOps.Ideal
import Idealize.ShloMosaic.PureOps.Ideal.Laws
import Idealize.ShloMosaic.PureOps.Reduce
import Idealize.ShloMosaic.Lib.ValueIdx
import proofs.«131268_j17901423689856_2_alg».proof.Proof.Spec
import proofs.«131268_j17901423689856_2_alg».proof.Proof.Consts

noncomputable section

namespace Cert.QMlp

open Idealize.ShloMosaic
open Idealize.ShloMosaic.ValueIdx (ix0 ix1 ix2 ix3)

/-- A fold of `max` from `-∞` over a finite set is the set's supremum. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The supremum over a matrix's index set is the supremum over pairs of coordinates. -/
theorem sup_idx2 {a b : ℕ} (x : (⟨2, ![a, b]⟩ : Shape).Idx → EReal) :
    Finset.univ.sup x = Finset.univ.sup fun q : Fin a × Fin b => x (ix2 q.1 q.2) := by
  apply le_antisymm
  · apply Finset.sup_le
    intro i _
    have h := Finset.le_sup (f := fun q : Fin a × Fin b => x (ix2 q.1 q.2)) (Finset.mem_univ ((i 0, i 1) : Fin a × Fin b))
    exact (congrArg x (ValueIdx.eq_ix2 i)).le.trans h
  · apply Finset.sup_le
    intro q _
    exact Finset.le_sup (f := x) (Finset.mem_univ (ix2 q.1 q.2))

/-- The supremum over a 256×196×n array's index set is the supremum over (row, feature) pairs, row `r` being batch
    `r / 196`, position `r % 196`. -/
theorem sup_idx3_rows {n : ℕ} (x : (⟨3, ![256, 196, n]⟩ : Shape).Idx → EReal) :
    Finset.univ.sup x = Finset.univ.sup fun q : Fin 50176 × Fin n =>
      x (ix3 (⟨q.1.val / 196, by have := q.1.isLt; omega⟩ : Fin 256) (⟨q.1.val % 196, Nat.mod_lt _ (by norm_num)⟩ : Fin 196) q.2) := by
  apply le_antisymm
  · apply Finset.sup_le
    intro i _
    have h0 : (i 0).val < 256 := (i 0).isLt
    have h1 : (i 1).val < 196 := (i 1).isLt
    have h := Finset.le_sup (f := fun q : Fin 50176 × Fin n =>
      x (ix3 (⟨q.1.val / 196, by have := q.1.isLt; omega⟩ : Fin 256) (⟨q.1.val % 196, Nat.mod_lt _ (by norm_num)⟩ : Fin 196) q.2))
      (Finset.mem_univ ((rowOf i, (i 2 : Fin n)) : Fin 50176 × Fin n))
    have e0 : (⟨(rowOf i).val / 196, by have := (rowOf i).isLt; omega⟩ : Fin 256) = (i 0 : Fin 256) :=
      Fin.ext (by show ((i 0).val * 196 + (i 1).val) / 196 = (i 0).val; omega)
    have e1 : (⟨(rowOf i).val % 196, Nat.mod_lt _ (by norm_num)⟩ : Fin 196) = (i 1 : Fin 196) :=
      Fin.ext (by show ((i 0).val * 196 + (i 1).val) % 196 = (i 1).val; omega)
    simp only [e0, e1] at h
    exact (congrArg x (ValueIdx.eq_ix3 i)).le.trans h
  · apply Finset.sup_le
    intro q _
    exact Finset.le_sup (f := x) (Finset.mem_univ _)

/-- If every entry of rows 8·t … 8·t+7 of a 392×128 array is the largest magnitude of rows 1024·t … 1024·t+1023 of a
    50176-row matrix, the array's supremum is the matrix's largest magnitude. -/
theorem sup_tiles {n : ℕ} (f : Fin 50176 → Fin n → EReal) (P : Fin 392 → Fin 128 → EReal)
    (hP : ∀ (p : Fin 392) (l : Fin 128), P p l = Finset.univ.sup fun q : Fin 1024 × Fin n =>
      absE (f ⟨1024 * (p.val / 8) + q.1.val, by have := p.isLt; have := q.1.isLt; omega⟩ q.2)) :
    (Finset.univ.sup fun q : Fin 392 × Fin 128 => P q.1 q.2) = absMax f := by
  unfold absMax
  apply le_antisymm
  · apply Finset.sup_le
    intro pl _
    rw [hP pl.1 pl.2]
    apply Finset.sup_le
    intro q _
    exact Finset.le_sup (f := fun p : Fin 50176 × Fin n => absE (f p.1 p.2))
      (Finset.mem_univ ((⟨1024 * (pl.1.val / 8) + q.1.val, by have := pl.1.isLt; have := q.1.isLt; omega⟩, q.2) : Fin 50176 × Fin n))
  · apply Finset.sup_le
    intro rj _
    have hr : rj.1.val < 50176 := rj.1.isLt
    -- the tile of row r is r / 1024; its first partial-maximum row is 8 · (r / 1024)
    let p : Fin 392 := ⟨8 * (rj.1.val / 1024), by omega⟩
    let q : Fin 1024 × Fin n := (⟨rj.1.val % 1024, Nat.mod_lt _ (by norm_num)⟩, rj.2)
    have hrow : (⟨1024 * (p.val / 8) + q.1.val, by have := p.isLt; have := q.1.isLt; omega⟩ : Fin 50176) = rj.1 :=
      Fin.ext (by show 1024 * (8 * (rj.1.val / 1024) / 8) + rj.1.val % 1024 = rj.1.val; omega)
    have h1 : absE (f rj.1 rj.2) ≤ P p 0 := by
      rw [hP p 0]
      have := Finset.le_sup (f := fun q : Fin 1024 × Fin n =>
        absE (f ⟨1024 * (p.val / 8) + q.1.val, by have := p.isLt; have := q.1.isLt; omega⟩ q.2)) (Finset.mem_univ q)
      simpa only [hrow] using this
    exact h1.trans (Finset.le_sup (f := fun q : Fin 392 × Fin 128 => P q.1 q.2) (Finset.mem_univ ((p, 0) : Fin 392 × Fin 128)))

end Cert.QMlp

end
-- ==== Proof.LibFlashForms.lean ====
/-
  Forms an attention kernel's key-block step reads at an index, for any extents, on the extended reals: the product
  `A · Bᵀ` of an `[a, w]` by a `[b, w]` matrix (both contracted along their second axis) onto the zero accumulator is, at
  `(p, k)`, the sum over `d` of `A (p, d) · B (k, d)`; the vector unit's maximum over the columns of an `[a, b]` matrix is, at
  row `p`, the fold of `max` over that row from the accumulator's value; and a unit-stride slice of columns `o … o + w - 1`
  of an `[n, W]` matrix reads, at `(r, j)`, the matrix at `(r, o + j)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibFlashForms

open Idealize.ShloMosaic Idealize.ShloMosaic.ValueIdx
open scoped BigOperators

variable {α : Type}

/-- The product of an `[a, w]` by the transpose of a `[b, w]` matrix onto the zero accumulator, read at `(p, k)`. -/
theorem matmul_nt_zero_apply {a b w : ℕ} {φ₁ φ₂ : FTy}
    (wf : DotDims.WF ⟨2, ![a, w]⟩ ⟨2, ![b, w]⟩ ⟨2, ![a, b]⟩ [1] [1] [0] [0] [] [])
    (prec : Option ContractPrecision) (A : FVec Ideal ⟨2, ![a, w]⟩ φ₁) (B : FVec Ideal ⟨2, ![b, w]⟩ φ₂)
    (p : Fin a) (k : Fin b) :
    matmul (⟨[1], [1], [0], [0], [], [], wf⟩ : DotDims ⟨2, ![a, w]⟩ ⟨2, ![b, w]⟩ ⟨2, ![a, b]⟩) prec A B
        (constant (F := Ideal) ⟨2, ![a, b]⟩ .f32 0x00000000#32) (ix2 p k)
      = ∑ d : Fin w, A (ix2 p d) * B (ix2 k d) := by
  show FloatOps.matmul _ prec A B _ (ix2 p k) = _
  rw [Ideal.matmul_constant_zero_apply,
    ← Equiv.sum_comp (contrEquiv1 (⟨[1], [1], [0], [0], [], [], wf⟩ : DotDims ⟨2, ![a, w]⟩ ⟨2, ![b, w]⟩ ⟨2, ![a, b]⟩) w rfl rfl).symm]
  refine Finset.sum_congr rfl fun d _ => ?_
  have c2 := contrEquiv1_symm_val
    (⟨[1], [1], [0], [0], [], [], wf⟩ : DotDims ⟨2, ![a, w]⟩ ⟨2, ![b, w]⟩ ⟨2, ![a, b]⟩) w rfl rfl d
  have l2 : (⟨[1], [1], [0], [0], [], [], wf⟩ : DotDims ⟨2, ![a, w]⟩ ⟨2, ![b, w]⟩ ⟨2, ![a, b]⟩).lhsIdx (ix2 p k)
      ((contrEquiv1 _ w rfl rfl).symm d) = ix2 p d := by
    funext ax; apply Fin.ext
    match ax with
    | ⟨0, _⟩ => simp [DotDims.lhsIdx]; rfl
    | ⟨1, _⟩ => simp [DotDims.lhsIdx]; exact c2
  have r2 : (⟨[1], [1], [0], [0], [], [], wf⟩ : DotDims ⟨2, ![a, w]⟩ ⟨2, ![b, w]⟩ ⟨2, ![a, b]⟩).rhsIdx (ix2 p k)
      ((contrEquiv1 _ w rfl rfl).symm d) = ix2 k d := by
    funext ax; apply Fin.ext
    match ax with
    | ⟨0, _⟩ => simp [DotDims.rhsIdx]; rfl
    | ⟨1, _⟩ => simp [DotDims.rhsIdx]; exact c2
  rw [l2, r2]

/-- On the extended reals, the vector unit's maximum over the columns of an `[a, b]` matrix is, at row `p`, the fold of
    `max` over that row's `b` entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  refine (Ideal.multiReduction_maximumf_single src acc h hφ hacc (ix1 p)).trans ?_
  refine congrArg (Finset.fold max _ · _) (funext fun k => congrArg src ?_)
  funext c; apply Fin.ext
  match c with
  | ⟨0, _⟩ => rfl
  | ⟨1, _⟩ => rfl

/-- A unit-stride slice of `w` columns from column `o` of an `[n, W]` matrix reads, at `(r, j)`, the matrix at `(r, o + j)`. -/
theorem sliceCols_apply {n W w : ℕ} (o : ℕ) (x : (⟨2, ![n, W]⟩ : Shape).Idx → α)
    (h : (⟨2, ![n, W]⟩ : Shape).Slices ![0, o] ⟨2, ![n, w]⟩) (r : Fin n) (j : Fin w) (q : Fin W) (hq : q.val = o + j.val) :
    extractStridedSlice ⟨2, ![n, w]⟩ ![0, o] x h (ix2 r j) = x (ix2 r q) :=
  extractStridedSlice_apply ![0, o] x h (ix2 r j) (ix2 r q) fun ax => by
    match ax with
    | ⟨0, _⟩ => show r.val = 0 + r.val; omega
    | ⟨1, _⟩ => show q.val = o + j.val; exact hq

end Cert.LibFlashForms

end
-- ==== Proof.LibRowForms.lean ====
/-
  Matrices and vectors read at an index through the layout operations a keep-dimensions row sum and a
  stacked weight matrix need: a vector cast to a column, a column broadcast along the rows, the sum over the
  columns of a matrix at a row, and three matrices of one shape laid side by side, read in each third.
  Stated over literal-extent index constructors (`ix1`, `ix2`), for any extents.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowForms

open Idealize.ShloMosaic Idealize.ShloMosaic.ValueIdx
open scoped BigOperators

variable {α : Type}

/-- An `[a]` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, the vector unit's sum over the columns of an `[a, b]` matrix is, at row `p`, the sum
    of that row's `b` entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- Three `[n, w]` matrices laid side by side into `[n, W]`: a column `q` of the first third reads the first
    matrix at that column, -/
theorem concat3_cols_first {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = j.val) :
    concatenate ⟨2, ![n, W]⟩ 1 [⟨⟨2, ![n, w]⟩, A⟩, ⟨⟨2, ![n, w]⟩, B⟩, ⟨⟨2, ![n, w]⟩, C⟩] h (ix2 r q) = A (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 0 (Nat.zero_lt_succ _) _ A rfl rfl 0 rfl (ix2 r j)
    (fun b hb => by
      match b with
      | ⟨0, _⟩ => rfl
      | ⟨1, _⟩ => exact absurd rfl hb)
    (by show 0 + j.val = q.val; omega)

/-- a column `w + j` of the second third the second matrix at column `j`, -/
theorem concat3_cols_second {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + j.val) :
    concatenate ⟨2, ![n, W]⟩ 1 [⟨⟨2, ![n, w]⟩, A⟩, ⟨⟨2, ![n, w]⟩, B⟩, ⟨⟨2, ![n, w]⟩, C⟩] h (ix2 r q) = B (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 1 (Nat.succ_lt_succ (Nat.zero_lt_succ _)) _ B rfl rfl w (by simp) (ix2 r j)
    (fun b hb => by
      match b with
      | ⟨0, _⟩ => rfl
      | ⟨1, _⟩ => exact absurd rfl hb)
    (by show w + j.val = q.val; omega)

/-- and a column `2 w + j` of the last third the third matrix at column `j`. -/
theorem concat3_cols_third {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + w + j.val) :
    concatenate ⟨2, ![n, W]⟩ 1 [⟨⟨2, ![n, w]⟩, A⟩, ⟨⟨2, ![n, w]⟩, B⟩, ⟨⟨2, ![n, w]⟩, C⟩] h (ix2 r q) = C (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 2 (Nat.succ_lt_succ (Nat.succ_lt_succ (Nat.zero_lt_succ _))) _ C rfl rfl (w + w) (by simp) (ix2 r j)
    (fun b hb => by
      match b with
      | ⟨0, _⟩ => rfl
      | ⟨1, _⟩ => exact absurd rfl hb)
    (by show w + w + j.val = q.val; omega)

end Cert.LibRowForms

end
-- ==== Proof.Region0.lean ====
/-
  The first kernel region, read as values: at any contents `V` of the buffers when the region is entered, the two
  arrays it leaves.  Point `t` of the 49-point grid takes rows 1024·t … 1024·t+1023 of the activations, divides them
  by the activation scale, multiplies them by the transposed integer weights, adds the bias row, multiplies by the
  scale row and rectifies: that is block `t` of the hidden layer.  Beside it the point writes the largest magnitude of
  its block into every entry of rows 8·t … 8·t+7 of a 392×128 array of partial maxima.
-/
import proofs.«131268_j17901423689856_2_alg».proof.Proof.Gen.KernelIdeal.Frame
import proofs.«131268_j17901423689856_2_alg».proof.Proof.Spec
import proofs.«131268_j17901423689856_2_alg».proof.Proof.Consts
import proofs.«131268_j17901423689856_2_alg».proof.Proof.MaxLemmas
import proofs.«131268_j17901423689856_2_alg».proof.Proof.LibFlashForms
import proofs.«131268_j17901423689856_2_alg».proof.Proof.LibRowForms

noncomputable section

namespace Cert.KernelIdeal.Regions

open Idealize.ShloMosaic Idealize.ShloMosaic.TcCoe Idealize.SL.Sem Cert.KernelIdeal Cert.KernelIdeal.Gen Cert.QMlp
open Idealize.ShloMosaic.ValueIdx (ix0 ix1 ix2 ix3)

namespace Region0

/-! ## What one grid point computes, entry by entry -/

/-- One entry of a block of the hidden layer, from the five blocks a grid point reads. -/
def hiddenEntry (x0 : Vec Ideal S1024x384 .f32) (x1 : Vec Ideal S1x1 .f32) (x2 : Vec Ideal S1536x384 .bf16)
    (x3 x4 : Vec Ideal S1x1536 .f32) (r : Fin 1024) (j : Fin 1536) : EReal :=
  max (((∑ d : Fin 384, Ideal.div (x0 (ix2 r d)) (x1 (ix2 (0 : Fin 1) (0 : Fin 1))) * x2 (ix2 j d))
    + x3 (ix2 (0 : Fin 1) j)) * x4 (ix2 (0 : Fin 1) j)) 0

/-- A one-entry matrix broadcast to any matrix shape reads its entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- Entry `(r, j)` of the block a point stores into the hidden layer: the row of activations over the scale, times row `j`
    of the integer weights, plus the bias, times the channel scale, rectified. The shape casts are identities, the two
    rows and the scale are broadcast, and the narrowing to 16 bits is the identity on the extended reals. -/
theorem hiddenBlock_apply (x0 : Vec Ideal S1024x384 .f32) (x1 : Vec Ideal S1x1 .f32) (x2 : Vec Ideal S1536x384 .bf16)
    (x3 x4 : Vec Ideal S1x1536 .f32) (r : Fin 1024) (j : Fin 1536) :
    k0_pay1 (F := Ideal) x0 x1 x2 x3 x4 (ix2 r j) = hiddenEntry x0 x1 x2 x3 x4 r j := by
  unfold k0_pay1 hiddenEntry
  simp only [shapeCast_self]
  rw [ValueIdx.maximumf_apply, ValueIdx.mulf_apply, ValueIdx.addf_apply, ValueIdx.broadcast_apply,
    ValueIdx.broadcastTo_1b_ab_apply, ValueIdx.broadcastTo_1b_ab_apply]
  have hmm : matmul (φ₁ := .bf16) (φ₂ := .bf16) dot_S1024x384_S1536x384_S1024x1536_1_1_0_0_n_n none
      (truncf FTy.bf16 (divf x0 (broadcastTo S1024x384 x1 broadcasts_S1x1_S1024x384)) bitsLt_bf16_f32)
      (x2 : FVec Ideal S1536x384 .bf16)
      (constant (F := Ideal) S1024x1536 FTy.f32 0#32) (ix2 r j)
      = ∑ d : Fin 384, Ideal.div (x0 (ix2 r d)) (x1 (ix2 (0 : Fin 1) (0 : Fin 1))) * x2 (ix2 j d) := by
    refine (Cert.LibFlashForms.matmul_nt_zero_apply (φ₁ := .bf16) (φ₂ := .bf16) dot_S1024x384_S1536x384_S1024x1536_1_1_0_0_n_n_wf none
      (truncf FTy.bf16 (divf x0 (broadcastTo S1024x384 x1 broadcasts_S1x1_S1024x384)) bitsLt_bf16_f32) x2 r j).trans ?_
    refine Finset.sum_congr rfl fun d _ => ?_
    rw [ValueIdx.truncf_apply, ValueIdx.divf_apply, broadcastTo_11_ab_apply]
  rw [hmm]
  exact congrArg (max _) word_zero

/-- On the extended reals, the vector unit's maximum over the rows of an `[a, 1]` column is the fold of `max` over its
    `a` entries from the accumulator's value. -/
theorem colMax_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ)
    (hacc : acc = FKind.maximumf.neutral φ hφ) (u : Fin 1) :
    multiReduction .maximumf [0] ⟨1, ![1]⟩ src acc h hφ hacc (ix1 u)
      = (Finset.univ : Finset (Fin a)).fold max (FloatOps.ofBits (F := Ideal) φ acc) (fun k => src (ix2 k u)) := by
  refine (Ideal.multiReduction_maximumf_single src acc h hφ hacc (ix1 u)).trans ?_
  refine congrArg (Finset.fold max _ · _) (funext fun k => congrArg src ?_)
  funext c; apply Fin.ext
  match c with
  | ⟨0, _⟩ => rfl
  | ⟨1, _⟩ => rfl

/-- Every entry of the 8×128 block a point stores into the partial maxima is the largest magnitude of its block of the
    hidden layer: the maximum over each row's columns, then over the rows, both from `-∞`, is the supremum over all
    (row, column) pairs. -/
theorem blockMax_apply (x0 : Vec Ideal S1024x384 .f32) (x1 : Vec Ideal S1x1 .f32) (x2 : Vec Ideal S1536x384 .bf16)
    (x3 x4 : Vec Ideal S1x1536 .f32) (p : Fin 8) (l : Fin 128) :
    k0_pay2 (F := Ideal) x0 x1 x2 x3 x4 (ix2 p l)
      = Finset.univ.sup fun q : Fin 1024 × Fin 1536 => absE (hiddenEntry x0 x1 x2 x3 x4 q.1 q.2) := by
  unfold k0_pay2
  simp only [shapeCast_self]
  rw [broadcastTo_11_ab_apply, ValueIdx.shapeCast_a_1a_apply]
  refine (colMax_apply (a := 1024) (φ := .f32) _ (0xFF800000#32 : BitVec 32) reduces_S1024x1_S1 (.inl rfl) rfl (0 : Fin 1)).trans ?_
  have hbot : FloatOps.ofBits (F := Ideal) FTy.f32 (0xFF800000#32 : BitVec 32) = (⊥ : EReal) := word_neginf
  -- one row's largest magnitude
  have hrow : ∀ k : Fin 1024,
      shapeCast S1024x1
          (multiReduction FKind.maximumf [1] S1024 (absf (k0_pay1 (F := Ideal) x0 x1 x2 x3 x4)) (0xFF800000#32 : BitVec 32)
            reduces_S1024x1536_S1024 (.inl rfl) rfl)
          shapeCasts_S1024_S1024x1 (ix2 k (0 : Fin 1))
        = Finset.univ.sup fun c : Fin 1536 => absE (hiddenEntry x0 x1 x2 x3 x4 k c) := by
    intro k
    rw [Cert.LibRowForms.shapeCast_a_a1_apply]
    refine (Cert.LibFlashForms.rowMax_apply (a := 1024) (b := 1536) (φ := .f32) _ (0xFF800000#32 : BitVec 32) reduces_S1024x1536_S1024 (.inl rfl) rfl k).trans ?_
    rw [hbot, fold_max_bot_eq_sup]
    refine Finset.sup_congr rfl fun c _ => ?_
    show absE (k0_pay1 (F := Ideal) x0 x1 x2 x3 x4 (ix2 k c)) = _
    rw [hiddenBlock_apply]
  rw [hbot, fold_max_bot_eq_sup]
  refine (Finset.sup_congr rfl fun k _ => hrow k).trans ?_
  rw [← Finset.univ_product_univ, Finset.sup_product_left]

end Region0

variable (V : (c : Dev nD) → (b : Ref sig .tc) → Buf (Elt Ideal) ((c : Thread nD τ).loc b))

/-- The hidden layer as region 0 computes it from the five arrays it reads. -/
def H0 (c : Dev nD) : Fin 50176 → Fin 1536 → EReal := fun r j =>
  max (lin (fun r d => Ideal.div (mat (V c main_v0) r d) (mat (V c main_v1) 0 0)) (mat (V c main_v12))
    (fun j => mat (V c main_v20) 0 j) (fun j => mat (V c main_v15) 0 j) r j) 0

namespace Region0

/-! ## The blocks a point reads, as entries of the arrays -/

/-- The zero offsets of a whole-block access, however spelt. -/
theorem zero_offsets : (![0, 0] : Fin 2 → Nat) = fun _ => 0 := funext fun a => by fin_cases a <;> rfl

/-- The printed index maps of region 0, decided over its 49 grid points: the activations' window, the hidden layer's and
    the partial maxima's move down one block per point; the four parameter windows stay at their one block. -/
theorem index_maps0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Entry `(r, d)` of the activations' block at point `t` is the activations at row `1024·t + r`. -/
theorem actBlock_apply (c : Dev nD) (t : Fin cfg0.N) (r : Fin 1024) (d : Fin 384) (R : Fin 50176)
    (hR : R.val = 1024 * t.val + r.val) :
    (iblk0 V c 0 t : Vec Ideal S1024x384 .f32) (ix2 r d) = mat (V c main_v0) R d := by
  obtain ⟨⟨e0, e1⟩, -⟩ := index_maps0 t
  unfold iblk0
  rw [View.read_apply]
  show V c main_v0 _ = V c main_v0 _
  refine congrArg (V c main_v0) (funext fun a => Fin.ext ?_)
  match a with
  | ⟨0, _⟩ => show win0_0.index t (0 : Fin 2) * 1024 + 1 * r.val = R.val; rw [e0, hR]; omega
  | ⟨1, _⟩ => show win0_0.index t (1 : Fin 2) * 384 + 1 * d.val = d.val; rw [e1]; omega

/-- The one entry of the activation scale's block is the scale. -/
theorem scaleBlock_apply (c : Dev nD) (t : Fin cfg0.N) :
    (iblk0 V c 1 t : Vec Ideal S1x1 .f32) (ix2 (0 : Fin 1) (0 : Fin 1)) = mat (V c main_v1) 0 0 := by
  obtain ⟨-, ⟨e0, e1⟩, -⟩ := index_maps0 t
  unfold iblk0
  rw [View.read_apply]
  show V c main_v1 _ = V c main_v1 _
  refine congrArg (V c main_v1) (funext fun a => Fin.ext ?_)
  match a with
  | ⟨0, _⟩ => show win0_1.index t (0 : Fin 2) * 1 + 1 * 0 = 0; rw [e0]
  | ⟨1, _⟩ => show win0_1.index t (1 : Fin 2) * 1 + 1 * 0 = 0; rw [e1]

/-- The integer weights' block is the whole weight matrix. -/
theorem weightBlock_apply (c : Dev nD) (t : Fin cfg0.N) (j : Fin 1536) (d : Fin 384) :
    (iblk0 V c 2 t : Vec Ideal S1536x384 .bf16) (ix2 j d) = mat (V c main_v12) j d := by
  obtain ⟨-, -, ⟨e0, e1⟩, -⟩ := index_maps0 t
  unfold iblk0
  rw [View.read_apply]
  show V c main_v12 _ = V c main_v12 _
  refine congrArg (V c main_v12) (funext fun a => Fin.ext ?_)
  match a with
  | ⟨0, _⟩ => show win0_2.index t (0 : Fin 2) * 1536 + 1 * j.val = j.val; rw [e0]; omega
  | ⟨1, _⟩ => show win0_2.index t (1 : Fin 2) * 384 + 1 * d.val = d.val; rw [e1]; omega

/-- The bias row's block is the whole row. -/
theorem biasBlock_apply (c : Dev nD) (t : Fin cfg0.N) (j : Fin 1536) :
    (iblk0 V c 3 t : Vec Ideal S1x1536 .f32) (ix2 (0 : Fin 1) j) = mat (V c main_v20) 0 j := by
  obtain ⟨-, -, -, ⟨e0, e1⟩, -⟩ := index_maps0 t
  unfold iblk0
  rw [View.read_apply]
  show V c main_v20 _ = V c main_v20 _
  refine congrArg (V c main_v20) (funext fun a => Fin.ext ?_)
  match a with
  | ⟨0, _⟩ => show win0_3.index t (0 : Fin 2) * 1 + 1 * 0 = 0; rw [e0]
  | ⟨1, _⟩ => show win0_3.index t (1 : Fin 2) * 1536 + 1 * j.val = j.val; rw [e1]; omega

/-- The channel scales' block is the whole row. -/
theorem chanBlock_apply (c : Dev nD) (t : Fin cfg0.N) (j : Fin 1536) :
    (iblk0 V c 4 t : Vec Ideal S1x1536 .f32) (ix2 (0 : Fin 1) j) = mat (V c main_v15) 0 j := by
  obtain ⟨-, -, -, -, ⟨e0, e1⟩, -⟩ := index_maps0 t
  unfold iblk0
  rw [View.read_apply]
  show V c main_v15 _ = V c main_v15 _
  refine congrArg (V c main_v15) (funext fun a => Fin.ext ?_)
  match a with
  | ⟨0, _⟩ => show win0_4.index t (0 : Fin 2) * 1 + 1 * 0 = 0; rw [e0]
  | ⟨1, _⟩ => show win0_4.index t (1 : Fin 2) * 1536 + 1 * j.val = j.val; rw [e1]; omega

/-- An entry computed from point `t`'s five blocks is the hidden layer at row `1024·t + r`. -/
theorem hiddenEntry_blocks (c : Dev nD) (t : Fin cfg0.N) (r : Fin 1024) (j : Fin 1536) (R : Fin 50176) (J : Fin 1536)
    (hR : R.val = 1024 * t.val + r.val) (hJ : J.val = j.val) :
    hiddenEntry (iblk0 V c 0 t) (iblk0 V c 1 t) (iblk0 V c 2 t) (iblk0 V c 3 t) (iblk0 V c 4 t) r j = H0 V c R J := by
  obtain rfl : J = j := Fin.ext hJ
  unfold hiddenEntry H0 lin
  rw [scaleBlock_apply V c t, biasBlock_apply V c t J, chanBlock_apply V c t J]
  refine congrArg (fun s => max s 0) (congrArg (· * _) (congrArg (· + _) (Finset.sum_congr rfl fun d _ => ?_)))
  rw [actBlock_apply V c t r d R hR, weightBlock_apply V c t J d]

/-! ## The hidden layer's array -/

/-- The hidden layer as the array region 0 leaves. -/
def hiddenArr (c : Dev nD) : S50176x1536.Idx → EReal := fun i => H0 V c (i 0) (i 1)

/-- What point `t` writes back to the hidden layer's array is block `t` of the hidden layer. -/
theorem hidden_flushed (c : Dev nD) (t : Fin cfg0.N) :
    (dat0 (F := Ideal) V c).flushed 5 t = ((cfg0.win 5).blk t).view.read (Elt Ideal) (hiddenArr V c) := by
  show (cfg0.win 5).cut (grid0.coords t) ((dat0 (F := Ideal) V c).after 5 t) = _
  rw [after0_5]
  unfold out0_5
  rw [View.canon_unit_zero zero_offsets]
  simp only [View.ld_unit_zero (S := S1024x384) zero_offsets, View.ld_unit_zero (S := S1x1) zero_offsets,
    View.ld_unit_zero (S := S1536x384) zero_offsets, View.ld_unit_zero (S := S1x1536) zero_offsets]
  obtain ⟨-, -, -, -, -, ⟨e0, e1⟩, -⟩ := index_maps0 t
  refine funext fun (y : S1024x1536.Idx) => ?_
  obtain ⟨r, j, rfl⟩ : ∃ (r : Fin 1024) (j : Fin 1536), y = ix2 r j := ⟨y 0, y 1, ValueIdx.eq_ix2 y⟩
  show k0_pay1 (F := Ideal) (iblk0 V c 0 t) (iblk0 V c 1 t) (iblk0 V c 2 t) (iblk0 V c 3 t) (iblk0 V c 4 t) (ix2 r j)
    = H0 V c (((cfg0.win 5).blk t).view.emb (ix2 r j) 0) (((cfg0.win 5).blk t).view.emb (ix2 r j) 1)
  refine (hiddenBlock_apply (iblk0 V c 0 t) (iblk0 V c 1 t) (iblk0 V c 2 t) (iblk0 V c 3 t) (iblk0 V c 4 t) r j).trans ?_
  exact hiddenEntry_blocks V c t r j (((cfg0.win 5).blk t).view.emb (ix2 r j) 0) (((cfg0.win 5).blk t).view.emb (ix2 r j) 1)
    (by show win0_5.index t (0 : Fin 2) * 1024 + 1 * r.val = 1024 * t.val + r.val; rw [e0]; omega)
    (by show win0_5.index t (1 : Fin 2) * 1536 + 1 * j.val = j.val; rw [e1]; omega)

/-- An index of the hidden layer's array is in point `t`'s block iff each coordinate is in the block's range. -/
theorem mem_hiddenBlock (t : Fin cfg0.N) (i : S50176x1536.Idx) :
    i ∈ ((cfg0.win 5).blk t).view.set ↔ ∀ a : Fin 2, win0_5.index t a * S1024x1536.size a ≤ (i a).val
      ∧ (i a).val < win0_5.index t a * S1024x1536.size a + S1024x1536.size a := by
  show i ∈ ((View.whole main_v21_0).slice (win0_5.rect t)).set ↔ _
  rw [View.set_slice_whole, Rect.mem_set_unit]
  exact Iff.rfl

/-- Row `r` of the hidden layer is written by point `r / 1024`. -/
theorem hidden_cover (i : S50176x1536.Idx) :
    ∃ t : Fin cfg0.N, (cfg0.win 5).flush t = true ∧ i ∈ ((cfg0.win 5).blk t).view.set := by
  have hi0 : (i 0).val < 50176 := (i 0).isLt
  have hi1 : (i 1).val < 1536 := (i 1).isLt
  have hN : cfg0.N = 49 := N_0
  let t : Fin cfg0.N := ⟨(i 0).val / 1024, by rw [hN]; omega⟩
  have ht : t.val = (i 0).val / 1024 := rfl
  obtain ⟨-, -, -, -, -, ⟨e0, e1⟩, -⟩ := index_maps0 t
  refine ⟨t, flush0_5 t, ?_⟩
  rw [mem_hiddenBlock]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 1536 ≤ (i 1).val ∧ (i 1).val < win0_5.index t (1 : Fin 2) * 1536 + 1536
    rw [e1]; omega

end Region0

/-- After region 0 its first output array holds the hidden layer. -/
theorem region0_hidden (c : Dev nD) (r : Fin 50176) (j : Fin 1536) :
    (dat0 (F := Ideal) V c).arrAt 5 cfg0.N (ix2 r j) = H0 V c r j := by
  have h := (dat0 (F := Ideal) V c).arrAt_eq_of_cover 5 (Region0.hiddenArr V c)
    (fun t _ => Region0.hidden_flushed V c t) Region0.hidden_cover
  rw [h]
  rfl

namespace Region0

/-! ## The array of partial maxima -/

/-- The largest magnitude of the hidden layer's rows `1024·T … 1024·T + 1023`. -/
def tileSup (c : Dev nD) (T : ℕ) (hT : T < 49) : EReal :=
  Finset.univ.sup fun q : Fin 1024 × Fin 1536 =>
    absE (H0 V c ⟨1024 * T + q.1.val, by have := q.1.isLt; omega⟩ q.2)

-- the supremum ranges over a million and a half (row, column) pairs: it stays closed, and is opened only where its
-- entries are compared one by one
attribute [irreducible] tileSup

/-- The tile's maximum depends only on the tile's number. -/
theorem tileSup_congr (c : Dev nD) (T T' : ℕ) (h : T < 49) (h' : T' < 49) (e : T = T') :
    tileSup V c T h = tileSup V c T' h' := by
  subst e; rfl

/-- Every entry point `t` computes for the partial maxima is the largest magnitude of its block of the hidden layer. -/
theorem blockMax_blocks (c : Dev nD) (t : Fin cfg0.N) (hT : t.val < 49) (p : Fin 8) (l : Fin 128) :
    k0_pay2 (F := Ideal) (iblk0 V c 0 t) (iblk0 V c 1 t) (iblk0 V c 2 t) (iblk0 V c 3 t) (iblk0 V c 4 t) (ix2 p l)
      = tileSup V c t.val hT := by
  refine (blockMax_apply (iblk0 V c 0 t) (iblk0 V c 1 t) (iblk0 V c 2 t) (iblk0 V c 3 t) (iblk0 V c 4 t) p l).trans ?_
  unfold tileSup
  refine Finset.sup_congr rfl fun q _ => congrArg absE ?_
  exact hiddenEntry_blocks V c t q.1 q.2 _ q.2 rfl rfl

/-- The partial maxima as the array region 0 leaves: every entry of row `p` is the largest magnitude of the hidden
    layer's rows `1024·(p / 8) … 1024·(p / 8) + 1023`. -/
def partialsArr (c : Dev nD) : S392x128.Idx → EReal := fun i =>
  tileSup V c ((i 0).val / 8) (by have h : (i 0).val < 392 := (i 0).isLt; omega)

/-- What point `t` writes back to the partial maxima is block `t` of that array. -/
theorem partials_flushed (c : Dev nD) (t : Fin cfg0.N) :
    (dat0 (F := Ideal) V c).flushed 6 t = ((cfg0.win 6).blk t).view.read (Elt Ideal) (partialsArr V c) := by
  show (cfg0.win 6).cut (grid0.coords t) ((dat0 (F := Ideal) V c).after 6 t) = _
  rw [after0_6]
  unfold out0_6
  rw [View.canon_unit_zero zero_offsets]
  simp only [View.ld_unit_zero (S := S1024x384) zero_offsets, View.ld_unit_zero (S := S1x1) zero_offsets,
    View.ld_unit_zero (S := S1536x384) zero_offsets, View.ld_unit_zero (S := S1x1536) zero_offsets]
  have hN : cfg0.N = 49 := N_0
  have hT : t.val < 49 := by rw [← hN]; exact t.isLt
  -- the block the point stores is constant
  have hpay : (k0_pay2 (F := Ideal) (iblk0 V c 0 t) (iblk0 V c 1 t) (iblk0 V c 2 t) (iblk0 V c 3 t) (iblk0 V c 4 t)
      : Vec Ideal S8x128 .f32) = fun _ => tileSup V c t.val hT :=
    funext fun y => by
      obtain ⟨p, l, rfl⟩ : ∃ (p : Fin 8) (l : Fin 128), y = ix2 p l := ⟨y 0, y 1, ValueIdx.eq_ix2 y⟩
      exact blockMax_blocks V c t hT p l
  rw [hpay]
  obtain ⟨-, -, -, -, -, -, e0, e1⟩ := index_maps0 t
  refine funext fun (y : S8x128.Idx) => ?_
  obtain ⟨p, l, rfl⟩ : ∃ (p : Fin 8) (l : Fin 128), y = ix2 p l := ⟨y 0, y 1, ValueIdx.eq_ix2 y⟩
  have hp : p.val < 8 := p.isLt
  rw [View.read_apply]
  show tileSup V c t.val hT = _
  unfold partialsArr
  refine tileSup_congr V c _ _ _ _ ?_
  have hemb : (((View.whole main_v21_1).slice ((win0 6).rect t)).emb (ix2 p l) 0).val
      = win0_6.index t (0 : Fin 2) * 8 + 1 * p.val := rfl
  rw [hemb, e0]; omega

/-- An index of the partial maxima is in point `t`'s block iff each coordinate is in the block's range. -/
theorem mem_partialsBlock (t : Fin cfg0.N) (i : S392x128.Idx) :
    i ∈ ((cfg0.win 6).blk t).view.set ↔ ∀ a : Fin 2, win0_6.index t a * S8x128.size a ≤ (i a).val
      ∧ (i a).val < win0_6.index t a * S8x128.size a + S8x128.size a := by
  show i ∈ ((View.whole main_v21_1).slice (win0_6.rect t)).set ↔ _
  rw [View.set_slice_whole, Rect.mem_set_unit]
  exact Iff.rfl

/-- Row `p` of the partial maxima is written by point `p / 8`. -/
theorem partials_cover (i : S392x128.Idx) :
    ∃ t : Fin cfg0.N, (cfg0.win 6).flush t = true ∧ i ∈ ((cfg0.win 6).blk t).view.set := by
  have hi0 : (i 0).val < 392 := (i 0).isLt
  have hi1 : (i 1).val < 128 := (i 1).isLt
  have hN : cfg0.N = 49 := N_0
  let t : Fin cfg0.N := ⟨(i 0).val / 8, by rw [hN]; omega⟩
  have ht : t.val = (i 0).val / 8 := rfl
  obtain ⟨-, -, -, -, -, -, e0, e1⟩ := index_maps0 t
  refine ⟨t, flush0_6 t, ?_⟩
  rw [mem_partialsBlock]
  intro a
  match a with
  | ⟨0, _⟩ =>
    show win0_6.index t (0 : Fin 2) * 8 ≤ (i 0).val ∧ (i 0).val < win0_6.index t (0 : Fin 2) * 8 + 8
    rw [e0, ht]; omega
  | ⟨1, _⟩ =>
    show win0_6.index t (1 : Fin 2) * 128 ≤ (i 1).val ∧ (i 1).val < win0_6.index t (1 : Fin 2) * 128 + 128
    rw [e1]; omega

end Region0

/-- After region 0 every entry of rows 8·t … 8·t+7 of its second output array holds the largest magnitude of the hidden
    layer's rows 1024·t … 1024·t+1023. -/
theorem region0_partials (c : Dev nD) (p : Fin 392) (l : Fin 128) :
    (dat0 (F := Ideal) V c).arrAt 6 cfg0.N (ix2 p l)
      = Finset.univ.sup fun q : Fin 1024 × Fin 1536 =>
          absE (H0 V c ⟨1024 * (p.val / 8) + q.1.val, by have := p.isLt; have := q.1.isLt; omega⟩ q.2) := by
  have h := (dat0 (F := Ideal) V c).arrAt_eq_of_cover 6 (Region0.partialsArr V c)
    (fun t _ => Region0.partials_flushed V c t) Region0.partials_cover
  rw [h]
  unfold Region0.partialsArr Region0.tileSup
  exact Finset.sup_congr (α := EReal) rfl fun q _ => rfl

end Cert.KernelIdeal.Regions

end
-- ==== Proof.Region1.lean ====
/-
  The second kernel region, read as values: at any contents `V` of the buffers when the region is entered, the two
  arrays it leaves.  Point `t` takes rows 1024·t … 1024·t+1023 of the hidden layer, puts them on the integer grid
  (divide by the scale, round, clip), multiplies them by the transposed integer weights, adds the bias row and
  multiplies by the scale row; beside it, the largest magnitude of its block into rows 8·t … 8·t+7 of the partial maxima.

  First the body's two results at an entry, over arbitrary blocks: the output entry is a sum over the 1536 hidden
  features, and every entry of the 8×128 block is the supremum of the output block's magnitudes (a maximum over the
  rows of the maxima over the columns, both from -∞).  Then each window's block as a part of its array (row block `t`
  for the hidden layer, the whole array for the four small ones), so that block `t` of each result is block `t` of
  one function of the arrays; the 49 row blocks tile each result array.
-/
import proofs.«131268_j17901423689856_2_alg».proof.Proof.Gen.KernelIdeal.Frame
import proofs.«131268_j17901423689856_2_alg».proof.Proof.Spec
import proofs.«131268_j17901423689856_2_alg».proof.Proof.Consts
import proofs.«131268_j17901423689856_2_alg».proof.Proof.LibFlashForms
import proofs.«131268_j17901423689856_2_alg».proof.Proof.LibRowForms
import Idealize.ShloMosaic.Lib.Pipeline.Value
import Idealize.ShloMosaic.Lib.ValueIdx

noncomputable section

namespace Cert.KernelIdeal.Regions

open Idealize.ShloMosaic Idealize.ShloMosaic.TcCoe Idealize.SL.Sem Cert.KernelIdeal Cert.KernelIdeal.Gen Cert.QMlp
open Idealize.ShloMosaic.ValueIdx (ix0 ix1 ix2 ix3)
open Idealize.ShloMosaic.Pipeline (Dat)

variable (V : (c : Dev nD) → (b : Ref sig .tc) → Buf (Elt Ideal) ((c : Thread nD τ).loc b))

/-- The second layer's output as region 1 computes it from the five arrays it reads. -/
def Y1 (c : Dev nD) : Fin 50176 → Fin 384 → EReal :=
  lin (fun r d => quant (Ideal.div (mat (V c main_v21_0) r d) (mat (V c main_v24) 0 0))) (mat (V c main_v35))
    (fun j => mat (V c main_v43) 0 j) (fun j => mat (V c main_v38) 0 j)

namespace SecondLayer

variable {α : Type}

/-- The zero offsets of a whole-block access, as a constant function. -/
theorem zeros2 : (![0, 0] : Fin 2 → Nat) = fun _ => 0 := funext fun a => by fin_cases a <;> rfl

/-- A one-entry 1×1 block broadcast over an `a × b` block reads that entry everywhere. -/
theorem bcast_entry_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 0 0) :=
  broadcastTo_apply x h (ix2 p q) (ix2 0 0) (fun ax => by
    match ax with
    | ⟨0, _⟩ => rfl
    | ⟨1, _⟩ => rfl)

/-- A row `[1, b]` broadcast down `a` rows reads, at `(p, q)`, the row's entry `q`. -/
theorem bcast_row_apply {a b : ℕ} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun ax => by
    match ax with
    | ⟨0, _⟩ => rfl
    | ⟨1, _⟩ =>
      show q.val = if b = 1 then 0 else q.val
      split
      · have := q.isLt; omega
      · rfl)

/-- The second region's output block at an entry: the hidden block's row on the integer grid against the integer
    weights' row, plus the bias entry, times the scale entry. -/
theorem layer2_block (x0 : Vec Ideal S1024x1536 .f32) (x1 : Vec Ideal S1x1 .f32) (x2 : Vec Ideal S384x1536 .bf16)
    (x3 x4 : Vec Ideal S1x384 .f32) (p : Fin 1024) (q : Fin 384) :
    k1_pay1 (F := Ideal) x0 x1 x2 x3 x4 (ix2 p q)
      = ((∑ d : Fin 1536, quant (Ideal.div (x0 (ix2 p d)) (x1 (ix2 0 0))) * x2 (ix2 q d)) + x3 (ix2 0 q)) * x4 (ix2 0 q) := by
  unfold k1_pay1
  simp only [shapeCast_self]
  rw [ValueIdx.mulf_apply, ValueIdx.addf_apply, bcast_row_apply x3, bcast_row_apply x4]
  refine congrArg (fun s => (s + x3 (ix2 0 q)) * x4 (ix2 0 q)) ?_
  refine (Cert.LibFlashForms.matmul_nt_zero_apply (φ₂ := .bf16) dot_S1024x1536_S384x1536_S1024x384_1_1_0_0_n_n_wf none _ x2 p q).trans ?_
  refine Finset.sum_congr rfl fun d _ => ?_
  refine congrArg (· * x2 (ix2 q d)) ?_
  show min (Ideal.ofBits .f32 0x42FE0000#32) (max (Ideal.ofBits .f32 0xC3000000#32)
      (Ideal.liftRound Ideal.roundHalfEven (Ideal.div (x0 (ix2 p d)) (broadcastTo S1024x1536 x1 broadcasts_S1x1_S1024x1536 (ix2 p d))))) = _
  rw [bcast_entry_apply x1, word_127, word_neg128]
  rfl

/-- The maximum over the rows of an `[a, 1]` column is, at its one index, the fold of `max` over the column's
    entries from the accumulator's value. -/
theorem colMax_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ)
    (hacc : acc = FKind.maximumf.neutral φ hφ) :
    multiReduction .maximumf [0] ⟨1, ![1]⟩ src acc h hφ hacc (ix1 0)
      = (Finset.univ : Finset (Fin a)).fold max (FloatOps.ofBits (F := Ideal) φ acc) (fun i => src (ix2 i 0)) := by
  refine (Ideal.multiReduction_maximumf_single src acc h hφ hacc (ix1 0)).trans ?_
  refine congrArg (Finset.fold max _ · _) (funext fun k => congrArg src ?_)
  funext c; apply Fin.ext
  match c with
  | ⟨0, _⟩ => rfl
  | ⟨1, _⟩ => rfl

/-- The second region's partial-maxima block: every entry is the largest magnitude of the output block. -/
theorem blockMax (x0 : Vec Ideal S1024x1536 .f32) (x1 : Vec Ideal S1x1 .f32) (x2 : Vec Ideal S384x1536 .bf16)
    (x3 x4 : Vec Ideal S1x384 .f32) (a : Fin 8) (l : Fin 128) :
    k1_pay2 (F := Ideal) x0 x1 x2 x3 x4 (ix2 a l)
      = Finset.univ.sup fun q : Fin 1024 × Fin 384 => absE (k1_pay1 (F := Ideal) x0 x1 x2 x3 x4 (ix2 q.1 q.2)) := by
  unfold k1_pay2
  simp only [shapeCast_self]
  -- every entry of the 8×128 block is the one entry of a 1×1 block, which is the one entry of a length-1 vector:
  -- the maximum over the 1024 rows of the column of row maxima
  refine (bcast_entry_apply _ broadcasts_S1x1_S8x128 a l).trans ?_
  refine (Cert.LibRowForms.shapeCast_a_a1_apply (a := 1) _ shapeCasts_S1_S1x1 0 0).trans ?_
  refine (colMax_apply (a := 1024) (φ := .f32) _ 0xFF800000#32 reduces_S1024x1_S1 _ _).trans ?_
  -- row `i` of that column is the maximum over the 384 columns of the magnitudes in row `i`
  refine (congrArg (Finset.fold max _ · Finset.univ) (funext fun i : Fin 1024 =>
    (Cert.LibRowForms.shapeCast_a_a1_apply (a := 1024) _ shapeCasts_S1024_S1024x1 i 0).trans
      (Cert.LibFlashForms.rowMax_apply (a := 1024) (b := 384) (φ := .f32) _ 0xFF800000#32 reduces_S1024x384_S1024 _ _ i))).trans ?_
  show (Finset.univ.fold max (Ideal.ofBits .f32 0xFF800000#32) fun i : Fin 1024 =>
      Finset.univ.fold max (Ideal.ofBits .f32 0xFF800000#32) fun k : Fin 384 =>
        absE (k1_pay1 (F := Ideal) x0 x1 x2 x3 x4 (ix2 i k))) = _
  rw [word_neginf]
  -- both folds start from -∞, so they are suprema, and the iterated supremum is the supremum over pairs
  show (Finset.univ.sup fun i : Fin 1024 => Finset.univ.sup fun k : Fin 384 =>
      absE (k1_pay1 (F := Ideal) x0 x1 x2 x3 x4 (ix2 i k))) = _
  rw [← Finset.univ_product_univ, Finset.sup_product_left]

/-- The largest magnitude of the second region's output block. -/
def blockSup (x0 : Vec Ideal S1024x1536 .f32) (x1 : Vec Ideal S1x1 .f32) (x2 : Vec Ideal S384x1536 .bf16)
    (x3 x4 : Vec Ideal S1x384 .f32) : EReal :=
  Finset.univ.sup fun q : Fin 1024 × Fin 384 => absE (k1_pay1 (F := Ideal) x0 x1 x2 x3 x4 (ix2 q.1 q.2))

/-- The partial-maxima block is constant: every entry is the output block's largest magnitude. -/
theorem blockMax_const (x0 : Vec Ideal S1024x1536 .f32) (x1 : Vec Ideal S1x1 .f32) (x2 : Vec Ideal S384x1536 .bf16)
    (x3 x4 : Vec Ideal S1x384 .f32) :
    k1_pay2 (F := Ideal) x0 x1 x2 x3 x4 = fun _ => blockSup x0 x1 x2 x3 x4 := by
  funext y
  obtain ⟨a, l, rfl⟩ : ∃ (a : Fin 8) (l : Fin 128), y = ix2 a l := ⟨y 0, y 1, ValueIdx.eq_ix2 y⟩
  exact blockMax x0 x1 x2 x3 x4 a l

/-! ## The windows' blocks as parts of their arrays -/

/-- The seven windows' block indices at grid point `t`: the hidden layer's window, the output's and the partial
    maxima's are at row block `t`, column block 0; each of the four small windows has the one block (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row `p` of the hidden layer's block at point `t` is row `1024·t + p` of the hidden layer. -/
theorem blk_hidden (c : Dev nD) (t : Fin cfg1.N) (p : Fin 1024) (d : Fin 1536) (R : Fin 50176)
    (hR : R.val = 1024 * t.val + p.val) :
    (iblk1 V c 0 t : Vec Ideal S1024x1536 .f32) (ix2 p d) = mat (V c main_v21_0) R d := by
  obtain ⟨e0, e1, -⟩ := blockIdx1 t
  show V c main_v21_0 (((cfg1.win 0).blk t).view.emb (ix2 p d)) = V c main_v21_0 (ix2 R d)
  refine congrArg (V c main_v21_0 : S50176x1536.Idx → EReal) (funext fun a => Fin.ext ?_)
  match a with
  | ⟨0, _⟩ => show win1_0.index t (0 : Fin 2) * 1024 + 1 * p.val = R.val; omega
  | ⟨1, _⟩ => show win1_0.index t (1 : Fin 2) * 1536 + 1 * d.val = d.val; omega

/-- The activation scale's block is its one-entry array. -/
theorem blk_scale (c : Dev nD) (t : Fin cfg1.N) :
    (iblk1 V c 1 t : Vec Ideal S1x1 .f32) (ix2 0 0) = mat (V c main_v24) 0 0 := by
  obtain ⟨-, -, e2, e3, -⟩ := blockIdx1 t
  show V c main_v24 (((cfg1.win 1).blk t).view.emb (ix2 0 0)) = V c main_v24 (ix2 0 0)
  refine congrArg (V c main_v24 : S1x1.Idx → EReal) (funext fun a => Fin.ext ?_)
  match a with
  | ⟨0, _⟩ => show win1_1.index t (0 : Fin 2) * 1 + 1 * 0 = 0; omega
  | ⟨1, _⟩ => show win1_1.index t (1 : Fin 2) * 1 + 1 * 0 = 0; omega

/-- The integer weights' block is the whole weight matrix. -/
theorem blk_weights (c : Dev nD) (t : Fin cfg1.N) (q : Fin 384) (d : Fin 1536) :
    (iblk1 V c 2 t : Vec Ideal S384x1536 .bf16) (ix2 q d) = mat (V c main_v35) q d := by
  obtain ⟨-, -, -, -, e4, e5, -⟩ := blockIdx1 t
  show V c main_v35 (((cfg1.win 2).blk t).view.emb (ix2 q d)) = V c main_v35 (ix2 q d)
  refine congrArg (V c main_v35 : S384x1536.Idx → EReal) (funext fun a => Fin.ext ?_)
  match a with
  | ⟨0, _⟩ => show win1_2.index t (0 : Fin 2) * 384 + 1 * q.val = q.val; omega
  | ⟨1, _⟩ => show win1_2.index t (1 : Fin 2) * 1536 + 1 * d.val = d.val; omega

/-- The integer bias row's block is the whole row. -/
theorem blk_bias (c : Dev nD) (t : Fin cfg1.N) (q : Fin 384) :
    (iblk1 V c 3 t : Vec Ideal S1x384 .f32) (ix2 0 q) = mat (V c main_v43) 0 q := by
  obtain ⟨-, -, -, -, -, -, e6, e7, -⟩ := blockIdx1 t
  show V c main_v43 (((cfg1.win 3).blk t).view.emb (ix2 0 q)) = V c main_v43 (ix2 0 q)
  refine congrArg (V c main_v43 : S1x384.Idx → EReal) (funext fun a => Fin.ext ?_)
  match a with
  | ⟨0, _⟩ => show win1_3.index t (0 : Fin 2) * 1 + 1 * 0 = 0; omega
  | ⟨1, _⟩ => show win1_3.index t (1 : Fin 2) * 384 + 1 * q.val = q.val; omega

/-- The channel scales' block is the whole row. -/
theorem blk_chscale (c : Dev nD) (t : Fin cfg1.N) (q : Fin 384) :
    (iblk1 V c 4 t : Vec Ideal S1x384 .f32) (ix2 0 q) = mat (V c main_v38) 0 q := by
  obtain ⟨-, -, -, -, -, -, -, -, e8, e9, -⟩ := blockIdx1 t
  show V c main_v38 (((cfg1.win 4).blk t).view.emb (ix2 0 q)) = V c main_v38 (ix2 0 q)
  refine congrArg (V c main_v38 : S1x384.Idx → EReal) (funext fun a => Fin.ext ?_)
  match a with
  | ⟨0, _⟩ => show win1_4.index t (0 : Fin 2) * 1 + 1 * 0 = 0; omega
  | ⟨1, _⟩ => show win1_4.index t (1 : Fin 2) * 384 + 1 * q.val = q.val; omega

/-- The body's output block at point `t`, entry `(p, q)`, is the second layer's output at row `1024·t + p`. -/
theorem block_entry (c : Dev nD) (t : Fin cfg1.N) (p : Fin 1024) (q : Fin 384) (R : Fin 50176)
    (hR : R.val = 1024 * t.val + p.val) :
    k1_pay1 (F := Ideal) (iblk1 V c 0 t) (iblk1 V c 1 t) (iblk1 V c 2 t) (iblk1 V c 3 t) (iblk1 V c 4 t) (ix2 p q)
      = Y1 V c R q := by
  refine (layer2_block (iblk1 V c 0 t) (iblk1 V c 1 t) (iblk1 V c 2 t) (iblk1 V c 3 t) (iblk1 V c 4 t) p q).trans ?_
  rw [blk_bias V c t q, blk_chscale V c t q, blk_scale V c t]
  show _ = ((∑ d : Fin 1536, quant (Ideal.div (mat (V c main_v21_0) R d) (mat (V c main_v24) 0 0)) * mat (V c main_v35) q d)
      + mat (V c main_v43) 0 q) * mat (V c main_v38) 0 q
  refine congrArg (fun s => (s + mat (V c main_v43) 0 q) * mat (V c main_v38) 0 q) (Finset.sum_congr rfl fun d _ => ?_)
  rw [blk_hidden V c t p d R hR, blk_weights V c t q d]

/-! ## From blocks to the two arrays -/

/-- The first output array as one function of the arrays the region reads. -/
abbrev outAll (c : Dev nD) : S50176x384.Idx → EReal := fun i => Y1 V c (i 0) (i 1)

/-- The second output array as one function of the arrays the region reads: every entry of rows 8·t … 8·t+7 is the
    largest magnitude of the output's rows 1024·t … 1024·t+1023. -/
abbrev maxAll (c : Dev nD) : S392x128.Idx → EReal := fun i =>
  Finset.univ.sup fun q : Fin 1024 × Fin 384 =>
    absE (Y1 V c ⟨1024 * ((i 0).val / 8) + q.1.val, by
      have h0 : (i 0).val < 392 := (i 0).isLt
      have h1 : q.1.val < 1024 := q.1.isLt
      omega⟩ q.2)

/-- What grid point `t` writes back to the first output is block `t` of `outAll`. -/
theorem written_out (c : Dev nD) (t : Fin cfg1.N) :
    (dat1 (F := Ideal) V c).flushed 5 t = ((cfg1.win 5).blk t).view.read (Elt Ideal) (outAll V c) := by
  show (cfg1.win 5).cut (grid1.coords t) ((dat1 V c).after 5 t) = _
  rw [after1_5]
  unfold out1_5
  rw [View.canon_unit_zero zeros2]
  simp only [View.ld_unit_zero (S := S1024x1536) zeros2, View.ld_unit_zero (S := S1x1) zeros2,
    View.ld_unit_zero (S := S384x1536) zeros2, View.ld_unit_zero (S := S1x384) zeros2]
  obtain ⟨-, -, -, -, -, -, -, -, -, -, e10, e11, -⟩ := blockIdx1 t
  funext y
  obtain ⟨p, q, rfl⟩ : ∃ (p : Fin 1024) (q : Fin 384), y = ix2 p q := ⟨y 0, y 1, ValueIdx.eq_ix2 y⟩
  have hq : (((cfg1.win 5).blk t).view.emb (ix2 p q)) 1 = q :=
    Fin.ext (by show win1_5.index t (1 : Fin 2) * 384 + 1 * q.val = q.val; omega)
  have hR : ((((cfg1.win 5).blk t).view.emb (ix2 p q)) 0).val = 1024 * t.val + p.val := by
    show win1_5.index t (0 : Fin 2) * 1024 + 1 * p.val = _; omega
  show k1_pay1 (F := Ideal) (iblk1 V c 0 t) (iblk1 V c 1 t) (iblk1 V c 2 t) (iblk1 V c 3 t) (iblk1 V c 4 t) (ix2 p q)
      = Y1 V c ((((cfg1.win 5).blk t).view.emb (ix2 p q)) 0) ((((cfg1.win 5).blk t).view.emb (ix2 p q)) 1)
  rw [hq]
  exact block_entry V c t p q _ hR

/-- The largest magnitude of the body's output block at point `t` is `maxAll` at any index of rows 8·t … 8·t+7. -/
theorem max_entry (c : Dev nD) (t : Fin cfg1.N) (i : S392x128.Idx) (hrow : (i 0).val / 8 = t.val) :
    blockSup (iblk1 V c 0 t) (iblk1 V c 1 t) (iblk1 V c 2 t) (iblk1 V c 3 t) (iblk1 V c 4 t) = maxAll V c i := by
  unfold blockSup
  refine Finset.sup_congr rfl fun q _ => congrArg absE ?_
  exact block_entry V c t q.1 q.2 _ (by
    show 1024 * ((i 0).val / 8) + q.1.val = 1024 * t.val + q.1.val
    rw [hrow])

/-- What grid point `t` writes back to the second output is block `t` of `maxAll`. -/
theorem written_max (c : Dev nD) (t : Fin cfg1.N) :
    (dat1 (F := Ideal) V c).flushed 6 t = ((cfg1.win 6).blk t).view.read (Elt Ideal) (maxAll V c) := by
  show (cfg1.win 6).cut (grid1.coords t) ((dat1 V c).after 6 t) = _
  rw [after1_6]
  unfold out1_6
  rw [View.canon_unit_zero zeros2]
  simp only [View.ld_unit_zero (S := S1024x1536) zeros2, View.ld_unit_zero (S := S1x1) zeros2,
    View.ld_unit_zero (S := S384x1536) zeros2, View.ld_unit_zero (S := S1x384) zeros2]
  rw [blockMax_const (iblk1 V c 0 t) (iblk1 V c 1 t) (iblk1 V c 2 t) (iblk1 V c 3 t) (iblk1 V c 4 t)]
  obtain ⟨-, -, -, -, -, -, -, -, -, -, -, -, e12, e13⟩ := blockIdx1 t
  -- only the value of `maxAll` at the block's index matters from here on: call the whole function `G`
  generalize hG : maxAll V c = G
  funext y
  have h0 : ((((cfg1.win 6).blk t).view.emb y) 0).val = 8 * t.val + (y 0).val := by
    show win1_6.index t (0 : Fin 2) * 8 + 1 * (y 0).val = _; omega
  have hrow : ((((cfg1.win 6).blk t).view.emb y) 0).val / 8 = t.val := by
    have hy : (y 0).val < 8 := (y 0).isLt
    rw [h0]; omega
  rw [View.read_apply]
  -- the block's element type is the array's, so the cast along that equation is the identity
  refine Eq.trans ?_ (cast_eq _ _).symm
  show blockSup (iblk1 V c 0 t) (iblk1 V c 1 t) (iblk1 V c 2 t) (iblk1 V c 3 t) (iblk1 V c 4 t) = _
  rw [← hG]
  exact max_entry V c t _ hrow

/-- An index of the first output is in point `t`'s block iff each coordinate is in the block's range on its axis. -/
theorem mem_block_out (t : Fin cfg1.N) (i : S50176x384.Idx) :
    i ∈ ((cfg1.win 5).blk t).view.set ↔ ∀ a : Fin 2, win1_5.index t a * S1024x384.size a ≤ (i a).val
      ∧ (i a).val < win1_5.index t a * S1024x384.size a + S1024x384.size a := by
  show i ∈ ((View.whole main_v44_0).slice (win1_5.rect t)).set ↔ _
  rw [View.set_slice_whole, Rect.mem_set_unit]
  exact Iff.rfl

/-- An index of the second output is in point `t`'s block iff each coordinate is in the block's range on its axis. -/
theorem mem_block_max (t : Fin cfg1.N) (i : S392x128.Idx) :
    i ∈ ((cfg1.win 6).blk t).view.set ↔ ∀ a : Fin 2, win1_6.index t a * S8x128.size a ≤ (i a).val
      ∧ (i a).val < win1_6.index t a * S8x128.size a + S8x128.size a := by
  show i ∈ ((View.whole main_v44_1).slice (win1_6.rect t)).set ↔ _
  rw [View.set_slice_whole, Rect.mem_set_unit]
  exact Iff.rfl

/-- Row `r` of the first output is written by grid point `r / 1024`. -/
theorem covered_out (i : S50176x384.Idx) :
    ∃ t : Fin cfg1.N, (cfg1.win 5).flush t = true ∧ i ∈ ((cfg1.win 5).blk t).view.set := by
  have hi0 : (i 0).val < 50176 := (i 0).isLt
  have hi1 : (i 1).val < 384 := (i 1).isLt
  have hN : cfg1.N = 49 := N_1
  refine ⟨⟨(i 0).val / 1024, by rw [hN]; omega⟩, flush1_5 _, ?_⟩
  rw [mem_block_out]
  obtain ⟨-, -, -, -, -, -, -, -, -, -, e10, e11, -⟩ := blockIdx1 ⟨(i 0).val / 1024, by rw [hN]; omega⟩
  intro a
  match a with
  | ⟨0, _⟩ =>
    show win1_5.index _ (0 : Fin 2) * 1024 ≤ (i 0).val ∧ (i 0).val < win1_5.index _ (0 : Fin 2) * 1024 + 1024
    rw [e10]; show (i 0).val / 1024 * 1024 ≤ (i 0).val ∧ (i 0).val < (i 0).val / 1024 * 1024 + 1024; omega
  | ⟨1, _⟩ =>
    show win1_5.index _ (1 : Fin 2) * 384 ≤ (i 1).val ∧ (i 1).val < win1_5.index _ (1 : Fin 2) * 384 + 384
    rw [e11]; omega

/-- Row `r` of the second output is written by grid point `r / 8`. -/
theorem covered_max (i : S392x128.Idx) :
    ∃ t : Fin cfg1.N, (cfg1.win 6).flush t = true ∧ i ∈ ((cfg1.win 6).blk t).view.set := by
  have hi0 : (i 0).val < 392 := (i 0).isLt
  have hi1 : (i 1).val < 128 := (i 1).isLt
  have hN : cfg1.N = 49 := N_1
  refine ⟨⟨(i 0).val / 8, by rw [hN]; omega⟩, flush1_6 _, ?_⟩
  rw [mem_block_max]
  obtain ⟨-, -, -, -, -, -, -, -, -, -, -, -, e12, e13⟩ := blockIdx1 ⟨(i 0).val / 8, by rw [hN]; omega⟩
  intro a
  match a with
  | ⟨0, _⟩ =>
    show win1_6.index _ (0 : Fin 2) * 8 ≤ (i 0).val ∧ (i 0).val < win1_6.index _ (0 : Fin 2) * 8 + 8
    rw [e12]; show (i 0).val / 8 * 8 ≤ (i 0).val ∧ (i 0).val < (i 0).val / 8 * 8 + 8; omega
  | ⟨1, _⟩ =>
    show win1_6.index _ (1 : Fin 2) * 128 ≤ (i 1).val ∧ (i 1).val < win1_6.index _ (1 : Fin 2) * 128 + 128
    rw [e13]; omega

/-- The first output array after the region. -/
theorem out_all (c : Dev nD) : (dat1 (F := Ideal) V c).arrAt 5 cfg1.N = outAll V c :=
  (dat1 V c).arrAt_eq_of_cover 5 (outAll V c) (fun t _ => written_out V c t) covered_out

/-- The second output array after the region. -/
theorem max_all (c : Dev nD) : (dat1 (F := Ideal) V c).arrAt 6 cfg1.N = maxAll V c :=
  (dat1 V c).arrAt_eq_of_cover 6 (maxAll V c) (fun t _ => written_max V c t) covered_max

end SecondLayer

/-- After region 1 its first output array holds the second layer's output. -/
theorem region1_y (c : Dev nD) (r : Fin 50176) (j : Fin 384) :
    (dat1 (F := Ideal) V c).arrAt 5 cfg1.N (ix2 r j) = Y1 V c r j :=
  congrFun (SecondLayer.out_all V c) (ix2 r j)

/-- After region 1 every entry of rows 8·t … 8·t+7 of its second output array holds the largest magnitude of the
    output's rows 1024·t … 1024·t+1023. -/
theorem region1_partials (c : Dev nD) (p : Fin 392) (l : Fin 128) :
    (dat1 (F := Ideal) V c).arrAt 6 cfg1.N (ix2 p l)
      = Finset.univ.sup fun q : Fin 1024 × Fin 384 =>
          absE (Y1 V c ⟨1024 * (p.val / 8) + q.1.val, by have := p.isLt; have := q.1.isLt; omega⟩ q.2) :=
  congrFun (SecondLayer.max_all V c) (ix2 p l)

end Cert.KernelIdeal.Regions

end
-- ==== Proof.Region2.lean ====
/-
  The third kernel region, read as values: entry by entry the output is divided by its scale, rounded, clipped and
  multiplied by the scale again; the scale's own one-entry array is only read.

  Grid point `t` reads rows 1024·t … 1024·t+1023 of the second layer's output and the one-entry scale, and writes the
  same rows of the result.  The body is entrywise, so block `t` of the result is block `t` of one function of the two
  arrays; the 49 row blocks tile the 50176 rows, hence the whole array is that function.
-/
import proofs.«131268_j17901423689856_2_alg».proof.Proof.Gen.KernelIdeal.Frame
import proofs.«131268_j17901423689856_2_alg».proof.Proof.Spec
import proofs.«131268_j17901423689856_2_alg».proof.Proof.Consts
import Idealize.ShloMosaic.Lib.Pipeline.Value
import Idealize.ShloMosaic.Lib.ValueIdx

noncomputable section

namespace Cert.KernelIdeal.Regions

open Idealize.ShloMosaic Idealize.ShloMosaic.TcCoe Idealize.SL.Sem Cert.KernelIdeal Cert.KernelIdeal.Gen Cert.QMlp
open Idealize.ShloMosaic.ValueIdx (ix0 ix1 ix2 ix3)
open Idealize.ShloMosaic.Pipeline (Dat)

variable (V : (c : Dev nD) → (b : Ref sig .tc) → Buf (Elt Ideal) ((c : Thread nD τ).loc b))

namespace Requant

/-- The zero offsets of a whole-block access, as a constant function. -/
theorem zeros2 : (![0, 0] : Fin 2 → Nat) = fun _ => 0 := funext fun a => by fin_cases a <;> rfl

/-- The one entry of a 1×1 block broadcast over a 1024×384 block reads that entry everywhere. -/
theorem bcast11_apply (x : Vec Ideal S1x1 .f32) (p : Fin 1024) (q : Fin 384) :
    broadcastTo S1024x384 x broadcasts_S1x1_S1024x384 (ix2 p q) = x (ix2 0 0) :=
  broadcastTo_apply x broadcasts_S1x1_S1024x384 (ix2 p q) (ix2 0 0) (fun a => by
    match a with
    | ⟨0, _⟩ => rfl
    | ⟨1, _⟩ => rfl)

/-- The third region's block at an entry: the input over the scale, rounded and clipped, times the scale. -/
theorem requant_block (x0 : Vec Ideal S1024x384 .f32) (x1 : Vec Ideal S1x1 .f32) (p : Fin 1024) (q : Fin 384) :
    k2_pay1 (F := Ideal) x0 x1 x1 (ix2 p q) = quant (Ideal.div (x0 (ix2 p q)) (x1 (ix2 0 0))) * x1 (ix2 0 0) := by
  unfold k2_pay1
  simp only [shapeCast_self]
  show min (Ideal.ofBits .f32 0x42FE0000#32) (max (Ideal.ofBits .f32 0xC3000000#32)
      (Ideal.liftRound Ideal.roundHalfEven (Ideal.div (x0 (ix2 p q)) (broadcastTo S1024x384 x1 broadcasts_S1x1_S1024x384 (ix2 p q)))))
      * broadcastTo S1024x384 x1 broadcasts_S1x1_S1024x384 (ix2 p q) = _
  rw [bcast11_apply, word_127, word_neg128]
  rfl

/-- The whole result as one function of the two arrays the region reads: every entry over the scale, rounded and
    clipped, times the scale. -/
abbrev requantAll (y : S50176x384.Idx → EReal) (s : S1x1.Idx → EReal) : S50176x384.Idx → EReal :=
  fun i => quant (Ideal.div (y i) (s (ix2 0 0))) * s (ix2 0 0)

/-- The three windows' block indices at grid point `t`: the row-blocked input and the output are at row block `t`,
    column block 0; the scale's one block is always block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of `requantAll` of the arrays as the region finds them. -/
theorem written2 (c : Dev nD) (t : Fin cfg2.N) :
    (dat2 (F := Ideal) V c).flushed 2 t
      = ((cfg2.win 2).blk t).view.read (Elt Ideal) (requantAll (V c main_v44_0) (V c main_v47)) := by
  show (cfg2.win 2).cut (grid2.coords t) ((dat2 V c).after 2 t) = _
  rw [after2_2]
  unfold out2_2
  rw [View.canon_unit_zero zeros2]
  simp only [View.ld_unit_zero (S := S1024x384) zeros2, View.ld_unit_zero (S := S1x1) zeros2]
  obtain ⟨e0, e1, e2, e3, e4, e5⟩ := blockIdx2 t
  funext y
  obtain ⟨p, q, rfl⟩ : ∃ (p : Fin 1024) (q : Fin 384), y = ix2 p q := ⟨y 0, y 1, ValueIdx.eq_ix2 y⟩
  refine (requant_block (iblk2 V c 0 t) (iblk2 V c 1 t) p q).trans ?_
  show quant (Ideal.div (V c main_v44_0 (((cfg2.win 0).blk t).view.emb (ix2 p q)))
        (V c main_v47 (((cfg2.win 1).blk t).view.emb (ix2 0 0)))) * V c main_v47 (((cfg2.win 1).blk t).view.emb (ix2 0 0))
      = quant (Ideal.div (V c main_v44_0 (((cfg2.win 2).blk t).view.emb (ix2 p q))) (V c main_v47 (ix2 0 0)))
        * V c main_v47 (ix2 0 0)
  -- the input's block and the output's block sit at the same rows of their arrays
  have h0 : ((cfg2.win 0).blk t).view.emb (ix2 p q) = ((cfg2.win 2).blk t).view.emb (ix2 p q) := by
    funext a; apply Fin.ext
    match a with
    | ⟨0, _⟩ => show win2_0.index t (0 : Fin 2) * 1024 + 1 * p.val = win2_2.index t (0 : Fin 2) * 1024 + 1 * p.val; omega
    | ⟨1, _⟩ => show win2_0.index t (1 : Fin 2) * 384 + 1 * q.val = win2_2.index t (1 : Fin 2) * 384 + 1 * q.val; omega
  -- the scale's block is its whole one-entry array
  have h1 : ((cfg2.win 1).blk t).view.emb (ix2 (0 : Fin 1) (0 : Fin 1)) = ix2 (0 : Fin 1) (0 : Fin 1) := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  rw [h0, h1]

/-- An index of the result is in grid point `t`'s block iff each coordinate is in the block's range on its axis. -/
theorem mem_block2 (t : Fin cfg2.N) (i : S50176x384.Idx) :
    i ∈ ((cfg2.win 2).blk t).view.set ↔ ∀ a : Fin 2, win2_2.index t a * S1024x384.size a ≤ (i a).val
      ∧ (i a).val < win2_2.index t a * S1024x384.size a + S1024x384.size a := by
  show i ∈ ((View.whole main_v48).slice (win2_2.rect t)).set ↔ _
  rw [View.set_slice_whole, Rect.mem_set_unit]
  exact Iff.rfl

/-- Every index of the result is in the block of the grid point its row falls in: row `r` is written by point `r / 1024`. -/
theorem covered2 (i : S50176x384.Idx) :
    ∃ t : Fin cfg2.N, (cfg2.win 2).flush t = true ∧ i ∈ ((cfg2.win 2).blk t).view.set := by
  have hi0 : (i 0).val < 50176 := (i 0).isLt
  have hi1 : (i 1).val < 384 := (i 1).isLt
  have hN : cfg2.N = 49 := N_2
  refine ⟨⟨(i 0).val / 1024, by rw [hN]; omega⟩, flush2_2 _, ?_⟩
  rw [mem_block2]
  obtain ⟨-, -, -, -, e4, e5⟩ := blockIdx2 ⟨(i 0).val / 1024, by rw [hN]; omega⟩
  intro a
  match a with
  | ⟨0, _⟩ =>
    show win2_2.index _ (0 : Fin 2) * 1024 ≤ (i 0).val ∧ (i 0).val < win2_2.index _ (0 : Fin 2) * 1024 + 1024
    rw [e4]; show (i 0).val / 1024 * 1024 ≤ (i 0).val ∧ (i 0).val < (i 0).val / 1024 * 1024 + 1024; omega
  | ⟨1, _⟩ =>
    show win2_2.index _ (1 : Fin 2) * 384 ≤ (i 1).val ∧ (i 1).val < win2_2.index _ (1 : Fin 2) * 384 + 384
    rw [e5]; omega

/-- The result array after the region: `requantAll` of the two arrays it reads. -/
theorem out2_all (c : Dev nD) :
    (dat2 (F := Ideal) V c).arrAt 2 cfg2.N = requantAll (V c main_v44_0) (V c main_v47) :=
  (dat2 V c).arrAt_eq_of_cover 2 (requantAll (V c main_v44_0) (V c main_v47)) (fun t _ => written2 V c t) covered2

end Requant

/-- After region 2 its output array holds the re-quantized second layer. -/
theorem region2_out (c : Dev nD) (r : Fin 50176) (j : Fin 384) :
    (dat2 (F := Ideal) V c).arrAt 2 cfg2.N (ix2 r j)
      = quant (Ideal.div (mat (V c main_v44_0) r j) (mat (V c main_v47) 0 0)) * mat (V c main_v47) 0 0 :=
  congrFun (Requant.out2_all V c) (ix2 r j)

/-- Region 2 leaves the scale's array as it found it. -/
theorem region2_scale_kept (c : Dev nD) : (dat2 (F := Ideal) V c).arrAt 1 cfg2.N = V c main_v47 :=
  ((dat2 V c).arrAt_in 1 rfl cfg2.N).trans (A_eq2 V c 1)

end Cert.KernelIdeal.Regions

end
-- ==== Proof.KernelArgs.lean ====
/-
  The kernel program's six argument arrays read as the matrices, vectors and scalar of the specification.
-/
import proofs.«131268_j17901423689856_2_alg».proof.Proof.Gen.KernelIdeal
import proofs.«131268_j17901423689856_2_alg».proof.Proof.Spec

noncomputable section

namespace Cert.KernelIdeal.HostValues

open Idealize.ShloMosaic Idealize.ShloMosaic.TcCoe Idealize.SL.Sem Cert.KernelIdeal Cert.QMlp

variable (m : (ℓ : Loc nD τ sig) → Buf (Elt Ideal) ℓ)

/-- The activations, 50176 rows of 384. -/
abbrev aX (c : Dev nD) : Fin 50176 → Fin 384 → EReal := rows3 (m ((c : Thread nD τ).loc main_arg0))
/-- The first layer's weights, 1536 rows of 384. -/
abbrev aW1 (c : Dev nD) : Fin 1536 → Fin 384 → EReal := mat (m ((c : Thread nD τ).loc main_arg1))
/-- The first layer's bias. -/
abbrev ab1 (c : Dev nD) : Fin 1536 → EReal := vec (m ((c : Thread nD τ).loc main_arg2))
/-- The second layer's weights, 384 rows of 1536. -/
abbrev aW2 (c : Dev nD) : Fin 384 → Fin 1536 → EReal := mat (m ((c : Thread nD τ).loc main_arg3))
/-- The second layer's bias. -/
abbrev ab2 (c : Dev nD) : Fin 384 → EReal := vec (m ((c : Thread nD τ).loc main_arg4))
/-- The activations' scale. -/
abbrev aS (c : Dev nD) : EReal := vec (m ((c : Thread nD τ).loc main_arg5)) 0

end Cert.KernelIdeal.HostValues

end
-- ==== Proof.LibQuantParams.lean ====
/-
  The parameters of a quantized linear layer, read entry by entry.

  A weight matrix with n rows of k entries is prepared in three steps: each row's scale is its largest magnitude over
  127; each entry is divided by its row's scale, rounded to the nearest even integer and clipped to [-128, 127]; the
  scale of output channel j is the row scale times the activations' scale, and the integer bias is the bias over that
  product, rounded.  The lemmas here read the array operations that compute these steps (a row-wise maximum from
  negative infinity, a scalar spread over an array, a vector spread along the rows of a matrix, a one-entry vector
  viewed as a scalar) at one index, in terms of the specification's functions, for any n and k.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueLayout
import Idealize.ShloMosaic.Lib.ValueIdx
import proofs.«131268_j17901423689856_2_alg».proof.Proof.Spec
import proofs.«131268_j17901423689856_2_alg».proof.Proof.Consts
import proofs.«131268_j17901423689856_2_alg».proof.Proof.MaxLemmas

noncomputable section

namespace Cert.QMlp

open Idealize.ShloMosaic
open Idealize.ShloMosaic.ValueIdx (ix0 ix1 ix2)

variable {n k : ℕ}

/-! ## Layout operations at an index -/

/-- A scalar spread over an array of any shape reads, everywhere, the scalar's one value. -/
theorem bcastScalar_apply {t : Shape} (h : (⟨0, ![]⟩ : Shape).BroadcastsInDim t (![] : Fin 0 → Fin t.rank))
    (y : (⟨0, ![]⟩ : Shape).Idx → EReal) (i : t.Idx) : broadcastInDim t ![] h y i = y ix0 :=
  broadcastInDim_apply _ h y i ix0 (fun a => a.elim0)

/-- A vector of n entries made a column and then spread along rows of k entries reads, at (j, d), entry j. -/
theorem bcastRows_apply (h1 : (⟨1, ![n]⟩ : Shape).BroadcastsInDim ⟨2, ![n, 1]⟩ (![0] : Fin 1 → Fin 2))
    (h2 : (⟨2, ![n, 1]⟩ : Shape).BroadcastsInDim ⟨2, ![n, k]⟩ (![0, 1] : Fin 2 → Fin 2))
    (y : (⟨1, ![n]⟩ : Shape).Idx → EReal) (j : Fin n) (d : Fin k) :
    broadcastInDim ⟨2, ![n, k]⟩ ![0, 1] h2 (broadcastInDim ⟨2, ![n, 1]⟩ ![0] h1 y) (ix2 j d) = y (ix1 j) := by
  have hj : j.val = if n = 1 then 0 else j.val := by
    split
    · have := j.isLt; omega
    · rfl
  refine (broadcastInDim_apply _ h2 _ (ix2 j d) (ix2 j (0 : Fin 1)) (fun a => match a with
    | ⟨0, _⟩ => hj
    | ⟨1, _⟩ => by show 0 = if (1 : Nat) = 1 then 0 else d.val; rw [if_pos rfl])).trans ?_
  exact broadcastInDim_apply _ h1 y (ix2 j (0 : Fin 1)) (ix1 j) (fun a => match a with
    | ⟨0, _⟩ => hj)

/-- A one-entry vector viewed as a scalar reads that entry. -/
theorem shapeCast_1_scalar_apply (x : (⟨1, ![1]⟩ : Shape).Idx → EReal) (h : (⟨1, ![1]⟩ : Shape).ShapeCasts ⟨0, ![]⟩)
    (i : (⟨0, ![]⟩ : Shape).Idx) : shapeCast ⟨0, ![]⟩ x h i = x (ix1 (0 : Fin 1)) :=
  shapeCast_apply x h i (ix1 (0 : Fin 1)) (by
    rw [Shape.rowMajor_val_one]
    exact (Shape.rowMajorPi_zero _ _).symm)

/-! ## The row scale -/

/-- The row-wise maximum of the magnitudes, taken from negative infinity, is at row j the largest magnitude of row j. -/
theorem rowMax_apply (w : (⟨2, ![n, k]⟩ : Shape).Idx → EReal)
    (h' : (⟨2, ![n, k]⟩ : Shape).ReducesTo [1] ⟨1, ![n]⟩) (h : (⟨2, ![n, k]⟩ : Shape).Reduces [1] ⟨1, ![n]⟩)
    (hu : 0 < (⟨0, ![]⟩ : Shape).numel) (j : Fin n) :
    Host.reduce (FloatOps.maximumf (F := Ideal) (φ := .f32)) (Host.absf (F := Ideal) (φ := .f32) w)
        (constant (F := Ideal) ⟨0, ![]⟩ .f32 0xFF800000#32) h' hu (ix1 j)
      = rowAbsMax (fun d => w (ix2 j d)) := by
  rw [Host.reduce_eq_fold_single (FloatOps.maximumf (F := Ideal) (φ := .f32)) _ _ h' h hu]
  -- the index over row j whose coordinate on the dropped axis is d is (j, d)
  have hl : ∀ d : Fin k, h.lift (ix1 j) d = ix2 j d := fun d => funext fun c => match c with
    | ⟨0, _⟩ => Fin.ext rfl
    | ⟨1, _⟩ => Fin.ext rfl
  -- a fold of max from the least element is the supremum
  have e : (Finset.univ : Finset (Fin k)).fold max (⊥ : EReal) (fun d : Fin k => absE (w (ix2 j d)))
      = rowAbsMax (fun d => w (ix2 j d)) := fold_max_bot_eq_sup _ _
  refine Eq.trans ?_ e
  show (Finset.univ : Finset (Fin k)).fold max (Ideal.ofBits .f32 0xFF800000#32)
      (fun d : Fin k => absE (w (h.lift (ix1 j) d))) = _
  rw [word_neginf]
  exact congrArg (fun f => (Finset.univ : Finset (Fin k)).fold max ⊥ f) (funext fun d => by rw [hl d])

/-- A row's scale as the arrays compute it: the row maximum over the constant 127 spread along the rows. -/
theorem rowScale_apply (w : (⟨2, ![n, k]⟩ : Shape).Idx → EReal)
    (h' : (⟨2, ![n, k]⟩ : Shape).ReducesTo [1] ⟨1, ![n]⟩) (h : (⟨2, ![n, k]⟩ : Shape).Reduces [1] ⟨1, ![n]⟩)
    (hu : 0 < (⟨0, ![]⟩ : Shape).numel)
    (hb : (⟨0, ![]⟩ : Shape).BroadcastsInDim ⟨1, ![n]⟩ (![] : Fin 0 → Fin 1)) (j : Fin n) :
    Host.divf (F := Ideal) (φ := .f32)
        (Host.reduce (FloatOps.maximumf (F := Ideal) (φ := .f32)) (Host.absf (F := Ideal) (φ := .f32) w)
          (constant (F := Ideal) ⟨0, ![]⟩ .f32 0xFF800000#32) h' hu)
        (broadcastInDim (s := ⟨0, ![]⟩) ⟨1, ![n]⟩ ![] hb (constant (F := Ideal) ⟨0, ![]⟩ .f32 0x42FE0000#32)) (ix1 j)
      = wScale (fun d => w (ix2 j d)) := by
  show Ideal.div (Host.reduce _ _ _ h' hu (ix1 j)) (broadcastInDim (s := ⟨0, ![]⟩) ⟨1, ![n]⟩ ![] hb _ (ix1 j)) = _
  rw [rowMax_apply w h' h hu j, bcastScalar_apply]
  show Ideal.div _ (Ideal.ofBits .f32 0x42FE0000#32) = _
  rw [word_127]
  rfl

/-! ## Rounding and clipping -/

/-- Rounding to even, then the larger of that and the word of -128, then the smaller of that and the word of 127, is
    the specification's rounding and clipping. -/
theorem quant_words (v : EReal) :
    FloatOps.minimumf (F := Ideal) (φ := .f32) (FloatOps.ofBits (F := Ideal) .f32 0x42FE0000#32)
        (FloatOps.maximumf (F := Ideal) (φ := .f32) (FloatOps.ofBits (F := Ideal) .f32 0xC3000000#32)
          (FloatOps.hostUnary (F := Ideal) (φ := .f32) .roundeven v)) = quant v := by
  show min (Ideal.ofBits .f32 0x42FE0000#32) (max (Ideal.ofBits .f32 0xC3000000#32) (rne v)) = _
  rw [word_127, word_neg128]
  rfl

/-! ## The three prepared parameters

In the three lemmas below `sc` is the array of row scales (`hsc`: entry j is the scale of row j of `w`), `s0` the
activations' scale as a scalar array, and the two clipping bounds arrive as scalar arrays holding the words of 127 and
-128. -/

/-- The integer weights: the entry over its row's scale (the scales made a column and spread along the rows), rounded
    to even, clipped below by -128 and above by 127 (each bound a scalar spread over the matrix). -/
theorem wInt_apply (w : (⟨2, ![n, k]⟩ : Shape).Idx → EReal) (sc : (⟨1, ![n]⟩ : Shape).Idx → EReal)
    (hsc : ∀ j : Fin n, sc (ix1 j) = wScale (fun d => w (ix2 j d)))
    (h1 : (⟨1, ![n]⟩ : Shape).BroadcastsInDim ⟨2, ![n, 1]⟩ (![0] : Fin 1 → Fin 2))
    (h2 : (⟨2, ![n, 1]⟩ : Shape).BroadcastsInDim ⟨2, ![n, k]⟩ (![0, 1] : Fin 2 → Fin 2))
    (hb : (⟨0, ![]⟩ : Shape).BroadcastsInDim ⟨2, ![n, k]⟩ (![] : Fin 0 → Fin 2))
    (hi lo : (⟨0, ![]⟩ : Shape).Idx → EReal)
    (hhi : hi ix0 = FloatOps.ofBits (F := Ideal) .f32 0x42FE0000#32)
    (hlo : lo ix0 = FloatOps.ofBits (F := Ideal) .f32 0xC3000000#32) (j : Fin n) (d : Fin k) :
    minimumf (F := Ideal) (φ := .f32) (broadcastInDim (s := ⟨0, ![]⟩) ⟨2, ![n, k]⟩ ![] hb hi)
        (maximumf (F := Ideal) (φ := .f32) (broadcastInDim (s := ⟨0, ![]⟩) ⟨2, ![n, k]⟩ ![] hb lo)
          (Host.roundeven (F := Ideal) (φ := .f32)
            (Host.divf (F := Ideal) (φ := .f32) w
              (broadcastInDim ⟨2, ![n, k]⟩ ![0, 1] h2 (broadcastInDim ⟨2, ![n, 1]⟩ ![0] h1 sc))))) (ix2 j d)
      = wInt (fun r d => w (ix2 r d)) j d := by
  show FloatOps.minimumf (F := Ideal) (φ := .f32) (broadcastInDim (s := ⟨0, ![]⟩) ⟨2, ![n, k]⟩ ![] hb hi (ix2 j d))
      (FloatOps.maximumf (F := Ideal) (φ := .f32) (broadcastInDim (s := ⟨0, ![]⟩) ⟨2, ![n, k]⟩ ![] hb lo (ix2 j d))
        (FloatOps.hostUnary (F := Ideal) (φ := .f32) .roundeven
          (Ideal.div (w (ix2 j d))
            (broadcastInDim ⟨2, ![n, k]⟩ ![0, 1] h2 (broadcastInDim ⟨2, ![n, 1]⟩ ![0] h1 sc) (ix2 j d))))) = _
  rw [bcastScalar_apply, bcastScalar_apply, bcastRows_apply, hhi, hlo, hsc, quant_words]
  rfl

/-- The channel scales as a one-row matrix: the row scale times the activations' scale spread over the channels. -/
theorem chScale_apply (w : (⟨2, ![n, k]⟩ : Shape).Idx → EReal) (sc : (⟨1, ![n]⟩ : Shape).Idx → EReal)
    (hsc : ∀ j : Fin n, sc (ix1 j) = wScale (fun d => w (ix2 j d)))
    (hb : (⟨0, ![]⟩ : Shape).BroadcastsInDim ⟨1, ![n]⟩ (![] : Fin 0 → Fin 1))
    (hc : (⟨1, ![n]⟩ : Shape).ShapeCasts ⟨2, ![1, n]⟩) (s0 : (⟨0, ![]⟩ : Shape).Idx → EReal) (u : Fin 1) (j : Fin n) :
    shapeCast ⟨2, ![1, n]⟩
        (mulf (F := Ideal) (φ := .f32) sc (broadcastInDim (s := ⟨0, ![]⟩) ⟨1, ![n]⟩ ![] hb s0)) hc (ix2 u j)
      = chScale (fun r d => w (ix2 r d)) (s0 ix0) j := by
  rw [ValueIdx.shapeCast_a_1a_apply]
  show sc (ix1 j) * broadcastInDim (s := ⟨0, ![]⟩) ⟨1, ![n]⟩ ![] hb s0 (ix1 j) = _
  rw [bcastScalar_apply, hsc]
  rfl

/-- The integer bias as a one-row matrix: the bias over the channel scale, rounded to even. -/
theorem bInt_apply (w : (⟨2, ![n, k]⟩ : Shape).Idx → EReal) (sc : (⟨1, ![n]⟩ : Shape).Idx → EReal)
    (hsc : ∀ j : Fin n, sc (ix1 j) = wScale (fun d => w (ix2 j d)))
    (hb : (⟨0, ![]⟩ : Shape).BroadcastsInDim ⟨1, ![n]⟩ (![] : Fin 0 → Fin 1))
    (hc : (⟨1, ![n]⟩ : Shape).ShapeCasts ⟨2, ![1, n]⟩) (b : (⟨1, ![n]⟩ : Shape).Idx → EReal)
    (s0 : (⟨0, ![]⟩ : Shape).Idx → EReal) (u : Fin 1) (j : Fin n) :
    shapeCast ⟨2, ![1, n]⟩
        (Host.roundeven (F := Ideal) (φ := .f32) (Host.divf (F := Ideal) (φ := .f32) b
          (mulf (F := Ideal) (φ := .f32) sc (broadcastInDim (s := ⟨0, ![]⟩) ⟨1, ![n]⟩ ![] hb s0)))) hc (ix2 u j)
      = bInt (fun r d => w (ix2 r d)) (fun j => b (ix1 j)) (s0 ix0) j := by
  rw [ValueIdx.shapeCast_a_1a_apply]
  show rne (Ideal.div (b (ix1 j)) (sc (ix1 j) * broadcastInDim (s := ⟨0, ![]⟩) ⟨1, ![n]⟩ ![] hb s0 (ix1 j))) = _
  rw [bcastScalar_apply, hsc]
  rfl

end Cert.QMlp

end
-- ==== Proof.KHost0.lean ====
/-
  The host operations before the first kernel region, read as values: the five arrays the region is entered with,
  each as the specification's function of the argument arrays (the activations reshaped to 50176 rows; the activation
  scale as a one-entry matrix; the integer weights; the integer bias and the channel scales as one-row matrices).

  The operations come in seven stretches.  For each stretch and each buffer that matters, one lemma says what the buffer
  holds after the stretch in terms of the buffers before it, for ANY contents before it: a written buffer holds its
  operation's value, any other buffer what it held.  Chaining these from the launch memory gives each of the five arrays
  as a closed array expression of the arguments, and the expressions are then read at one index: a reshape keeps the
  row-major position, a spread scalar is the scalar everywhere, a row-wise maximum from negative infinity is the
  supremum of the row, and the change to the narrower float format is the identity on the extended reals.
-/
import proofs.«131268_j17901423689856_2_alg».proof.Proof.Gen.KernelIdeal.Frame
import proofs.«131268_j17901423689856_2_alg».proof.Proof.Spec
import proofs.«131268_j17901423689856_2_alg».proof.Proof.Consts
import proofs.«131268_j17901423689856_2_alg».proof.Proof.KernelArgs
import proofs.«131268_j17901423689856_2_alg».proof.Proof.MaxLemmas
import proofs.«131268_j17901423689856_2_alg».proof.Proof.LibQuantParams
import Idealize.ShloMosaic.Lib.StableHlo.Run
import Idealize.ShloMosaic.Lib.Pipeline.Value
import Idealize.ShloMosaic.Lib.ValueLayout

noncomputable section

namespace Cert.KernelIdeal.HostValues

open Idealize.ShloMosaic Idealize.ShloMosaic.TcCoe Idealize.SL.Sem Cert.KernelIdeal Cert.KernelIdeal.Gen Cert.QMlp
open Idealize.ShloMosaic.ValueIdx (ix0 ix1 ix2 ix3)
open Idealize.ShloMosaic.StableHlo
variable (m : (ℓ : Loc nD τ sig) → Buf (Elt Ideal) ℓ) (ρ : Dev nD → PrngReg)

section Stretches
variable (V : Valuation τ sig (Elt Ideal))

local notation "↟" b => Proc.devRef (τ := τ) (sig := sig) Proc.tc b

/-! ### First stretch -/

theorem A_v0 : (StableHlo.after (hostOps0 (F := Ideal)) V (↟main_v0) : S50176x384.Idx → EReal)
    = shapeCast S50176x384 (V (↟main_arg0)) shapeCasts_S256x196x384_S50176x384 := by
  after_results <;> rfl

theorem A_v1 : (StableHlo.after (hostOps0 (F := Ideal)) V (↟main_v1) : S1x1.Idx → EReal)
    = shapeCast S1x1 (V (↟main_arg5)) shapeCasts_S1_S1x1 := by
  after_results <;> rfl

theorem A_v2 : (StableHlo.after (hostOps0 (F := Ideal)) V (↟main_v2) : S_.Idx → EReal)
    = shapeCast S_ (V (↟main_arg5)) shapeCasts_S1_S_ := by
  after_results <;> rfl

theorem A_arg2 : StableHlo.after (hostOps0 (F := Ideal)) V (↟main_arg2) = V (↟main_arg2) := by
  after_results

/-- The weight rows' scales as the first stretch computes them. -/
def rowScales (w : S1536x384.Idx → EReal) : S1536.Idx → EReal :=
  Host.divf (F := Ideal) (φ := .f32)
    (Host.reduce FloatOps.maximumf (Host.absf (F := Ideal) w) (constant (F := Ideal) S_ .f32 0xFF800000#32) reducesTo_S1536x384_S1536_d1 h_S_)
    (broadcastInDim S1536 ![] bcast_S_S1536 (constant (F := Ideal) S_ .f32 0x42FE0000#32))

theorem A_v6 : (StableHlo.after (hostOps0 (F := Ideal)) V (↟main_v6) : S1536.Idx → EReal)
    = rowScales (V (↟main_arg1)) := by
  after_results <;> rfl

theorem A_v9 : (StableHlo.after (hostOps0 (F := Ideal)) V (↟main_v9) : S1536x384.Idx → EReal)
    = Host.divf (F := Ideal) (φ := .f32) (V (↟main_arg1))
        (broadcastInDim S1536x384 ![0, 1] bcast_S1536x1_S1536x384_0_1
          (broadcastInDim S1536x1 ![0] bcast_S1536_S1536x1_0 (rowScales (V (↟main_arg1))))) := by
  after_results <;> rfl

end Stretches

section Stretches2
variable (V : Valuation τ sig (Elt Ideal))

local notation "↟" b => Proc.devRef (τ := τ) (sig := sig) Proc.tc b

/-! ### Second stretch: the rounding of the weight quotients -/

theorem B_v10 : (StableHlo.after (hostOps0_1 (F := Ideal)) V (↟main_v10) : S1536x384.Idx → EReal)
    = Host.roundeven (F := Ideal) (φ := .f32) (V (↟main_v9)) := by
  after_results <;> rfl
theorem B_v0 : StableHlo.after (hostOps0_1 (F := Ideal)) V (↟main_v0) = V (↟main_v0) := by after_results
theorem B_v1 : StableHlo.after (hostOps0_1 (F := Ideal)) V (↟main_v1) = V (↟main_v1) := by after_results
theorem B_v2 : StableHlo.after (hostOps0_1 (F := Ideal)) V (↟main_v2) = V (↟main_v2) := by after_results
theorem B_v6 : StableHlo.after (hostOps0_1 (F := Ideal)) V (↟main_v6) = V (↟main_v6) := by after_results
theorem B_arg2 : StableHlo.after (hostOps0_1 (F := Ideal)) V (↟main_arg2) = V (↟main_arg2) := by after_results

/-! ### Third stretch: the two clipping bounds -/

theorem C_cst1 : (StableHlo.after (hostOps0_2 (F := Ideal)) V (↟main_cst_1) : S_.Idx → EReal)
    = constant (F := Ideal) S_ .f32 0xC3000000#32 := by
  after_results <;> rfl
theorem C_cst2 : (StableHlo.after (hostOps0_2 (F := Ideal)) V (↟main_cst_2) : S_.Idx → EReal)
    = constant (F := Ideal) S_ .f32 0x42FE0000#32 := by
  after_results <;> rfl
theorem C_v0 : StableHlo.after (hostOps0_2 (F := Ideal)) V (↟main_v0) = V (↟main_v0) := by after_results
theorem C_v1 : StableHlo.after (hostOps0_2 (F := Ideal)) V (↟main_v1) = V (↟main_v1) := by after_results
theorem C_v2 : StableHlo.after (hostOps0_2 (F := Ideal)) V (↟main_v2) = V (↟main_v2) := by after_results
theorem C_v6 : StableHlo.after (hostOps0_2 (F := Ideal)) V (↟main_v6) = V (↟main_v6) := by after_results
theorem C_v10 : StableHlo.after (hostOps0_2 (F := Ideal)) V (↟main_v10) = V (↟main_v10) := by after_results
theorem C_arg2 : StableHlo.after (hostOps0_2 (F := Ideal)) V (↟main_arg2) = V (↟main_arg2) := by after_results

/-! ### Fourth stretch: the clip -/

theorem D_v11 : (StableHlo.after (hostOps0_3 (F := Ideal)) V (↟main_v11) : S1536x384.Idx → EReal)
    = minimumf (F := Ideal) (φ := .f32) (broadcastInDim S1536x384 ![] bcast_S_S1536x384 (V (↟main_cst_2)))
        (maximumf (F := Ideal) (φ := .f32) (broadcastInDim S1536x384 ![] bcast_S_S1536x384 (V (↟main_cst_1))) (V (↟main_v10))) := by
  after_results <;> rfl
theorem D_v0 : StableHlo.after (hostOps0_3 (F := Ideal)) V (↟main_v0) = V (↟main_v0) := by after_results
theorem D_v1 : StableHlo.after (hostOps0_3 (F := Ideal)) V (↟main_v1) = V (↟main_v1) := by after_results
theorem D_v2 : StableHlo.after (hostOps0_3 (F := Ideal)) V (↟main_v2) = V (↟main_v2) := by after_results
theorem D_v6 : StableHlo.after (hostOps0_3 (F := Ideal)) V (↟main_v6) = V (↟main_v6) := by after_results
theorem D_arg2 : StableHlo.after (hostOps0_3 (F := Ideal)) V (↟main_arg2) = V (↟main_arg2) := by after_results

/-! ### Fifth stretch: the conversion of the weights, the channel scales, the bias quotient -/

theorem E_v12 : (StableHlo.after (hostOps0_4 (F := Ideal)) V (↟main_v12) : S1536x384.Idx → EReal)
    = truncf (F := Ideal) .bf16 (V (↟main_v11) : S1536x384.Idx → EReal) bitsLt_bf16_f32 := by
  after_results <;> rfl
theorem E_v15 : (StableHlo.after (hostOps0_4 (F := Ideal)) V (↟main_v15) : S1x1536.Idx → EReal)
    = shapeCast S1x1536 (mulf (F := Ideal) (φ := .f32) (V (↟main_v6)) (broadcastInDim S1536 ![] bcast_S_S1536 (V (↟main_v2))))
        shapeCasts_S1536_S1x1536 := by
  after_results <;> rfl
theorem E_v18 : (StableHlo.after (hostOps0_4 (F := Ideal)) V (↟main_v18) : S1536.Idx → EReal)
    = Host.divf (F := Ideal) (φ := .f32) (V (↟main_arg2))
        (mulf (F := Ideal) (φ := .f32) (V (↟main_v6)) (broadcastInDim S1536 ![] bcast_S_S1536 (V (↟main_v2)))) := by
  after_results <;> rfl
theorem E_v0 : StableHlo.after (hostOps0_4 (F := Ideal)) V (↟main_v0) = V (↟main_v0) := by after_results
theorem E_v1 : StableHlo.after (hostOps0_4 (F := Ideal)) V (↟main_v1) = V (↟main_v1) := by after_results

/-! ### Sixth stretch: the rounding of the bias quotient -/

theorem G_v19 : (StableHlo.after (hostOps0_5 (F := Ideal)) V (↟main_v19) : S1536.Idx → EReal)
    = Host.roundeven (F := Ideal) (φ := .f32) (V (↟main_v18)) := by
  after_results <;> rfl
theorem G_v0 : StableHlo.after (hostOps0_5 (F := Ideal)) V (↟main_v0) = V (↟main_v0) := by after_results
theorem G_v1 : StableHlo.after (hostOps0_5 (F := Ideal)) V (↟main_v1) = V (↟main_v1) := by after_results
theorem G_v12 : StableHlo.after (hostOps0_5 (F := Ideal)) V (↟main_v12) = V (↟main_v12) := by after_results
theorem G_v15 : StableHlo.after (hostOps0_5 (F := Ideal)) V (↟main_v15) = V (↟main_v15) := by after_results

/-! ### Seventh stretch: the bias as a one-row matrix -/

theorem H_v20 : (StableHlo.after (hostOps0_6 (F := Ideal)) V (↟main_v20) : S1x1536.Idx → EReal)
    = shapeCast S1x1536 (V (↟main_v19)) shapeCasts_S1536_S1x1536 := by
  after_results <;> rfl
theorem H_v0 : StableHlo.after (hostOps0_6 (F := Ideal)) V (↟main_v0) = V (↟main_v0) := by after_results
theorem H_v1 : StableHlo.after (hostOps0_6 (F := Ideal)) V (↟main_v1) = V (↟main_v1) := by after_results
theorem H_v12 : StableHlo.after (hostOps0_6 (F := Ideal)) V (↟main_v12) = V (↟main_v12) := by after_results
theorem H_v15 : StableHlo.after (hostOps0_6 (F := Ideal)) V (↟main_v15) = V (↟main_v15) := by after_results

end Stretches2

section Entry

local notation "↟" b => Proc.devRef (τ := τ) (sig := sig) Proc.tc b

/-! ### The fold from the launch memory, one buffer at a time -/

/-- The row scales, as the fifth stretch finds them. -/
theorem W4_v6 (c : Dev nD) :
    (W4 m ρ c (↟main_v6) : S1536.Idx → EReal) = rowScales (m ((c : Thread nD τ).loc main_arg1)) :=
  (D_v6 (W3 m ρ c)).trans <| (C_v6 (W2 m ρ c)).trans <| (B_v6 (W1 m ρ c)).trans <| A_v6 (W0 m ρ c)

/-- The activations' scale as a scalar, as the fifth stretch finds it. -/
theorem W4_v2 (c : Dev nD) :
    (W4 m ρ c (↟main_v2) : S_.Idx → EReal) = shapeCast S_ (m ((c : Thread nD τ).loc main_arg5)) shapeCasts_S1_S_ :=
  (D_v2 (W3 m ρ c)).trans <| (C_v2 (W2 m ρ c)).trans <| (B_v2 (W1 m ρ c)).trans <| A_v2 (W0 m ρ c)

/-- The bias, untouched when the fifth stretch reads it. -/
theorem W4_arg2 (c : Dev nD) : W4 m ρ c (↟main_arg2) = m ((c : Thread nD τ).loc main_arg2) :=
  (D_arg2 (W3 m ρ c)).trans <| (C_arg2 (W2 m ρ c)).trans <| (B_arg2 (W1 m ρ c)).trans <| A_arg2 (W0 m ρ c)

/-- The weights over their row scales, rounded and clipped, as arrays. -/
def clipped (w : S1536x384.Idx → EReal) : S1536x384.Idx → EReal :=
  minimumf (F := Ideal) (φ := .f32)
    (broadcastInDim S1536x384 ![] bcast_S_S1536x384 (constant (F := Ideal) S_ .f32 0x42FE0000#32))
    (maximumf (F := Ideal) (φ := .f32)
      (broadcastInDim S1536x384 ![] bcast_S_S1536x384 (constant (F := Ideal) S_ .f32 0xC3000000#32))
      (Host.roundeven (F := Ideal) (φ := .f32) (Host.divf (F := Ideal) (φ := .f32) w
        (broadcastInDim S1536x384 ![0, 1] bcast_S1536x1_S1536x384_0_1
          (broadcastInDim S1536x1 ![0] bcast_S1536_S1536x1_0 (rowScales w))))))

/-- The clipped weights, as the fifth stretch finds them. -/
theorem W4_v11 (c : Dev nD) :
    (W4 m ρ c (↟main_v11) : S1536x384.Idx → EReal) = clipped (m ((c : Thread nD τ).loc main_arg1)) := by
  have e1 : (W3 m ρ c (↟main_cst_1) : S_.Idx → EReal) = constant (F := Ideal) S_ .f32 0xC3000000#32 :=
    C_cst1 (W2 m ρ c)
  have e2 : (W3 m ρ c (↟main_cst_2) : S_.Idx → EReal) = constant (F := Ideal) S_ .f32 0x42FE0000#32 :=
    C_cst2 (W2 m ρ c)
  have e3 : (W3 m ρ c (↟main_v10) : S1536x384.Idx → EReal)
      = Host.roundeven (F := Ideal) (φ := .f32) (Host.divf (F := Ideal) (φ := .f32) (m ((c : Thread nD τ).loc main_arg1))
          (broadcastInDim S1536x384 ![0, 1] bcast_S1536x1_S1536x384_0_1
            (broadcastInDim S1536x1 ![0] bcast_S1536_S1536x1_0 (rowScales (m ((c : Thread nD τ).loc main_arg1)))))) :=
    (C_v10 (W2 m ρ c)).trans <| (B_v10 (W1 m ρ c)).trans <|
      congrArg (Host.roundeven (F := Ideal) (φ := .f32)) (A_v9 (W0 m ρ c))
  refine (D_v11 (W3 m ρ c)).trans ?_
  rw [e1, e2, e3]
  rfl

/-- Entry j of the row scales is the specification's scale of row j. -/
theorem rowScales_apply (w : S1536x384.Idx → EReal) (j : Fin 1536) :
    rowScales w (ix1 j) = wScale (fun d => w (ix2 j d)) :=
  rowScale_apply w reducesTo_S1536x384_S1536_d1 (by decide) h_S_ bcast_S_S1536 j

end Entry

section Final

local notation "↟" b => Proc.devRef (τ := τ) (sig := sig) Proc.tc b

/-- The activations: the reshape to 50176 rows keeps the row-major order, and row r of 384 entries is batch r / 196,
    position r % 196; no later stretch writes the buffer. -/
theorem entry0_x (c : Dev nD) (r : Fin 50176) (d : Fin 384) : mat (V7 m ρ c main_v0) r d = aX m c r d := by
  have e : (W7 m ρ c (↟main_v0) : S50176x384.Idx → EReal)
      = shapeCast S50176x384 (m ((c : Thread nD τ).loc main_arg0)) shapeCasts_S256x196x384_S50176x384 :=
    (H_v0 (W6 m ρ c)).trans <| (G_v0 (W5 m ρ c)).trans <| (E_v0 (W4 m ρ c)).trans <| (D_v0 (W3 m ρ c)).trans <|
      (C_v0 (W2 m ρ c)).trans <| (B_v0 (W1 m ρ c)).trans <| A_v0 (W0 m ρ c)
  show (W7 m ρ c (↟main_v0) : S50176x384.Idx → EReal) (ix2 r d) = rows3 (m ((c : Thread nD τ).loc main_arg0)) r d
  rw [e]
  unfold rows3
  refine shapeCast_apply _ _ _ _ ?_
  show ((⟨3, ![256, 196, 384]⟩ : Shape).rowMajor _).val = ((⟨2, ![50176, 384]⟩ : Shape).rowMajor _).val
  rw [Shape.rowMajor_val_three, Shape.rowMajor_val_two]
  show (r.val / 196 * 196 + r.val % 196) * 384 + d.val = r.val * 384 + d.val
  rw [Nat.div_add_mod' r.val 196]

/-- The activations' scale: the one-entry vector viewed as a one-by-one matrix; no later stretch writes the buffer. -/
theorem entry0_s (c : Dev nD) : mat (V7 m ρ c main_v1) 0 0 = aS m c := by
  have e : (W7 m ρ c (↟main_v1) : S1x1.Idx → EReal)
      = shapeCast S1x1 (m ((c : Thread nD τ).loc main_arg5)) shapeCasts_S1_S1x1 :=
    (H_v1 (W6 m ρ c)).trans <| (G_v1 (W5 m ρ c)).trans <| (E_v1 (W4 m ρ c)).trans <| (D_v1 (W3 m ρ c)).trans <|
      (C_v1 (W2 m ρ c)).trans <| (B_v1 (W1 m ρ c)).trans <| A_v1 (W0 m ρ c)
  show (W7 m ρ c (↟main_v1) : S1x1.Idx → EReal) (ix2 (0 : Fin 1) (0 : Fin 1)) = _
  rw [e]
  exact ValueIdx.shapeCast_a_1a_apply _ _ (0 : Fin 1) (0 : Fin 1)

/-- The integer weights: the conversion to the narrower format changes nothing on the extended reals, and what it
    converts is the weights over their row scales, rounded and clipped. -/
theorem entry0_wq (c : Dev nD) (j : Fin 1536) (d : Fin 384) : mat (V7 m ρ c main_v12) j d = wInt (aW1 m c) j d := by
  have e : (W7 m ρ c (↟main_v12) : S1536x384.Idx → EReal)
      = truncf (F := Ideal) .bf16 (W4 m ρ c (↟main_v11) : S1536x384.Idx → EReal) bitsLt_bf16_f32 :=
    (H_v12 (W6 m ρ c)).trans <| (G_v12 (W5 m ρ c)).trans <| E_v12 (W4 m ρ c)
  show (W7 m ρ c (↟main_v12) : S1536x384.Idx → EReal) (ix2 j d) = _
  rw [e, W4_v11]
  show clipped (m ((c : Thread nD τ).loc main_arg1)) (ix2 j d) = _
  unfold clipped
  exact wInt_apply _ _ (rowScales_apply _) _ _ _ _ _ rfl rfl j d

/-- The integer bias: the bias over the channel scale, rounded to even, laid out as one row. -/
theorem entry0_bq (c : Dev nD) (j : Fin 1536) :
    mat (V7 m ρ c main_v20) 0 j = bInt (aW1 m c) (ab1 m c) (aS m c) j := by
  have e : (W7 m ρ c (↟main_v20) : S1x1536.Idx → EReal)
      = shapeCast S1x1536 (Host.roundeven (F := Ideal) (φ := .f32) (Host.divf (F := Ideal) (φ := .f32)
          (W4 m ρ c (↟main_arg2))
          (mulf (F := Ideal) (φ := .f32) (W4 m ρ c (↟main_v6))
            (broadcastInDim S1536 ![] bcast_S_S1536 (W4 m ρ c (↟main_v2)))))) shapeCasts_S1536_S1x1536 :=
    (H_v20 (W6 m ρ c)).trans <| congrArg (fun x => shapeCast S1x1536 x shapeCasts_S1536_S1x1536) <|
      (G_v19 (W5 m ρ c)).trans <| congrArg (Host.roundeven (F := Ideal) (φ := .f32)) (E_v18 (W4 m ρ c))
  show (W7 m ρ c (↟main_v20) : S1x1536.Idx → EReal) (ix2 (0 : Fin 1) j) = _
  rw [e, W4_v6, W4_v2, W4_arg2]
  refine (bInt_apply _ _ (rowScales_apply _) _ _ _ _ (0 : Fin 1) j).trans ?_
  rw [shapeCast_1_scalar_apply]

/-- The channel scales: the row scale times the activations' scale, laid out as one row. -/
theorem entry0_sc (c : Dev nD) (j : Fin 1536) : mat (V7 m ρ c main_v15) 0 j = chScale (aW1 m c) (aS m c) j := by
  have e : (W7 m ρ c (↟main_v15) : S1x1536.Idx → EReal)
      = shapeCast S1x1536 (mulf (F := Ideal) (φ := .f32) (W4 m ρ c (↟main_v6))
          (broadcastInDim S1536 ![] bcast_S_S1536 (W4 m ρ c (↟main_v2)))) shapeCasts_S1536_S1x1536 :=
    (H_v15 (W6 m ρ c)).trans <| (G_v15 (W5 m ρ c)).trans <| E_v15 (W4 m ρ c)
  show (W7 m ρ c (↟main_v15) : S1x1536.Idx → EReal) (ix2 (0 : Fin 1) j) = _
  rw [e, W4_v6, W4_v2]
  refine (chScale_apply _ _ (rowScales_apply _) _ _ _ (0 : Fin 1) j).trans ?_
  rw [shapeCast_1_scalar_apply]

end Final

end Cert.KernelIdeal.HostValues

end
-- ==== Proof.KHost1.lean ====
/-
  The host operations between the first and the second kernel region, read as values: the second region is entered
  with the hidden layer as the first region left it, the hidden layer's scale (the largest partial maximum over 127),
  and the second layer's integer weights, integer bias and channel scales at that scale.
-/
import proofs.«131268_j17901423689856_2_alg».proof.Proof.Gen.KernelIdeal.Frame
import proofs.«131268_j17901423689856_2_alg».proof.Proof.Spec
import proofs.«131268_j17901423689856_2_alg».proof.Proof.Consts
import proofs.«131268_j17901423689856_2_alg».proof.Proof.KernelArgs
import proofs.«131268_j17901423689856_2_alg».proof.Proof.MaxLemmas
import Idealize.ShloMosaic.Lib.StableHlo.Run
import Idealize.ShloMosaic.Lib.Pipeline.Value
import Idealize.ShloMosaic.Lib.ValueLayout

noncomputable section

namespace Cert.KernelIdeal.HostValues

open Idealize.ShloMosaic Idealize.ShloMosaic.TcCoe Idealize.SL.Sem Cert.KernelIdeal Cert.KernelIdeal.Gen Cert.QMlp
open Idealize.ShloMosaic.ValueIdx (ix0 ix1 ix2 ix3)
open Idealize.ShloMosaic.StableHlo
variable (m : (ℓ : Loc nD τ sig) → Buf (Elt Ideal) ℓ) (ρ : Dev nD → PrngReg)

/-- The shape fact the one-axis reduction's inserted index is named by: a 384×1536 array reduced along its columns. -/
private theorem red_rows : S384x1536.Reduces [1] S384 := by decide

/-- Row j of a 384×1536 array with column d inserted is the index (j, d). -/
private theorem lift_row (j : Fin 384) (d : Fin 1536) : red_rows.lift (ix1 j) d = ix2 j d := by
  funext a
  refine Fin.ext ?_
  match a with
  | ⟨0, _⟩ => rfl
  | ⟨1, _⟩ => rfl

/-- The scale of every weight row, as the host computes it: the row's magnitudes reduced by the maximum from -∞,
    over a broadcast 127. -/
private def scales (A3 : FVec Ideal S384x1536 .f32) : FVec Ideal S384 .f32 :=
  Host.divf (F := Ideal) (φ := .f32)
    (Host.reduce FloatOps.maximumf (Host.absf (F := Ideal) (φ := .f32) A3) (constant (F := Ideal) S_ .f32 0xFF800000#32)
      reducesTo_S384x1536_S384_d1 h_S_)
    (broadcastInDim S384 ![] bcast_S_S384 (constant (F := Ideal) S_ .f32 0x42FE0000#32))

/-- Read at row j it is the specification's row scale: the largest magnitude of the row over 127. -/
private theorem scales_apply (A3 : FVec Ideal S384x1536 .f32) (j : Fin 384) :
    scales A3 (ix1 j) = wScale (mat A3 j) := by
  have hd : ∀ x y : FVec Ideal S384 .f32, Host.divf (F := Ideal) (φ := .f32) x y (ix1 j) = Ideal.div (x (ix1 j)) (y (ix1 j)) :=
    fun _ _ => rfl
  have hb : ∀ y : FVec Ideal S_ .f32, broadcastInDim S384 ![] bcast_S_S384 y (ix1 j) = y ix0 :=
    fun y => broadcastInDim_apply _ bcast_S_S384 y (ix1 j) ix0 (fun a => a.elim0)
  have hf : ∀ g : Fin 1536 → EReal, (Finset.univ : Finset (Fin 1536)).fold (FloatOps.maximumf (F := Ideal) (φ := .f32)) ⊥ g
      = Finset.univ.sup g := fun g => fold_max_bot_eq_sup _ g
  unfold scales wScale rowAbsMax
  rw [hd, hb, Host.reduce_eq_fold_single FloatOps.maximumf _ _ reducesTo_S384x1536_S384_d1 red_rows h_S_ (ix1 j),
    ValueIdx.constant_apply, ValueIdx.constant_apply, word_127, word_neginf]
  refine congrArg (fun v => Ideal.div v ((127 : ℝ) : EReal)) ?_
  refine (hf _).trans (Finset.sup_congr rfl fun d _ => ?_)
  show max (A3 (red_rows.lift (ix1 j) d)) (-(A3 (red_rows.lift (ix1 j) d))) = _
  rw [lift_row]
  rfl

/-- The hidden layer's scale as the host computes it from the first region's partial maxima: their maximum from -∞,
    over 127, as a 1×1 matrix. -/
private def scale1x1 (Pm : FVec Ideal S392x128 .f32) : FVec Ideal S1x1 .f32 :=
  shapeCast S1x1 (Host.divf (F := Ideal) (φ := .f32) (Host.reduce FloatOps.maximumf Pm (constant (F := Ideal) S_ .f32 0xFF800000#32)
    reducesTo_S392x128_S_d0_1 h_S_) (constant (F := Ideal) S_ .f32 0x42FE0000#32)) shapeCasts_S_S1x1

/-- Its one entry: the supremum of the partial maxima over pairs of coordinates, over 127. -/
private theorem scale1x1_apply (Pm : FVec Ideal S392x128 .f32) :
    scale1x1 Pm (ix2 0 0) = Ideal.div (Finset.univ.sup fun q : Fin 392 × Fin 128 => Pm (ix2 q.1 q.2)) ((127 : ℝ) : EReal) := by
  unfold scale1x1
  -- the 1×1 matrix's entry and the scalar's one index both sit at row-major position 0
  refine (shapeCast_apply _ shapeCasts_S_S1x1 (ix2 0 0) ix0 ?_).trans ?_
  · have h0 : (S_.rowMajor ix0).val = 0 := Shape.rowMajorPi_zero _ _
    rw [h0, Shape.rowMajor_val_two]
    rfl
  · -- a scalar has one index, so every index of the array drops to it: the reduction folds over the whole array
    haveI : Subsingleton S_.Idx := ⟨fun a b => funext fun d => d.elim0⟩
    have hd : ∀ x y : FVec Ideal S_ .f32, Host.divf (F := Ideal) (φ := .f32) x y ix0 = Ideal.div (x ix0) (y ix0) :=
      fun _ _ => rfl
    have hf : (Finset.univ : Finset S392x128.Idx).fold (FloatOps.maximumf (F := Ideal) (φ := .f32)) ⊥ Pm = Finset.univ.sup Pm :=
      fold_max_bot_eq_sup _ _
    rw [hd, Host.reduce_eq_fold, Finset.filter_true_of_mem (fun i _ => Subsingleton.elim _ _), ValueIdx.constant_apply,
      ValueIdx.constant_apply, word_127, word_neginf, hf, sup_idx2]

/-- A 1×1 matrix as a scalar: the scalar's one index and the matrix's one entry both sit at row-major position 0. -/
private theorem scalar_of_1x1 (A : FVec Ideal S1x1 .f32) (i : S_.Idx) :
    shapeCast S_ A shapeCasts_S1x1_S_ i = mat A 0 0 := by
  refine shapeCast_apply A shapeCasts_S1x1_S_ i (ix2 0 0) ?_
  have h0 : (S_.rowMajor i).val = 0 := Shape.rowMajorPi_zero _ _
  rw [h0, Shape.rowMajor_val_two]
  rfl

/-- The integer weights as the host computes them: each entry over its row's scale (the scales laid out as a column and
    spread along the rows), rounded to even, clipped below by -128 and above by 127, stored as bf16. -/
private def wqHost (A3 : FVec Ideal S384x1536 .f32) : FVec Ideal S384x1536 .bf16 :=
  truncf .bf16
    (minimumf (broadcastInDim S384x1536 ![] bcast_S_S384x1536 (constant (F := Ideal) S_ .f32 0x42FE0000#32))
      (maximumf (broadcastInDim S384x1536 ![] bcast_S_S384x1536 (constant (F := Ideal) S_ .f32 0xC3000000#32))
        (Host.roundeven (Host.divf (F := Ideal) (φ := .f32) A3
          (broadcastInDim S384x1536 ![0, 1] bcast_S384x1_S384x1536_0_1 (broadcastInDim S384x1 ![0] bcast_S384_S384x1_0 (scales A3)))))))
    bitsLt_bf16_f32

/-- Read at (j, d) they are the specification's integer weights. -/
private theorem wqHost_apply (A3 : FVec Ideal S384x1536 .f32) (j : Fin 384) (d : Fin 1536) :
    wqHost A3 (ix2 j d) = wInt (mat A3) j d := by
  have hT : ∀ x : FVec Ideal S384x1536 .f32, (truncf .bf16 x bitsLt_bf16_f32 : FVec Ideal S384x1536 .bf16) (ix2 j d) = x (ix2 j d) :=
    fun _ => rfl
  have hMin : ∀ x y : FVec Ideal S384x1536 .f32, minimumf x y (ix2 j d) = min (x (ix2 j d)) (y (ix2 j d)) := fun _ _ => rfl
  have hMax : ∀ x y : FVec Ideal S384x1536 .f32, maximumf x y (ix2 j d) = max (x (ix2 j d)) (y (ix2 j d)) := fun _ _ => rfl
  have hR : ∀ x : FVec Ideal S384x1536 .f32, Host.roundeven (F := Ideal) (φ := .f32) x (ix2 j d) = rne (x (ix2 j d)) := fun _ => rfl
  have hD : ∀ x y : FVec Ideal S384x1536 .f32, Host.divf (F := Ideal) (φ := .f32) x y (ix2 j d) = Ideal.div (x (ix2 j d)) (y (ix2 j d)) :=
    fun _ _ => rfl
  -- a scalar spread over the matrix reads its one value everywhere
  have hB0 : ∀ y : FVec Ideal S_ .f32, broadcastInDim S384x1536 ![] bcast_S_S384x1536 y (ix2 j d) = y ix0 :=
    fun y => broadcastInDim_apply _ bcast_S_S384x1536 y (ix2 j d) ix0 (fun a => a.elim0)
  -- a column spread along the rows reads row j's entry; the column is the vector's entry j
  have hB2 : ∀ y : FVec Ideal S384x1 .f32, broadcastInDim S384x1536 ![0, 1] bcast_S384x1_S384x1536_0_1 y (ix2 j d) = y (ix2 j 0) :=
    fun y => broadcastInDim_apply _ bcast_S384x1_S384x1536_0_1 y (ix2 j d) (ix2 j 0) (fun a => match a with
      | ⟨0, _⟩ => by show j.val = if (384 : Nat) = 1 then 0 else j.val; rw [if_neg (by decide)]
      | ⟨1, _⟩ => by show 0 = if (1 : Nat) = 1 then 0 else d.val; rw [if_pos rfl])
  have hB1 : ∀ y : FVec Ideal S384 .f32, broadcastInDim S384x1 ![0] bcast_S384_S384x1_0 y (ix2 j 0) = y (ix1 j) :=
    fun y => broadcastInDim_apply _ bcast_S384_S384x1_0 y (ix2 j 0) (ix1 j) (fun a => match a with
      | ⟨0, _⟩ => by show j.val = if (384 : Nat) = 1 then 0 else j.val; rw [if_neg (by decide)])
  unfold wqHost wInt quant
  rw [hT, hMin, hMax, hR, hD, hB0, hB0, hB2, hB1, scales_apply, ValueIdx.constant_apply, ValueIdx.constant_apply, word_127,
    word_neg128]

/-- A scalar spread over a vector of 384 reads its one value at every entry. -/
private theorem spread384 (y : FVec Ideal S_ .f32) (j : Fin 384) : broadcastInDim S384 ![] bcast_S_S384 y (ix1 j) = y ix0 :=
  broadcastInDim_apply _ bcast_S_S384 y (ix1 j) ix0 (fun a => a.elim0)

/-- The channel scales as the host computes them: each row scale times the activations' scale, as a one-row matrix. -/
private def scHost (A3 : FVec Ideal S384x1536 .f32) (a0 : FVec Ideal S_ .f32) : FVec Ideal S1x384 .f32 :=
  shapeCast S1x384 (mulf (scales A3) (broadcastInDim S384 ![] bcast_S_S384 a0)) shapeCasts_S384_S1x384

private theorem scHost_apply (A3 : FVec Ideal S384x1536 .f32) (a0 : FVec Ideal S_ .f32) (j : Fin 384) :
    scHost A3 a0 (ix2 0 j) = chScale (mat A3) (a0 ix0) j := by
  have hM : ∀ x y : FVec Ideal S384 .f32, mulf x y (ix1 j) = x (ix1 j) * y (ix1 j) := fun _ _ => rfl
  unfold scHost chScale
  rw [ValueIdx.shapeCast_a_1a_apply _ shapeCasts_S384_S1x384 0 j, hM, spread384, scales_apply]

/-- The integer bias as the host computes it: each bias entry over its channel scale, rounded to even, as a one-row matrix. -/
private def bqHost (A3 : FVec Ideal S384x1536 .f32) (A4 : FVec Ideal S384 .f32) (a0 : FVec Ideal S_ .f32) : FVec Ideal S1x384 .f32 :=
  shapeCast S1x384 (Host.roundeven (F := Ideal) (φ := .f32) (Host.divf (F := Ideal) (φ := .f32) A4
    (mulf (scales A3) (broadcastInDim S384 ![] bcast_S_S384 a0)))) shapeCasts_S384_S1x384

private theorem bqHost_apply (A3 : FVec Ideal S384x1536 .f32) (A4 : FVec Ideal S384 .f32) (a0 : FVec Ideal S_ .f32) (j : Fin 384) :
    bqHost A3 A4 a0 (ix2 0 j) = bInt (mat A3) (vec A4) (a0 ix0) j := by
  have hM : ∀ x y : FVec Ideal S384 .f32, mulf x y (ix1 j) = x (ix1 j) * y (ix1 j) := fun _ _ => rfl
  have hR : ∀ x : FVec Ideal S384 .f32, Host.roundeven (F := Ideal) (φ := .f32) x (ix1 j) = rne (x (ix1 j)) := fun _ => rfl
  have hD : ∀ x y : FVec Ideal S384 .f32, Host.divf (F := Ideal) (φ := .f32) x y (ix1 j) = Ideal.div (x (ix1 j)) (y (ix1 j)) :=
    fun _ _ => rfl
  unfold bqHost bInt
  rw [ValueIdx.shapeCast_a_1a_apply _ shapeCasts_S384_S1x384 0 j, hR, hD, hM, spread384, scales_apply]

/-- The second layer's weights reach the first region's exit as launched: no host operation before it writes them and
    no window of the first region is theirs. -/
private theorem W8_arg3 (c : Dev nD) : W8 m ρ c (Proc.devRef .tc main_arg3) = m ((c : Thread nD τ).loc main_arg3) := by
  rw [W8_of_ne m ρ c main_arg3 (by decide)]
  show StableHlo.after hostOps0_6 (W6 m ρ c) (Proc.devRef .tc main_arg3) = _
  after_results_simp

/-- So does the second layer's bias. -/
private theorem W8_arg4 (c : Dev nD) : W8 m ρ c (Proc.devRef .tc main_arg4) = m ((c : Thread nD τ).loc main_arg4) := by
  rw [W8_of_ne m ρ c main_arg4 (by decide)]
  show StableHlo.after hostOps0_6 (W6 m ρ c) (Proc.devRef .tc main_arg4) = _
  after_results_simp

/-- The 1×1 scale at the second region's entry: written once, from the first region's partial maxima. -/
private theorem v24_eq (c : Dev nD) :
    (V15 m ρ c main_v24 : S1x1.Idx → EReal) = scale1x1 (W8 m ρ c (Proc.devRef .tc main_v21_1)) := by
  show StableHlo.after hostOps1_6 (W14 m ρ c) (Proc.devRef .tc main_v24) = _
  after_results_simp
  rfl

/-- The integer weights at the second region's entry, from the weights as the first region left them. -/
private theorem v35_eq (c : Dev nD) :
    (V15 m ρ c main_v35 : S384x1536.Idx → EReal) = wqHost (W8 m ρ c (Proc.devRef .tc main_arg3)) := by
  show StableHlo.after hostOps1_6 (W14 m ρ c) (Proc.devRef .tc main_v35) = _
  after_results_simp
  rfl

/-- The channel scales at the second region's entry: the scalar they multiply by is the 1×1 scale reshaped. -/
private theorem v38_eq (c : Dev nD) :
    (V15 m ρ c main_v38 : S1x384.Idx → EReal)
      = scHost (W8 m ρ c (Proc.devRef .tc main_arg3))
          (shapeCast S_ (scale1x1 (W8 m ρ c (Proc.devRef .tc main_v21_1))) shapeCasts_S1x1_S_) := by
  show StableHlo.after hostOps1_6 (W14 m ρ c) (Proc.devRef .tc main_v38) = _
  after_results_simp
  rfl

/-- The integer bias at the second region's entry. -/
private theorem v43_eq (c : Dev nD) :
    (V15 m ρ c main_v43 : S1x384.Idx → EReal)
      = bqHost (W8 m ρ c (Proc.devRef .tc main_arg3)) (W8 m ρ c (Proc.devRef .tc main_arg4))
          (shapeCast S_ (scale1x1 (W8 m ρ c (Proc.devRef .tc main_v21_1))) shapeCasts_S1x1_S_) := by
  show StableHlo.after hostOps1_6 (W14 m ρ c) (Proc.devRef .tc main_v43) = _
  after_results_simp
  rfl

theorem entry1_h (c : Dev nD) : V15 m ρ c main_v21_0 = (dat0 (V7 m ρ) c).arrAt 5 cfg0.N := by
  -- no host operation between the two regions writes the hidden layer: it is as the first region left it
  show StableHlo.after hostOps1_6 (W14 m ρ c) (Proc.devRef .tc main_v21_0) = _
  after_results_simp
  exact W8_arr m ρ c 5

theorem entry1_a (c : Dev nD) :
    mat (V15 m ρ c main_v24) 0 0
      = Ideal.div (Finset.univ.sup fun q : Fin 392 × Fin 128 => mat ((dat0 (V7 m ρ) c).arrAt 6 cfg0.N) q.1 q.2)
          ((127 : ℝ) : EReal) := by
  show (V15 m ρ c main_v24 : S1x1.Idx → EReal) (ix2 0 0) = _
  rw [v24_eq m ρ c, show W8 m ρ c (Proc.devRef .tc main_v21_1) = (dat0 (V7 m ρ) c).arrAt 6 cfg0.N from W8_arr m ρ c 6]
  exact scale1x1_apply _

theorem entry1_wq (c : Dev nD) (j : Fin 384) (d : Fin 1536) : mat (V15 m ρ c main_v35) j d = wInt (aW2 m c) j d := by
  show (V15 m ρ c main_v35 : S384x1536.Idx → EReal) (ix2 j d) = _
  rw [v35_eq m ρ c, W8_arg3 m ρ c]
  exact wqHost_apply _ j d

theorem entry1_bq (c : Dev nD) (j : Fin 384) :
    mat (V15 m ρ c main_v43) 0 j = bInt (aW2 m c) (ab2 m c) (mat (V15 m ρ c main_v24) 0 0) j := by
  show (V15 m ρ c main_v43 : S1x384.Idx → EReal) (ix2 0 j)
    = bInt (aW2 m c) (ab2 m c) ((V15 m ρ c main_v24 : S1x1.Idx → EReal) (ix2 0 0)) j
  rw [v43_eq m ρ c, v24_eq m ρ c, W8_arg3 m ρ c, W8_arg4 m ρ c, bqHost_apply, scalar_of_1x1]

theorem entry1_sc (c : Dev nD) (j : Fin 384) :
    mat (V15 m ρ c main_v38) 0 j = chScale (aW2 m c) (mat (V15 m ρ c main_v24) 0 0) j := by
  show (V15 m ρ c main_v38 : S1x384.Idx → EReal) (ix2 0 j)
    = chScale (aW2 m c) ((V15 m ρ c main_v24 : S1x1.Idx → EReal) (ix2 0 0)) j
  rw [v38_eq m ρ c, v24_eq m ρ c, W8_arg3 m ρ c, scHost_apply, scalar_of_1x1]

end Cert.KernelIdeal.HostValues

end
-- ==== Proof.KHost23.lean ====
/-
  The host operations between the second and the third kernel region, and after the third, read as values: the third
  region is entered with the second layer's output as the second region left it and with its scale (the largest
  partial maximum over 127); the program's results are the third region's output reshaped to batch by sequence by
  feature, and the scale as a scalar.
-/
import proofs.«131268_j17901423689856_2_alg».proof.Proof.Gen.KernelIdeal.Frame
import proofs.«131268_j17901423689856_2_alg».proof.Proof.Spec
import proofs.«131268_j17901423689856_2_alg».proof.Proof.Consts
import proofs.«131268_j17901423689856_2_alg».proof.Proof.KernelArgs
import proofs.«131268_j17901423689856_2_alg».proof.Proof.MaxLemmas
import Idealize.ShloMosaic.Lib.StableHlo.Run
import Idealize.ShloMosaic.Lib.Pipeline.Value
import Idealize.ShloMosaic.Lib.ValueLayout

noncomputable section

namespace Cert.KernelIdeal.HostValues

open Idealize.ShloMosaic Idealize.ShloMosaic.TcCoe Idealize.SL.Sem Cert.KernelIdeal Cert.KernelIdeal.Gen Cert.QMlp
open Idealize.ShloMosaic.ValueIdx (ix0 ix1 ix2 ix3)
open Idealize.ShloMosaic.StableHlo
variable (m : (ℓ : Loc nD τ sig) → Buf (Elt Ideal) ℓ) (ρ : Dev nD → PrngReg)

/-- The largest entry of a 392×128 array (the maximum folded from -∞ over every index), divided by 127 and laid out
    as a 1×1 matrix, read at its one entry: the supremum over pairs of coordinates, over 127. -/
private theorem scale_of_partials (A : FVec Ideal S392x128 .f32) :
    (shapeCast S1x1 (Host.divf (F := Ideal) (φ := .f32) (Host.reduce FloatOps.maximumf A (constant (F := Ideal) S_ .f32 0xFF800000#32) reducesTo_S392x128_S_d0_1 h_S_) (constant (F := Ideal) S_ .f32 0x42FE0000#32)) shapeCasts_S_S1x1 : S1x1.Idx → EReal) (ix2 0 0)
      = Ideal.div (Finset.univ.sup fun q : Fin 392 × Fin 128 => A (ix2 q.1 q.2)) ((127 : ℝ) : EReal) := by
  -- the 1×1 matrix's entry and the scalar's one index both sit at row-major position 0
  refine (shapeCast_apply _ shapeCasts_S_S1x1 (ix2 0 0) ix0 ?_).trans ?_
  · have h0 : (S_.rowMajor ix0).val = 0 := Shape.rowMajorPi_zero _ _
    rw [h0, Shape.rowMajor_val_two]
    rfl
  · -- a scalar has one index, so every index of the array drops to it: the reduction folds over the whole array
    haveI : Subsingleton S_.Idx := ⟨fun a b => funext fun d => d.elim0⟩
    have hd : ∀ x y : FVec Ideal S_ .f32, Host.divf (F := Ideal) (φ := .f32) x y ix0 = Ideal.div (x ix0) (y ix0) :=
      fun _ _ => rfl
    have hf : (Finset.univ : Finset S392x128.Idx).fold (FloatOps.maximumf (F := Ideal) (φ := .f32)) ⊥ A = Finset.univ.sup A :=
      fold_max_bot_eq_sup _ _
    rw [hd, Host.reduce_eq_fold, Finset.filter_true_of_mem (fun i _ => Subsingleton.elim _ _), ValueIdx.constant_apply,
      ValueIdx.constant_apply, word_127, word_neginf, hf, sup_idx2]

/-- A 50176×384 matrix with its rows split into 256 batches of 196: entry (b, p, d) is row 196·b + p, column d
    (both sit at row-major position (196·b + p)·384 + d). -/
private theorem split_rows (A : FVec Ideal S50176x384 .f32) (i : S256x196x384.Idx) :
    shapeCast S256x196x384 A shapeCasts_S50176x384_S256x196x384 i = mat A (rowOf i) (i 2) := by
  refine shapeCast_apply A shapeCasts_S50176x384_S256x196x384 i (ix2 (rowOf i) (i 2)) ?_
  rw [Shape.rowMajor_val_two, Shape.rowMajor_val_three]
  rfl

/-- A 1×1 matrix as a scalar: the scalar's one index and the matrix's one entry both sit at row-major position 0. -/
private theorem scalar_of_1x1 (A : FVec Ideal S1x1 .f32) (i : S_.Idx) :
    shapeCast S_ A shapeCasts_S1x1_S_ i = mat A 0 0 := by
  refine shapeCast_apply A shapeCasts_S1x1_S_ i (ix2 0 0) ?_
  have h0 : (S_.rowMajor i).val = 0 := Shape.rowMajorPi_zero _ _
  rw [h0, Shape.rowMajor_val_two]
  rfl

theorem entry2_y (c : Dev nD) : V17 m ρ c main_v44_0 = (dat1 (V15 m ρ) c).arrAt 5 cfg1.N := by
  -- no host operation before the third region writes this buffer: it is as the second region left it
  show StableHlo.after hostOps2 (W16 m ρ c) (Proc.devRef .tc main_v44_0) = _
  after_results
  exact W16_arr m ρ c 5

theorem entry2_a (c : Dev nD) :
    mat (V17 m ρ c main_v47) 0 0
      = Ideal.div (Finset.univ.sup fun q : Fin 392 × Fin 128 => mat ((dat1 (V15 m ρ) c).arrAt 6 cfg1.N) q.1 q.2)
          ((127 : ℝ) : EReal) := by
  -- the buffer holds: the partial maxima reduced by the maximum from -∞, divided by 127, reshaped to 1×1
  have e : (V17 m ρ c main_v47 : S1x1.Idx → EReal)
      = shapeCast S1x1 (Host.divf (F := Ideal) (φ := .f32) (Host.reduce FloatOps.maximumf (W16 m ρ c (Proc.devRef .tc main_v44_1))
          (constant (F := Ideal) S_ .f32 0xFF800000#32) reducesTo_S392x128_S_d0_1 h_S_) (constant (F := Ideal) S_ .f32 0x42FE0000#32))
          shapeCasts_S_S1x1 := by
    show StableHlo.after hostOps2 (W16 m ρ c) (Proc.devRef .tc main_v47) = _
    after_results
    rfl
  show (V17 m ρ c main_v47 : S1x1.Idx → EReal) (ix2 0 0) = _
  rw [e, show W16 m ρ c (Proc.devRef .tc main_v44_1) = (dat1 (V15 m ρ) c).arrAt 6 cfg1.N from W16_arr m ρ c 6]
  exact scale_of_partials _

theorem result_out (c : Dev nD) (i : S256x196x384.Idx) :
    (W19 m ρ c (Proc.devRef .tc main_v49) : S256x196x384.Idx → EReal) i
      = mat ((dat2 (V17 m ρ) c).arrAt 2 cfg2.N) (rowOf i) (i 2) := by
  -- the buffer is the third region's output array, reshaped
  have e : (W19 m ρ c (Proc.devRef .tc main_v49) : S256x196x384.Idx → EReal)
      = shapeCast S256x196x384 (W18 m ρ c (Proc.devRef .tc main_v48)) shapeCasts_S50176x384_S256x196x384 := by
    show StableHlo.after hostOps3 (W18 m ρ c) (Proc.devRef .tc main_v49) = _
    after_results
    rfl
  rw [e, show W18 m ρ c (Proc.devRef .tc main_v48) = (dat2 (V17 m ρ) c).arrAt 2 cfg2.N from W18_arr m ρ c 2]
  exact split_rows _ i

theorem result_scale (c : Dev nD) (i : S_.Idx) :
    (W19 m ρ c (Proc.devRef .tc main_v50) : S_.Idx → EReal) i = mat ((dat2 (V17 m ρ) c).arrAt 1 cfg2.N) 0 0 := by
  -- the buffer is the 1×1 scale the third region was given (and only reads), reshaped to a scalar
  have e : (W19 m ρ c (Proc.devRef .tc main_v50) : S_.Idx → EReal)
      = shapeCast S_ (W18 m ρ c (Proc.devRef .tc main_v47)) shapeCasts_S1x1_S_ := by
    show StableHlo.after hostOps3 (W18 m ρ c) (Proc.devRef .tc main_v50) = _
    after_results
    rfl
  rw [e, show W18 m ρ c (Proc.devRef .tc main_v47) = (dat2 (V17 m ρ) c).arrAt 1 cfg2.N from W18_arr m ρ c 1]
  exact scalar_of_1x1 _ i

end Cert.KernelIdeal.HostValues

end
-- ==== Proof.KernelValue.lean ====
/-
  The idealized kernel program's two results as the specification's network on its argument arrays.

  The chain: the first region is entered with the activations as 50176 rows, the input scale, and the first layer's
  integer weights, integer bias and channel scales, so what it leaves is the hidden layer and, tile by tile, the
  hidden layer's largest magnitudes; their supremum over 127 is the hidden layer's scale, with which the second region
  is entered, so what it leaves is the second layer's output (fed the grid values themselves) and its tiles' largest
  magnitudes; their supremum over 127 is the output's scale, with which the third region re-quantizes the output; the
  last host operations reshape it to batch by sequence by feature and hand the scale back as a scalar.
-/
import proofs.«131268_j17901423689856_2_alg».proof.Proof.RunValues
import proofs.«131268_j17901423689856_2_alg».proof.Proof.Region0
import proofs.«131268_j17901423689856_2_alg».proof.Proof.Region1
import proofs.«131268_j17901423689856_2_alg».proof.Proof.Region2
import proofs.«131268_j17901423689856_2_alg».proof.Proof.KHost0
import proofs.«131268_j17901423689856_2_alg».proof.Proof.KHost1
import proofs.«131268_j17901423689856_2_alg».proof.Proof.KHost23
import proofs.«131268_j17901423689856_2_alg».proof.Proof.MaxLemmas

noncomputable section

namespace Cert.KernelIdeal.KernelValue

open Idealize.ShloMosaic Idealize.ShloMosaic.TcCoe Idealize.SL.Sem Cert.KernelIdeal Cert.KernelIdeal.Gen Cert.QMlp
open Cert.KernelIdeal.HostValues Cert.KernelIdeal.Regions
open Idealize.ShloMosaic.ValueIdx (ix0 ix1 ix2 ix3)

variable (m : (ℓ : Loc nD τ sig) → Buf (Elt Ideal) ℓ) (ρ : Dev nD → PrngReg)

/-- The hidden layer on the program's arguments. -/
abbrev hK (c : Dev nD) : Fin 50176 → Fin 1536 → EReal := Cert.QMlp.hidden (aX m c) (aW1 m c) (ab1 m c) (aS m c)

/-- The second layer's output on the program's arguments, fed the grid values themselves. -/
abbrev yK (c : Dev nD) : Fin 50176 → Fin 384 → EReal := netY (aX m c) (aW1 m c) (ab1 m c) (aW2 m c) (ab2 m c) (aS m c)

/-- What the first region computes from the arrays it is entered with is the hidden layer. -/
theorem hidden_eq (c : Dev nD) : H0 (V7 m ρ) c = hK m c := by
  have hx : (fun (r : Fin 50176) (d : Fin 384) => Ideal.div (mat (V7 m ρ c main_v0) r d) (mat (V7 m ρ c main_v1) 0 0))
      = fun r d => Ideal.div (aX m c r d) (aS m c) :=
    funext fun r => funext fun d => by rw [entry0_x, entry0_s]
  have hw : mat (V7 m ρ c main_v12) = wInt (aW1 m c) := funext fun j => funext fun d => entry0_wq m ρ c j d
  have hb : (fun j : Fin 1536 => mat (V7 m ρ c main_v20) 0 j) = bInt (aW1 m c) (ab1 m c) (aS m c) :=
    funext fun j => entry0_bq m ρ c j
  have hs : (fun j : Fin 1536 => mat (V7 m ρ c main_v15) 0 j) = chScale (aW1 m c) (aS m c) :=
    funext fun j => entry0_sc m ρ c j
  funext r j
  show H0 (V7 m ρ) c r j = Cert.QMlp.hidden (aX m c) (aW1 m c) (ab1 m c) (aS m c) r j
  unfold H0 Cert.QMlp.hidden qlin
  rw [hx, hw, hb, hs]

/-- The second region is entered with the hidden layer's scale. -/
theorem scale1_eq (c : Dev nD) : mat (V15 m ρ c main_v24) 0 0 = actScale (hK m c) := by
  rw [entry1_a]
  unfold actScale
  have h := sup_tiles (H0 (V7 m ρ) c) (fun p l => mat ((dat0 (F := Ideal) (V7 m ρ) c).arrAt 6 cfg0.N) p l)
    (fun p l => region0_partials (V7 m ρ) c p l)
  rw [h, hidden_eq]

/-- The second region is entered with the hidden layer. -/
theorem hidden_at_entry1 (c : Dev nD) (r : Fin 50176) (d : Fin 1536) : mat (V15 m ρ c main_v21_0) r d = hK m c r d := by
  rw [entry1_h]
  show (dat0 (F := Ideal) (V7 m ρ) c).arrAt 5 cfg0.N (ix2 r d) = _
  rw [region0_hidden, hidden_eq]

/-- What the second region computes from the arrays it is entered with is the second layer's output. -/
theorem y_eq (c : Dev nD) : Y1 (V15 m ρ) c = yK m c := by
  have hu : (fun (r : Fin 50176) (d : Fin 1536) => quant (Ideal.div (mat (V15 m ρ c main_v21_0) r d) (mat (V15 m ρ c main_v24) 0 0)))
      = toGrid (hK m c) (actScale (hK m c)) :=
    funext fun r => funext fun d => by rw [hidden_at_entry1, scale1_eq]; rfl
  have hw : mat (V15 m ρ c main_v35) = wInt (aW2 m c) := funext fun j => funext fun d => entry1_wq m ρ c j d
  have hb : (fun j : Fin 384 => mat (V15 m ρ c main_v43) 0 j) = bInt (aW2 m c) (ab2 m c) (actScale (hK m c)) :=
    funext fun j => by rw [entry1_bq, scale1_eq]
  have hs : (fun j : Fin 384 => mat (V15 m ρ c main_v38) 0 j) = chScale (aW2 m c) (actScale (hK m c)) :=
    funext fun j => by rw [entry1_sc, scale1_eq]
  unfold Y1
  show _ = netY (aX m c) (aW1 m c) (ab1 m c) (aW2 m c) (ab2 m c) (aS m c)
  unfold netY qlin
  rw [hu, hw, hb, hs]

/-- The third region is entered with the output's scale. -/
theorem scale2_eq (c : Dev nD) : mat (V17 m ρ c main_v47) 0 0 = actScale (yK m c) := by
  rw [entry2_a]
  unfold actScale
  have h := sup_tiles (Y1 (V15 m ρ) c) (fun p l => mat ((dat1 (F := Ideal) (V15 m ρ) c).arrAt 6 cfg1.N) p l)
    (fun p l => region1_partials (V15 m ρ) c p l)
  rw [h, y_eq]

/-- The third region is entered with the second layer's output. -/
theorem y_at_entry2 (c : Dev nD) (r : Fin 50176) (j : Fin 384) : mat (V17 m ρ c main_v44_0) r j = yK m c r j := by
  rw [entry2_y]
  show (dat1 (F := Ideal) (V15 m ρ) c).arrAt 5 cfg1.N (ix2 r j) = _
  rw [region1_y, y_eq]

/-- What the third region leaves: the output re-quantized at its scale. -/
theorem requant_at_exit2 (c : Dev nD) (r : Fin 50176) (j : Fin 384) :
    (dat2 (F := Ideal) (V17 m ρ) c).arrAt 2 cfg2.N (ix2 r j) = requant (yK m c) (actScale (yK m c)) r j := by
  rw [region2_out, y_at_entry2, scale2_eq]
  rfl

/-- The first result: the re-quantized output at row `batch · 196 + position`. -/
theorem out_eq (c : Dev nD) (i : S256x196x384.Idx) :
    (W19 m ρ c (Proc.devRef .tc main_v49) : S256x196x384.Idx → EReal) i
      = requant (yK m c) (actScale (yK m c)) (rowOf i) (i 2) := by
  rw [result_out]
  exact requant_at_exit2 m ρ c (rowOf i) (i 2)

/-- The second result: the output's scale. -/
theorem scale_eq (c : Dev nD) (i : S_.Idx) :
    (W19 m ρ c (Proc.devRef .tc main_v50) : S_.Idx → EReal) i = actScale (yK m c) := by
  rw [result_scale, region2_scale_kept, scale2_eq]

/-- The run of the idealized kernel program with both results as functions of the arguments. -/
theorem run : θ_run defs (onTc (τ := τ) (main (F := Ideal))) ⟨m, fun _ => 0, ρ⟩ (fun r => ∀ c : Dev nD,
      r.2.mem ((c.tc : Thread nD τ).loc main_v49) = (fun i : S256x196x384.Idx => requant (yK m c) (actScale (yK m c)) (rowOf i) (i 2))
      ∧ r.2.mem ((c.tc : Thread nD τ).loc main_v50) = (fun _ : S_.Idx => actScale (yK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨(h c).1.trans (funext (out_eq m ρ c)), (h c).2.1.trans (funext (scale_eq m ρ c)), (h c).2.2⟩)
    (Cert.KernelIdeal.RunValues.run_values (F := Ideal) m ρ)

end Cert.KernelIdeal.KernelValue

end
-- ==== Proof.RefValues.lean ====
/-
  The reference program read as values: its two results, index by index, are the specification's network on the
  argument arrays — the re-quantized second layer at row `batch · 196 + position`, and the second layer's scale —
  with the second layer fed as the reference feeds it (the grid value times the scale, over the scale again).
-/
import proofs.«131268_j17901423689856_2_alg».proof.Proof.Gen.ReferenceIdeal.Read
import proofs.«131268_j17901423689856_2_alg».proof.Proof.Spec
import proofs.«131268_j17901423689856_2_alg».proof.Proof.Consts
import proofs.«131268_j17901423689856_2_alg».proof.Proof.MaxLemmas

noncomputable section

namespace Cert.ReferenceIdeal.RefValues

open Idealize.ShloMosaic Idealize.ShloMosaic.TcCoe Idealize.SL.Sem Cert.ReferenceIdeal Cert.ReferenceIdeal.Gen Cert.QMlp
open Idealize.ShloMosaic.ValueIdx (ix0 ix1 ix2 ix3)
open Cert.ReferenceIdeal.Read

/-! ## Maximum-reductions read at an index

Every stage below is read in coordinates: a rank-1 index is `ix1 a`, a matrix index `ix2 a d`, an index of a
batch-by-sequence-by-feature array `ix3 b p j`, so that a coordinate of an index computes by itself. -/

/-- Over the rank-1 index `a`, the matrix index whose coordinate on axis 1 is `d` is `(a, d)`. -/
theorem lift_row {n k : ℕ} (h : (⟨2, ![n, k]⟩ : Shape).Reduces [1] ⟨1, ![n]⟩) (a : Fin n) (d : Fin k) :
    h.lift (ix1 a) d = ix2 a d := by
  funext c
  apply Fin.ext
  show h.liftVal (ix1 a) d.val c = _
  unfold Shape.Reduces.liftVal
  match c with
  | ⟨0, _⟩ => simp
  | ⟨1, _⟩ => simp

/-- A maximum-reduction of a matrix along axis 1, started at `-∞`, is at `a` the supremum of row `a`: `max` commutes
    and associates, so the reduction is a fold over the row's coordinates, and a fold of `max` from `-∞` is the
    supremum. -/
theorem rowMax_read {n k : ℕ} (w : (⟨2, ![n, k]⟩ : Shape).Idx → EReal) (init : S_.Idx → EReal)
    (h' : (⟨2, ![n, k]⟩ : Shape).ReducesTo [1] ⟨1, ![n]⟩) (h : (⟨2, ![n, k]⟩ : Shape).Reduces [1] ⟨1, ![n]⟩)
    (hu : 0 < S_.numel) (hinit : ∀ i, init i = ⊥) (a : Fin n) :
    Host.reduce (FloatOps.maximumf (F := Ideal) (φ := .f32)) w init h' hu (ix1 a)
      = Finset.univ.sup fun d : Fin k => w (ix2 a d) := by
  rw [Host.reduce_eq_fold_single _ w init h' h hu (ix1 a), hinit]
  show Finset.fold max ⊥ (w ∘ h.lift (ix1 a)) (Finset.univ : Finset (Fin k)) = _
  refine (fold_max_bot_eq_sup _ _).trans (congrArg _ (funext fun d => ?_))
  exact congrArg w (lift_row h a d)

/-- A maximum-reduction of a whole array to one number, started at `-∞`, is the supremum over the array's index set:
    the result has a single index, so every index of the array drops to it. -/
theorem totalMax_read {n : ℕ} (w : (⟨3, ![256, 196, n]⟩ : Shape).Idx → EReal) (init : S_.Idx → EReal)
    (h' : (⟨3, ![256, 196, n]⟩ : Shape).ReducesTo [0, 1, 2] S_) (hu : 0 < S_.numel) (hinit : ∀ i, init i = ⊥)
    (j : S_.Idx) :
    Host.reduce (FloatOps.maximumf (F := Ideal) (φ := .f32)) w init h' hu j = Finset.univ.sup w := by
  haveI : Subsingleton S_.Idx := ⟨fun a b => funext fun d => d.elim0⟩
  rw [Host.reduce_eq_fold, hinit]
  have hs : (Finset.univ.filter fun i => h'.drop i = j) = Finset.univ :=
    Finset.filter_true_of_mem fun i _ => Subsingleton.elim _ _
  rw [hs]
  exact fold_max_bot_eq_sup _ _

/-! ## Rows of the activation matrix -/

/-- Row `b · 196 + p` of the activation matrix: batch `b`, position `p`. -/
def row (b : Fin 256) (p : Fin 196) : Fin 50176 :=
  ⟨b.val * 196 + p.val, by have := b.isLt; have := p.isLt; omega⟩

/-- The row of the index `(b, p, j)`, whatever the feature `j`. -/
theorem rowOf_ix3 {n : ℕ} (b : Fin 256) (p : Fin 196) (j : Fin n) : rowOf (ix3 b p j) = row b p := rfl

/-- Row `r` is the row of batch `r / 196`, position `r % 196`. -/
theorem row_div_mod (r : Fin 50176) (h1 : r.val / 196 < 256) (h2 : r.val % 196 < 196) :
    row ⟨r.val / 196, h1⟩ ⟨r.val % 196, h2⟩ = r :=
  Fin.ext (by show r.val / 196 * 196 + r.val % 196 = r.val; omega)

variable (x0 : S256x196x384.Idx → EReal) (x1 : S1536x384.Idx → EReal) (x2 : S1536.Idx → EReal)
  (x3 : S384x1536.Idx → EReal) (x4 : S384.Idx → EReal) (x5 : S1.Idx → EReal)

/-- The second layer's output on the reference's road. -/
abbrev yRef : Fin 50176 → Fin 384 → EReal := netYref (rows3 x0) (mat x1) (vec x2) (mat x3) (vec x4) (vec x5 0)

/-- The hidden layer of the network on the argument arrays. -/
abbrev hid : Fin 50176 → Fin 1536 → EReal := Cert.QMlp.hidden (rows3 x0) (mat x1) (vec x2) (vec x5 0)

/-- The hidden layer's scale: its largest magnitude over 127. -/
abbrev hidScale : EReal := actScale (hid x0 x1 x2 x5)

/-- The input read by rows, at row `(b, p)`, is the input at `(b, p, ·)`: `(b · 196 + p) / 196 = b` and
    `(b · 196 + p) % 196 = p` because `p < 196`. -/
theorem rows3_row (b : Fin 256) (p : Fin 196) (d : Fin 384) : rows3 x0 (row b p) d = x0 (ix3 b p d) := by
  unfold rows3 row
  refine congrArg x0 (funext fun c => ?_)
  match c with
  | ⟨0, _⟩ => exact Fin.ext (by show (b.val * 196 + p.val) / 196 = b.val; have := p.isLt; omega)
  | ⟨1, _⟩ => exact Fin.ext (by show (b.val * 196 + p.val) % 196 = p.val; have := p.isLt; omega)
  | ⟨2, _⟩ => rfl

/-! ## The first layer's parameters

`%0 … %8`: the magnitudes of the first weight matrix, their row maxima, the row scales, the integer weights. -/

/-- `%1`: the largest magnitude of row `a` of the first weight matrix. -/
theorem rowMax1 (a : Fin 1536) : val_main_v1 (F := Ideal) x1 (ix1 a) = rowAbsMax (mat x1 a) := by
  unfold val_main_v1
  generalize hy : val_main_v0 (F := Ideal) x1 = y
  rw [rowMax_read y _ _ (by decide) _ (fun i => by rw [val_main_cst_apply, Ideal.ofBits_def, word_neginf]) a]
  subst hy
  rfl

/-- `%3`: the row's scale, its largest magnitude over 127. -/
theorem wScale1 (a : Fin 1536) : val_main_v3 (F := Ideal) x1 (ix1 a) = wScale (mat x1 a) := by
  rw [val_main_v3_apply, rowMax1, val_main_v2_apply, val_main_cst_0_apply, Ideal.hostDivf_def, Ideal.ofBits_def, word_127]
  rfl

/-- `%8`: the integer weight — the entry over its row's scale (the scale broadcast along the row), rounded to even and
    clipped between the two converted integers -128 and 127. -/
theorem wInt1 (a : Fin 1536) (d : Fin 384) : val_main_v8 (F := Ideal) x1 (ix2 a d) = wInt (mat x1) a d := by
  have e : idx_main_v4 (idx_main_v5 (ix2 a d)) = ix1 a := funext fun c => Fin.ext (by match c with | ⟨0, _⟩ => rfl)
  rw [val_main_v8_apply, val_main_call1_v4_apply, val_main_call1_v3_apply, val_main_c_1_apply, val_main_call1_v2_apply,
    val_main_call1_v1_apply, val_main_call1_v0_apply, val_main_c_apply, val_main_v7_apply, val_main_v6_apply,
    val_main_v5_apply, val_main_v4_apply, e, wScale1]
  simp only [int_127, int_neg128, Ideal.minimumf_def, Ideal.maximumf_def, Ideal.hostUnary_roundeven_def, Ideal.hostDivf_def]
  rfl

/-! ## The first layer

`%9 … %25`: the input over its scale, the channel scales, the integer bias, the integer product, the bias added, the
result scaled back, and the rectifier. -/

/-- `%11`: the input over the activation scale (the one-element scale broadcast to the whole array). -/
theorem xOverS (b : Fin 256) (p : Fin 196) (d : Fin 384) :
    val_main_v11 (F := Ideal) x0 x5 (ix3 b p d) = Ideal.div (rows3 x0 (row b p) d) (vec x5 0) := by
  have e : idx_main_v9 (idx_main_v10 (ix3 b p d)) = ix1 0 := funext fun c => Fin.ext (by match c with | ⟨0, _⟩ => rfl)
  rw [val_main_v11_apply, val_main_v10_apply, val_main_v9_apply, e, Ideal.hostDivf_def, rows3_row]

/-- `%13`: channel `a`'s scale, its weight scale times the activation scale (the copy the bias is divided by). -/
theorem chScale1b (a : Fin 1536) : val_main_v13 (F := Ideal) x1 x5 (ix1 a) = chScale (mat x1) (vec x5 0) a := by
  have e : idx_main_v12 (ix1 a) = ix1 0 := funext fun c => Fin.ext (by match c with | ⟨0, _⟩ => rfl)
  rw [val_main_v13_apply, wScale1, val_main_v12_apply, e, Ideal.mulf_def]
  rfl

/-- `%21`: the same channel scale, the copy the layer's result is multiplied by. -/
theorem chScale1 (a : Fin 1536) : val_main_v21 (F := Ideal) x1 x5 (ix1 a) = chScale (mat x1) (vec x5 0) a := by
  have e : idx_main_v20 (ix1 a) = ix1 0 := funext fun c => Fin.ext (by match c with | ⟨0, _⟩ => rfl)
  rw [val_main_v21_apply, wScale1, val_main_v20_apply, e, Ideal.mulf_def]
  rfl

/-- `%15`: the integer bias, the bias over the channel scale, rounded to even. -/
theorem bInt1 (a : Fin 1536) : val_main_v15 (F := Ideal) x1 x2 x5 (ix1 a) = bInt (mat x1) (vec x2) (vec x5 0) a := by
  rw [val_main_v15_apply, val_main_v14_apply, chScale1b, Ideal.hostUnary_roundeven_def, Ideal.hostDivf_def]
  rfl

/-- `%16`: the contraction over the 384 input features of the scaled input's row `(b, p)` with the integer weights of
    channel `j`. -/
theorem dot1 (b : Fin 256) (p : Fin 196) (j : Fin 1536) :
    val_main_v16 (F := Ideal) x0 x1 x5 (ix3 b p j)
      = ∑ d : Fin 384, Ideal.div (rows3 x0 (row b p) d) (vec x5 0) * wInt (mat x1) j d := by
  rw [val_main_v16_apply]
  refine Finset.sum_congr rfl fun d _ => ?_
  have el : lidx_main_v16 (ix3 b p j) d = ix3 b p d :=
    funext fun c => Fin.ext (by match c with | ⟨0, _⟩ => rfl | ⟨1, _⟩ => rfl | ⟨2, _⟩ => rfl)
  have er : ridx_main_v16 (ix3 b p j) d = ix2 j d :=
    funext fun c => Fin.ext (by match c with | ⟨0, _⟩ => rfl | ⟨1, _⟩ => rfl)
  rw [el, er, xOverS, wInt1]

/-- `%24`: the first quantized linear layer — the product plus the integer bias of channel `j`, times the channel's
    scale (bias and scale broadcast along the batch and sequence axes). -/
theorem lin1 (b : Fin 256) (p : Fin 196) (j : Fin 1536) :
    val_main_v24 (F := Ideal) x0 x1 x2 x5 (ix3 b p j)
      = qlin (fun r d => Ideal.div (rows3 x0 r d) (vec x5 0)) (mat x1) (vec x2) (vec x5 0) (row b p) j := by
  have e18 : idx_main_v17 (idx_main_v18 (ix3 b p j)) = ix1 j := funext fun c => Fin.ext (by match c with | ⟨0, _⟩ => rfl)
  have e23 : idx_main_v22 (idx_main_v23 (ix3 b p j)) = ix1 j := funext fun c => Fin.ext (by match c with | ⟨0, _⟩ => rfl)
  rw [val_main_v24_apply, val_main_v19_apply, dot1, val_main_v18_apply, val_main_v17_apply, e18, bInt1, val_main_v23_apply,
    val_main_v22_apply, e23, chScale1, Ideal.mulf_def, Ideal.addf_def]
  rfl

/-- `%25`: the hidden layer, the first layer's result rectified (the larger of it and the zero word). -/
theorem hidden_eq (b : Fin 256) (p : Fin 196) (j : Fin 1536) :
    val_main_v25 (F := Ideal) x0 x1 x2 x5 (ix3 b p j) = hid x0 x1 x2 x5 (row b p) j := by
  rw [val_main_v25_apply, lin1, val_main_call3_v0_apply, val_main_call3_cst_apply, Ideal.maximumf_def, Ideal.ofBits_def, word_zero]
  rfl

/-! ## The hidden layer re-quantized

`%26 … %34`, `%44`, `%45`: the hidden layer's largest magnitude and scale, its values on the integer grid, and what the
reference feeds its second layer — the grid value times the scale, over the scale again. -/

/-- `%27`: the largest magnitude of the hidden layer — the supremum over the array's index set, taken over
    (row, feature) pairs. -/
theorem hidden_absMax (i : S_.Idx) : val_main_v27 (F := Ideal) x0 x1 x2 x5 i = absMax (hid x0 x1 x2 x5) := by
  unfold val_main_v27
  generalize hy : val_main_v26 (F := Ideal) x0 x1 x2 x5 = y
  rw [totalMax_read y _ _ _ (fun i => by rw [val_main_cst_2_apply, Ideal.ofBits_def, word_neginf]) i, sup_idx3_rows]
  subst hy
  unfold absMax
  refine congrArg _ (funext fun q => ?_)
  rw [val_main_v26_apply, hidden_eq, Ideal.hostAbsf_def, Ideal.absf_def, row_div_mod]
  rfl

/-- `%28`: the hidden layer's scale. -/
theorem hidden_scale (i : S_.Idx) : val_main_v28 (F := Ideal) x0 x1 x2 x5 i = hidScale x0 x1 x2 x5 := by
  rw [val_main_v28_apply, hidden_absMax, val_main_cst_3_apply, Ideal.hostDivf_def, Ideal.ofBits_def, word_127]
  rfl

/-- `%32`: the hidden layer on the integer grid of its scale — over the scale, rounded to even, clipped. -/
theorem hidden_grid (b : Fin 256) (p : Fin 196) (j : Fin 1536) :
    val_main_v32 (F := Ideal) x0 x1 x2 x5 (ix3 b p j) = toGrid (hid x0 x1 x2 x5) (hidScale x0 x1 x2 x5) (row b p) j := by
  rw [val_main_v32_apply, val_main_call5_v4_apply, val_main_call5_v3_apply, val_main_c_5_apply, val_main_call5_v2_apply,
    val_main_call5_v1_apply, val_main_call5_v0_apply, val_main_c_4_apply, val_main_v31_apply, val_main_v30_apply, hidden_eq,
    val_main_v29_apply, hidden_scale]
  simp only [int_127, int_neg128, Ideal.minimumf_def, Ideal.maximumf_def, Ideal.hostUnary_roundeven_def, Ideal.hostDivf_def]
  rfl

/-- `%45`: what the second layer is fed — the grid value times the scale (`%34`), over the scale again. -/
theorem hidden_fed (b : Fin 256) (p : Fin 196) (j : Fin 1536) :
    val_main_v45 (F := Ideal) x0 x1 x2 x5 (ix3 b p j)
      = toGridRef (hid x0 x1 x2 x5) (hidScale x0 x1 x2 x5) (row b p) j := by
  rw [val_main_v45_apply, val_main_v34_apply, hidden_grid, val_main_v33_apply, hidden_scale, val_main_v44_apply,
    hidden_scale, Ideal.hostDivf_def, Ideal.mulf_def]
  rfl

/-! ## The second layer

`%35 … %43` its parameters, as for the first layer; `%46 … %58` the layer on what it is fed, at the hidden layer's
scale. -/

/-- `%36`: the largest magnitude of row `a` of the second weight matrix. -/
theorem rowMax2 (a : Fin 384) : val_main_v36 (F := Ideal) x3 (ix1 a) = rowAbsMax (mat x3 a) := by
  unfold val_main_v36
  generalize hy : val_main_v35 (F := Ideal) x3 = y
  rw [rowMax_read y _ _ (by decide) _ (fun i => by rw [val_main_cst_6_apply, Ideal.ofBits_def, word_neginf]) a]
  subst hy
  rfl

/-- `%38`: the row's scale. -/
theorem wScale2 (a : Fin 384) : val_main_v38 (F := Ideal) x3 (ix1 a) = wScale (mat x3 a) := by
  rw [val_main_v38_apply, rowMax2, val_main_v37_apply, val_main_cst_7_apply, Ideal.hostDivf_def, Ideal.ofBits_def, word_127]
  rfl

/-- `%43`: the second layer's integer weights. -/
theorem wInt2 (a : Fin 384) (d : Fin 1536) : val_main_v43 (F := Ideal) x3 (ix2 a d) = wInt (mat x3) a d := by
  have e : idx_main_v39 (idx_main_v40 (ix2 a d)) = ix1 a := funext fun c => Fin.ext (by match c with | ⟨0, _⟩ => rfl)
  rw [val_main_v43_apply, val_main_call7_v4_apply, val_main_call7_v3_apply, val_main_c_9_apply, val_main_call7_v2_apply,
    val_main_call7_v1_apply, val_main_call7_v0_apply, val_main_c_8_apply, val_main_v42_apply, val_main_v41_apply,
    val_main_v40_apply, val_main_v39_apply, e, wScale2]
  simp only [int_127, int_neg128, Ideal.minimumf_def, Ideal.maximumf_def, Ideal.hostUnary_roundeven_def, Ideal.hostDivf_def]
  rfl

/-- `%47`: channel `a`'s scale, its weight scale times the hidden layer's scale (the copy the bias is divided by). -/
theorem chScale2b (a : Fin 384) :
    val_main_v47 (F := Ideal) x0 x1 x2 x3 x5 (ix1 a) = chScale (mat x3) (hidScale x0 x1 x2 x5) a := by
  rw [val_main_v47_apply, wScale2, val_main_v46_apply, hidden_scale, Ideal.mulf_def]
  rfl

/-- `%55`: the same channel scale, the copy the layer's result is multiplied by. -/
theorem chScale2 (a : Fin 384) :
    val_main_v55 (F := Ideal) x0 x1 x2 x3 x5 (ix1 a) = chScale (mat x3) (hidScale x0 x1 x2 x5) a := by
  rw [val_main_v55_apply, wScale2, val_main_v54_apply, hidden_scale, Ideal.mulf_def]
  rfl

/-- `%49`: the second layer's integer bias. -/
theorem bInt2 (a : Fin 384) :
    val_main_v49 (F := Ideal) x0 x1 x2 x3 x4 x5 (ix1 a) = bInt (mat x3) (vec x4) (hidScale x0 x1 x2 x5) a := by
  rw [val_main_v49_apply, val_main_v48_apply, chScale2b, Ideal.hostUnary_roundeven_def, Ideal.hostDivf_def]
  rfl

/-- `%50`: the contraction over the 1536 hidden features of what row `(b, p)` is fed with the integer weights of
    channel `j`. -/
theorem dot2 (b : Fin 256) (p : Fin 196) (j : Fin 384) :
    val_main_v50 (F := Ideal) x0 x1 x2 x3 x5 (ix3 b p j)
      = ∑ k : Fin 1536, toGridRef (hid x0 x1 x2 x5) (hidScale x0 x1 x2 x5) (row b p) k * wInt (mat x3) j k := by
  rw [val_main_v50_apply]
  refine Finset.sum_congr rfl fun k _ => ?_
  have el : lidx_main_v50 (ix3 b p j) k = ix3 b p k :=
    funext fun c => Fin.ext (by match c with | ⟨0, _⟩ => rfl | ⟨1, _⟩ => rfl | ⟨2, _⟩ => rfl)
  have er : ridx_main_v50 (ix3 b p j) k = ix2 j k :=
    funext fun c => Fin.ext (by match c with | ⟨0, _⟩ => rfl | ⟨1, _⟩ => rfl)
  rw [el, er, hidden_fed, wInt2]

/-- `%58`: the second layer's output — the product plus the integer bias, times the channel scale. -/
theorem y_eq (b : Fin 256) (p : Fin 196) (j : Fin 384) :
    val_main_v58 (F := Ideal) x0 x1 x2 x3 x4 x5 (ix3 b p j) = yRef x0 x1 x2 x3 x4 x5 (row b p) j := by
  have e52 : idx_main_v51 (idx_main_v52 (ix3 b p j)) = ix1 j := funext fun c => Fin.ext (by match c with | ⟨0, _⟩ => rfl)
  have e57 : idx_main_v56 (idx_main_v57 (ix3 b p j)) = ix1 j := funext fun c => Fin.ext (by match c with | ⟨0, _⟩ => rfl)
  rw [val_main_v58_apply, val_main_v53_apply, dot2, val_main_v52_apply, val_main_v51_apply, e52, bInt2, val_main_v57_apply,
    val_main_v56_apply, e57, chScale2, Ideal.mulf_def, Ideal.addf_def]
  rfl

/-! ## The output re-quantized

`%59 … %67`: the output's largest magnitude and scale, and the output on the grid of that scale times the scale. -/

/-- `%60`: the largest magnitude of the second layer's output. -/
theorem y_absMax (i : S_.Idx) : val_main_v60 (F := Ideal) x0 x1 x2 x3 x4 x5 i = absMax (yRef x0 x1 x2 x3 x4 x5) := by
  unfold val_main_v60
  generalize hy : val_main_v59 (F := Ideal) x0 x1 x2 x3 x4 x5 = y
  rw [totalMax_read y _ _ _ (fun i => by rw [val_main_cst_10_apply, Ideal.ofBits_def, word_neginf]) i, sup_idx3_rows]
  subst hy
  unfold absMax
  refine congrArg _ (funext fun q => ?_)
  rw [val_main_v59_apply, y_eq, Ideal.hostAbsf_def, Ideal.absf_def, row_div_mod]
  rfl

/-- `%61`: the output's scale. -/
theorem y_scale (i : S_.Idx) :
    val_main_v61 (F := Ideal) x0 x1 x2 x3 x4 x5 i = actScale (yRef x0 x1 x2 x3 x4 x5) := by
  rw [val_main_v61_apply, y_absMax, val_main_cst_11_apply, Ideal.hostDivf_def, Ideal.ofBits_def, word_127]
  rfl

/-- `%67`: the output over its scale, rounded to even, clipped, and multiplied by the scale again. -/
theorem out_eq (b : Fin 256) (p : Fin 196) (j : Fin 384) :
    val_main_v67 (F := Ideal) x0 x1 x2 x3 x4 x5 (ix3 b p j)
      = requant (yRef x0 x1 x2 x3 x4 x5) (actScale (yRef x0 x1 x2 x3 x4 x5)) (row b p) j := by
  rw [val_main_v67_apply, val_main_v65_apply, val_main_call10_v4_apply, val_main_call10_v3_apply, val_main_c_13_apply,
    val_main_call10_v2_apply, val_main_call10_v1_apply, val_main_call10_v0_apply, val_main_c_12_apply, val_main_v64_apply,
    val_main_v63_apply, y_eq, val_main_v62_apply, y_scale, val_main_v66_apply, y_scale]
  simp only [int_127, int_neg128, Ideal.minimumf_def, Ideal.maximumf_def, Ideal.hostUnary_roundeven_def, Ideal.hostDivf_def,
    Ideal.mulf_def]
  rfl

/-! ## The two results -/

theorem ref_out (i : S256x196x384.Idx) :
    Cert.ReferenceIdeal.Read.val_main_v67 (F := Ideal) x0 x1 x2 x3 x4 x5 i
      = requant (yRef x0 x1 x2 x3 x4 x5) (actScale (yRef x0 x1 x2 x3 x4 x5)) (rowOf i) (i 2) := by
  obtain ⟨b, p, j, rfl⟩ : ∃ (b : Fin 256) (p : Fin 196) (j : Fin 384), i = ix3 b p j :=
    ⟨i 0, i 1, i 2, ValueIdx.eq_ix3 i⟩
  exact out_eq x0 x1 x2 x3 x4 x5 b p j

theorem ref_scale (i : S_.Idx) :
    Cert.ReferenceIdeal.Read.val_main_v61 (F := Ideal) x0 x1 x2 x3 x4 x5 i = actScale (yRef x0 x1 x2 x3 x4 x5) :=
  y_scale x0 x1 x2 x3 x4 x5 i

end Cert.ReferenceIdeal.RefValues

end
-- ==== Proof.lean ====
/-
  The certificate of a quantized two-layer perceptron computed by three kernel regions against its plain reference.

  Both programs scale every weight row to the signed 8-bit grid by its largest magnitude, divide the activations by
  their scale, take the integer product, add a rounded bias and scale back; the hidden layer is rectified and put on
  the 8-bit grid of ITS largest magnitude, and so is the output.  The kernel computes each layer in row tiles of 1024
  and gathers each layer's largest magnitude as the maximum of per-tile maxima; the reference takes one maximum.  On
  the extended reals these agree (a supremum of suprema), the matrix unit's product onto a zero accumulator is the
  host's contraction, and a change of float format is the identity.

  The one place the two differ in substance: the reference multiplies the hidden layer's grid values by the scale and
  its second layer divides by the scale again, where the kernel feeds the grid values themselves.  The specification's
  law `secondLayer_eq` joins them with no assumption on the data: for a nonzero real scale the quotient cancels, for
  an infinite scale every grid value is zero, and for a zero scale the second layer's channel scales vanish, so its
  output is zero whatever it was fed.  Hence the precondition is never opened.

  The three frames are the generated ones (the reference's is its generated run with the results dropped); the
  idealization rewrote nothing, so `preserves` is trivial.
-/
import proofs.«131268_j17901423689856_2_alg».proof.Defs
import proofs.«131268_j17901423689856_2_alg».proof.Proof.Gen.Kernel
import proofs.«131268_j17901423689856_2_alg».proof.Proof.Gen.Kernel.Skeleton
import proofs.«131268_j17901423689856_2_alg».proof.Proof.Gen.Kernel.Launch
import proofs.«131268_j17901423689856_2_alg».proof.Proof.Gen.Kernel.Points
import proofs.«131268_j17901423689856_2_alg».proof.Proof.Gen.Kernel.Frame
import proofs.«131268_j17901423689856_2_alg».proof.Proof.Gen.KernelIdeal
import proofs.«131268_j17901423689856_2_alg».proof.Proof.Gen.KernelIdeal.Skeleton
import proofs.«131268_j17901423689856_2_alg».proof.Proof.Gen.KernelIdeal.Launch
import proofs.«131268_j17901423689856_2_alg».proof.Proof.Gen.KernelIdeal.Points
import proofs.«131268_j17901423689856_2_alg».proof.Proof.Gen.KernelIdeal.Frame
import proofs.«131268_j17901423689856_2_alg».proof.Proof.Gen.ReferenceIdeal
import proofs.«131268_j17901423689856_2_alg».proof.Proof.Gen.ReferenceIdeal.Run
import proofs.«131268_j17901423689856_2_alg».proof.Proof.Gen.ReferenceIdeal.Read
import proofs.«131268_j17901423689856_2_alg».proof.Proof.Gen.Pre_finite_inputs
import proofs.«131268_j17901423689856_2_alg».proof.Proof.KernelValue
import proofs.«131268_j17901423689856_2_alg».proof.Proof.RefValues
import Idealize.ShloMosaic.Adequacy
import Idealize.ShloMosaic.Init

noncomputable section

namespace Cert.Proof

open Idealize.ShloMosaic Idealize.SL.Sem Cert.QMlp

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, both programs end with the re-quantized second layer and its scale: the kernel's run
    gives them with the second layer fed the grid values, the reference's with the grid values times the scale over
    the scale, and the two second layers are one function. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5⟩ := hagree c
    have hy : Cert.ReferenceIdeal.RefValues.yRef
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        = Cert.KernelIdeal.KernelValue.yK m c := netYref_eq _ _ _ _ _ _
    rw [(h c).1, Cert.ReferenceIdeal.Read.val_main_v67_eq, e0, e1, e2, e3, e4, e5]
    funext i
    exact (Cert.ReferenceIdeal.RefValues.ref_out _ _ _ _ _ _ i).trans
      (congrFun (congrFun (congrArg (fun y => requant y (actScale y)) hy) (rowOf i)) (i 2))
  · obtain ⟨e0, e1, e2, e3, e4, e5⟩ := hagree c
    have hy : Cert.ReferenceIdeal.RefValues.yRef
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        = Cert.KernelIdeal.KernelValue.yK m c := netYref_eq _ _ _ _ _ _
    rw [(h c).2.1, Cert.ReferenceIdeal.Read.val_main_v61_eq, e0, e1, e2, e3, e4, e5]
    funext i
    exact (Cert.ReferenceIdeal.RefValues.ref_scale _ _ _ _ _ _ i).trans (congrArg actScale hy)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
